-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S512x10 : Shape := ⟨2, ![512, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg8 : FVec F S3x128 .f32) (main_arg9 : FVec F S512x10 .f32) (main_arg10 : FVec F S10 .f32) (main_v33 : IVec S_ 1) : IVec S_ 1 :=
  let main_v34 : FVec F S512x10 .f32 := Host.absf main_arg9
  let main_cst_12 : FVec F S_ .f32 := constant S_ .f32 0x7F800000#32
  let main_v35 : FVec F S512x10 .f32 := broadcastInDim S512x10 ![] bcast_S_S512x10 main_cst_12
  let main_v36 : IVec S512x10 1 := cmpf .olt main_v34 main_v35
  let main_c_13 : IVec S_ 1 := constantI S_ 1 1#1
  let main_v37 : IVec S_ 1 := (fun x v => Host.reduce IntOp.andi x v reducesTo_S512x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_cst_16 : FVec F S_ .f32 := constant S_ .f32 0x00000000#32
  let main_v44 : FVec F S3x128 .f32 := broadcastInDim S3x128 ![] bcast_S_S3x128 main_cst_16
  let main_v45 : IVec S3x128 1 := cmpf .oge main_arg8 main_v44
  let main_c_17 : IVec S_ 1 := constantI S_ 1 1#1
  let main_v46 : IVec S_ 1 := (fun x v => Host.reduce IntOp.andi x v reducesTo_S3x128_S_d0_1 h_S_) main_v45 main_c_17
  let main_v47 : IVec S_ 1 := andi main_v43 main_v46
  main_v47

def fn_part1 {F : FTy → Type} [FloatOps F] (main_arg6 : FVec F S3x128 .f32) (main_arg7 : FVec F S3x128 .f32) (main_arg8 : FVec F S3x128 .f32) (main_arg9 : FVec F S512x10 .f32) (main_arg10 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : IVec S50000 32) (main_arg3 : FVec F S3x128x128 .f32) (main_arg4 : FVec F S3x128 .f32) (main_arg5 : FVec F S3x128 .f32) (main_arg6 : FVec F S3x128 .f32) (main_arg7 : FVec F S3x128 .f32) (main_arg8 : FVec F S3x128 .f32) (main_arg9 : FVec F S512x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S512x10 : Shape := ⟨2, ![512, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S2000x128 : Shape := ⟨2, ![2000, 128]⟩
abbrev S50000x1 : Shape := ⟨2, ![50000, 1]⟩
abbrev S128x1 : Shape := ⟨2, ![128, 1]⟩
abbrev S128x512 : Shape := ⟨2, ![128, 512]⟩
abbrev S128x10 : Shape := ⟨2, ![128, 10]⟩
abbrev S1x10 : Shape := ⟨2, ![1, 10]⟩

abbrev nBuf : Space → Nat
  | .hbm => 223
  | .vmem => 27
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S512x10, .f32⟩
  | 10 => ⟨S10, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S850000x1, .f32⟩
  | 45 => ⟨S50000x128, .bf16⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x128, .bf16⟩
  | 55 => ⟨S850000x128, .f32⟩
  | 56 => ⟨S850000x128, .f32⟩
  | 57 => ⟨S850000x128, .f32⟩
  | 58 => ⟨S_, .f32⟩
  | 59 => ⟨S50000x128, .f32⟩
  | 60 => ⟨S850000x1, .i32⟩
  | 61 => ⟨S50000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S128, .f32⟩
  | 69 => ⟨S128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S128, .f32⟩
  | 77 => ⟨S128, .f32⟩
  | 78 => ⟨S128, .f32⟩
  | 79 => ⟨S128, .f32⟩
  | 80 => ⟨S1x128x128, .f32⟩
  | 81 => ⟨S128x128, .f32⟩
  | 82 => ⟨S1x128, .f32⟩
  | 83 => ⟨S1x128, .f32⟩
  | 84 => ⟨S50000x128, .f32⟩
  | 85 => ⟨S50000x128, .bf16⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .bf16⟩
  | 95 => ⟨S850000x128, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S1x128, .f32⟩
  | 103 => ⟨S128, .f32⟩
  | 104 => ⟨S1x128, .f32⟩
  | 105 => ⟨S128, .f32⟩
  | 106 => ⟨S_, .f32⟩
  | 107 => ⟨S128, .f32⟩
  | 108 => ⟨S128, .f32⟩
  | 109 => ⟨S128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S128, .f32⟩
  | 118 => ⟨S128, .f32⟩
  | 119 => ⟨S128, .f32⟩
  | 120 => ⟨S1x128x128, .f32⟩
  | 121 => ⟨S128x128, .f32⟩
  | 122 => ⟨S1x128, .f32⟩
  | 123 => ⟨S1x128, .f32⟩
  | 124 => ⟨S50000x128, .f32⟩
  | 125 => ⟨S50000x128, .bf16⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x128, .bf16⟩
  | 7 => ⟨S850000x128, .f32⟩
  | 8 => ⟨S850000x128, .f32⟩
  | 9 => ⟨S850000x128, .f32⟩
  | 10 => ⟨S_, .f32⟩
  | 11 => ⟨S50000x128, .f32⟩
  | 12 => ⟨S850000x1, .i32⟩
  | 13 => ⟨S50000x128, .f32⟩
  | 14 => ⟨S1x128, .f32⟩
  | 15 => ⟨S128, .f32⟩
  | 16 => ⟨S1x128, .f32⟩
  | 17 => ⟨S128, .f32⟩
  | 18 => ⟨S_, .f32⟩
  | 19 => ⟨S128, .f32⟩
  | 20 => ⟨S128, .f32⟩
  | 21 => ⟨S128, .f32⟩
  | 22 => ⟨S128, .f32⟩
  | 23 => ⟨S1x128, .f32⟩
  | 24 => ⟨S128, .f32⟩
  | 25 => ⟨S1x128, .f32⟩
  | 26 => ⟨S128, .f32⟩
  | 27 => ⟨S1x128, .f32⟩
  | 28 => ⟨S128, .f32⟩
  | 29 => ⟨S128, .f32⟩
  | 30 => ⟨S128, .f32⟩
  | 31 => ⟨S128, .f32⟩
  | 32 => ⟨S1x128x128, .f32⟩
  | 33 => ⟨S128x128, .f32⟩
  | 34 => ⟨S1x128, .f32⟩
  | 35 => ⟨S1x128, .f32⟩
  | 36 => ⟨S50000x128, .f32⟩
  | 37 => ⟨S50000x128, .bf16⟩
  | 38 => ⟨S_, .f32⟩
  | 39 => ⟨S50000, .f32⟩
  | 40 => ⟨S_, .f32⟩
  | 41 => ⟨S128, .f32⟩
  | 42 => ⟨S50000x1, .i32⟩
  | 43 => ⟨S128, .f32⟩
  | 44 => ⟨S_, .f32⟩
  | 45 => ⟨S128, .f32⟩
  | 46 => ⟨S128, .f32⟩
  | 47 => ⟨S_, .f32⟩
  | 48 => ⟨S128x128, .f32⟩
  | 49 => ⟨S50000x1, .i32⟩
  | 50 => ⟨S128x128, .f32⟩
  | 51 => ⟨S128x1, .f32⟩
  | 52 => ⟨S128x128, .f32⟩
  | 53 => ⟨S128x128, .f32⟩
  | 54 => ⟨S_, .f32⟩
  | 55 => ⟨S128x128, .f32⟩
  | 56 => ⟨S50000x1, .i32⟩
  | 57 => ⟨S128x128, .f32⟩
  | 58 => ⟨S128x1, .f32⟩
  | 59 => ⟨S128x128, .f32⟩
  | 60 => ⟨S128x128, .f32⟩
  | 61 => ⟨S_, .f32⟩
  | 62 => ⟨S128x128, .f32⟩
  | 63 => ⟨S50000x1, .i32⟩
  | 64 => ⟨S128x128, .f32⟩
  | 65 => ⟨S128x1, .f32⟩
  | 66 => ⟨S128x128, .f32⟩
  | 67 => ⟨S128x128, .f32⟩
  | 68 => ⟨S_, .f32⟩
  | 69 => ⟨S128x128, .f32⟩
  | 70 => ⟨S50000x1, .i32⟩
  | 71 => ⟨S128x128, .f32⟩
  | 72 => ⟨S128x1, .f32⟩
  | 73 => ⟨S128x128, .f32⟩
  | 74 => ⟨S128x128, .f32⟩
  | 75 => ⟨S128x512, .f32⟩
  | 76 => ⟨S128x10, .f32⟩
  | 77 => ⟨S1x10, .f32⟩
  | 78 => ⟨S128x10, .f32⟩
  | 79 => ⟨S128x10, .f32⟩
  | 80 => ⟨S_, .f32⟩
  | 81 => ⟨S128, .f32⟩
  | 82 => ⟨S_, .f32⟩
  | 83 => ⟨S128, .f32⟩
  | 84 => ⟨S128, .f32⟩
  | 85 => ⟨S128x1, .f32⟩
  | 86 => ⟨S128x10, .f32⟩
  | 87 => ⟨S128x10, .f32⟩
  | 88 => ⟨S128x10, .f32⟩
  | 89 => ⟨S_, .f32⟩
  | 90 => ⟨S128, .f32⟩
  | 91 => ⟨S128x1, .f32⟩
  | 92 => ⟨S128x1, .f32⟩
  | 93 => ⟨S128x10, .f32⟩
  | 94 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S2000x128, .f32⟩
  | .local _ .vmem, ⟨6, _⟩ => ⟨S2000x128, .f32⟩
  | .local _ .vmem, ⟨7, _⟩ => ⟨S2000x128, .bf16⟩
  | .local _ .vmem, ⟨8, _⟩ => ⟨S2000x128, .bf16⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S1x128, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .bf16⟩
  | .local _ .vmem, ⟨17, _⟩ => ⟨S2000x128, .bf16⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | .local _ .vmem, ⟨25, _⟩ => ⟨S2000x128, .bf16⟩
  | .local _ .vmem, ⟨26, _⟩ => ⟨S2000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_4 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63_0 : Ref sig .tc := ⟨.hbm, 84, rfl⟩
abbrev main_v63_1 : Ref sig .tc := ⟨.hbm, 85, rfl⟩
abbrev main_c_8 : Ref sig .tc := ⟨.hbm, 86, rfl⟩
abbrev main_v64 : Ref sig .tc := ⟨.hbm, 87, rfl⟩
abbrev main_v65 : Ref sig .tc := ⟨.hbm, 88, rfl⟩
abbrev main_c_9 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_10 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_11 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98_0 : Ref sig .tc := ⟨.hbm, 124, rfl⟩
abbrev main_v98_1 : Ref sig .tc := ⟨.hbm, 125, rfl⟩
abbrev main_c_12 : Ref sig .tc := ⟨.hbm, 126, rfl⟩
abbrev main_v99 : Ref sig .tc := ⟨.hbm, 127, rfl⟩
abbrev main_v100 : Ref sig .tc := ⟨.hbm, 128, rfl⟩
abbrev main_c_13 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_14 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_15 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133_0 : Ref sig .tc := ⟨.hbm, 164, rfl⟩
abbrev main_v133_1 : Ref sig .tc := ⟨.hbm, 165, rfl⟩
abbrev main_cst_16 : Ref sig .tc := ⟨.hbm, 166, rfl⟩
abbrev main_v134 : Ref sig .tc := ⟨.hbm, 167, rfl⟩
abbrev main_cst_17 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_cst_18 : Ref sig .tc := ⟨.hbm, 172, rfl⟩
abbrev main_v138 : Ref sig .tc := ⟨.hbm, 173, rfl⟩
abbrev main_v139 : Ref sig .tc := ⟨.hbm, 174, rfl⟩
abbrev main_cst_19 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_cst_20 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_21 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_cst_22 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_call0_cst : Ref sig .tc := ⟨.hbm, 208, rfl⟩
abbrev main_call0_v0 : Ref sig .tc := ⟨.hbm, 209, rfl⟩
abbrev main_call0_cst_0 : Ref sig .tc := ⟨.hbm, 210, rfl⟩
abbrev main_call0_v1 : Ref sig .tc := ⟨.hbm, 211, rfl⟩
abbrev main_call0_v2 : Ref sig .tc := ⟨.hbm, 212, rfl⟩
abbrev main_call0_v3 : Ref sig .tc := ⟨.hbm, 213, rfl⟩
abbrev main_call0_v4 : Ref sig .tc := ⟨.hbm, 214, rfl⟩
abbrev main_call0_v5 : Ref sig .tc := ⟨.hbm, 215, rfl⟩
abbrev main_call0_v6 : Ref sig .tc := ⟨.hbm, 216, rfl⟩
abbrev main_call0_cst_1 : Ref sig .tc := ⟨.hbm, 217, rfl⟩
abbrev main_call0_v7 : Ref sig .tc := ⟨.hbm, 218, rfl⟩
abbrev main_call0_v8 : Ref sig .tc := ⟨.hbm, 219, rfl⟩
abbrev main_call0_v9 : Ref sig .tc := ⟨.hbm, 220, rfl⟩
abbrev main_call0_v10 : Ref sig .tc := ⟨.hbm, 221, rfl⟩
abbrev main_v169 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem4_1 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S_S128 : S_.BroadcastsInDim S128 (![] : Fin 0 → Fin S128.rank)
  slices_S3x128x128_S1x128x128_0_0_0 : S3x128x128.Slices ![0, 0, 0] S1x128x128
  shapeCasts_S1x128x128_S128x128 : S1x128x128.ShapeCasts S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  bcast_S50000_S50000x1_0 : S50000.BroadcastsInDim S50000x1 (![0] : Fin 1 → Fin S50000x1.rank)
  bcast_S_S128x128 : S_.BroadcastsInDim S128x128 (![] : Fin 0 → Fin S128x128.rank)
  bcast_S128_S128x1_0 : S128.BroadcastsInDim S128x1 (![0] : Fin 1 → Fin S128x1.rank)
  bcast_S128x1_S128x128_0_1 : S128x1.BroadcastsInDim S128x128 (![0, 1] : Fin 2 → Fin S128x128.rank)
  concatenates_S128x128_S128x128_S128x128_S128x128_S128x512_d1 : Shape.Concatenates [S128x128, S128x128, S128x128, S128x128] S128x512 1
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  scatter_S128_S50000x1_S50000_n_0_0_1_wf : ScatterDims.WF S128 S50000x1 S50000 [] [0] [0] 1
  scatter_S128x128_S50000x1_S50000x128_1_0_0_1_wf : ScatterDims.WF S128x128 S50000x1 S50000x128 [1] [0] [0] 1
  dot_S128x512_S512x10_S128x10_1_0_0_1_n_n_wf : DotDims.WF S128x512 S512x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .bf16 = 32 ∨ (Rect.block (s := S50000x128) S2000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .bf16 = 32 ∨ (Rect.block (s := S50000x128) S2000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .bf16 = 32 ∨ (Rect.block (s := S50000x128) S2000x128.size (cc2_transform_5 i) (hinb2_5 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x512_S512x10_S128x10_1_0_0_1_n_n : DotDims S128x512 S512x10 S128x10 where
  lhsContracting := [1]
  rhsContracting := [0]
  lhsNonContracting := [0]
  rhsNonContracting := [1]
  lhsBatch := []
  rhsBatch := []
  wf := dot_S128x512_S512x10_S128x10_1_0_0_1_n_n_wf

abbrev win0_0 : Pipeline.Window sig grid0 :=
  Pipeline.Window.ofSpec (Memref.whole main_v41) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v61) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v62) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v63_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v63_1) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v76) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v95) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v96) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v97) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v98_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v98_1) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v111) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v130) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v131) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v132) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v133_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v133_1) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S3x128x128 : Shape := ⟨3, ![3, 128, 128]⟩
abbrev S3x128 : Shape := ⟨2, ![3, 128]⟩
abbrev S512x10 : Shape := ⟨2, ![512, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S850000x128 : Shape := ⟨2, ![850000, 128]⟩
abbrev S1x128 : Shape := ⟨2, ![1, 128]⟩
abbrev S128 : Shape := ⟨1, ![128]⟩
abbrev S50000x512 : Shape := ⟨2, ![50000, 512]⟩
abbrev S50000x1 : Shape := ⟨2, ![50000, 1]⟩
abbrev S128x512 : Shape := ⟨2, ![128, 512]⟩
abbrev S128x1 : Shape := ⟨2, ![128, 1]⟩
abbrev S128x10 : Shape := ⟨2, ![128, 10]⟩
abbrev S1x10 : Shape := ⟨2, ![1, 10]⟩

abbrev nBuf : Space → Nat
  | .hbm => 233
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S3x128x128, .f32⟩
  | 4 => ⟨S3x128, .f32⟩
  | 5 => ⟨S3x128, .f32⟩
  | 6 => ⟨S3x128, .f32⟩
  | 7 => ⟨S3x128, .f32⟩
  | 8 => ⟨S3x128, .f32⟩
  | 9 => ⟨S512x10, .f32⟩
  | 10 => ⟨S10, .f32⟩
  | 11 => ⟨S50000, .i32⟩
  | 12 => ⟨S1x800000, .i32⟩
  | 13 => ⟨S800000, .i32⟩
  | 14 => ⟨S850000, .i32⟩
  | 15 => ⟨S1x800000, .i32⟩
  | 16 => ⟨S800000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S50000, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000, .f32⟩
  | 34 => ⟨S_, .i32⟩
  | 35 => ⟨S850000, .i32⟩
  | 36 => ⟨S850000, .i1⟩
  | 37 => ⟨S_, .i32⟩
  | 38 => ⟨S850000, .i32⟩
  | 39 => ⟨S850000, .i32⟩
  | 40 => ⟨S850000, .i32⟩
  | 41 => ⟨S850000x1, .i32⟩
  | 42 => ⟨S850000, .f32⟩
  | 43 => ⟨S850000, .f32⟩
  | 44 => ⟨S1x128x128, .f32⟩
  | 45 => ⟨S128x128, .f32⟩
  | 46 => ⟨S50000x128, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S128, .f32⟩
  | 65 => ⟨S1x128, .f32⟩
  | 66 => ⟨S50000x128, .f32⟩
  | 67 => ⟨S50000x128, .f32⟩
  | 68 => ⟨S1x128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S128, .f32⟩
  | 75 => ⟨S_, .f32⟩
  | 76 => ⟨S128, .f32⟩
  | 77 => ⟨S128, .f32⟩
  | 78 => ⟨S128, .f32⟩
  | 79 => ⟨S1x128, .f32⟩
  | 80 => ⟨S50000x128, .f32⟩
  | 81 => ⟨S50000x128, .f32⟩
  | 82 => ⟨S1x128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S1x128x128, .f32⟩
  | 96 => ⟨S128x128, .f32⟩
  | 97 => ⟨S50000x128, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x128, .f32⟩
  | 107 => ⟨S850000x1, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S1x128, .f32⟩
  | 125 => ⟨S128, .f32⟩
  | 126 => ⟨S_, .f32⟩
  | 127 => ⟨S128, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S1x128, .f32⟩
  | 8 => ⟨S50000x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S1x128x128, .f32⟩
  | 19 => ⟨S128x128, .f32⟩
  | 20 => ⟨S50000x128, .f32⟩
  | 21 => ⟨S_, .i32⟩
  | 22 => ⟨S850000, .i32⟩
  | 23 => ⟨S850000, .i1⟩
  | 24 => ⟨S_, .i32⟩
  | 25 => ⟨S850000, .i32⟩
  | 26 => ⟨S850000, .i32⟩
  | 27 => ⟨S850000, .i32⟩
  | 28 => ⟨S850000x1, .i32⟩
  | 29 => ⟨S850000x128, .f32⟩
  | 30 => ⟨S850000x1, .f32⟩
  | 31 => ⟨S850000x128, .f32⟩
  | 32 => ⟨S850000x128, .f32⟩
  | 33 => ⟨S_, .f32⟩
  | 34 => ⟨S50000x128, .f32⟩
  | 35 => ⟨S850000x1, .i32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S_, .f32⟩
  | 50 => ⟨S128, .f32⟩
  | 51 => ⟨S128, .f32⟩
  | 52 => ⟨S128, .f32⟩
  | 53 => ⟨S1x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x512, .f32⟩
  | 70 => ⟨S_, .f32⟩
  | 71 => ⟨S50000, .f32⟩
  | 72 => ⟨S_, .f32⟩
  | 73 => ⟨S128, .f32⟩
  | 74 => ⟨S50000x1, .i32⟩
  | 75 => ⟨S128, .f32⟩
  | 76 => ⟨S_, .f32⟩
  | 77 => ⟨S128x512, .f32⟩
  | 78 => ⟨S50000x1, .i32⟩
  | 79 => ⟨S128x512, .f32⟩
  | 80 => ⟨S_, .f32⟩
  | 81 => ⟨S128, .f32⟩
  | 82 => ⟨S128, .f32⟩
  | 83 => ⟨S128x1, .f32⟩
  | 84 => ⟨S128x512, .f32⟩
  | 85 => ⟨S128x512, .f32⟩
  | 86 => ⟨S128x10, .f32⟩
  | 87 => ⟨S1x10, .f32⟩
  | 88 => ⟨S128x10, .f32⟩
  | 89 => ⟨S128x10, .f32⟩
  | 90 => ⟨S_, .f32⟩
  | 91 => ⟨S128, .f32⟩
  | 92 => ⟨S_, .f32⟩
  | 93 => ⟨S128, .f32⟩
  | 94 => ⟨S128, .f32⟩
  | 95 => ⟨S128x1, .f32⟩
  | 96 => ⟨S128x10, .f32⟩
  | 97 => ⟨S128x10, .f32⟩
  | 98 => ⟨S128x10, .f32⟩
  | 99 => ⟨S_, .f32⟩
  | 100 => ⟨S128, .f32⟩
  | 101 => ⟨S128x1, .f32⟩
  | 102 => ⟨S128x1, .f32⟩
  | 103 => ⟨S128x10, .f32⟩
  | 104 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_2 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_7 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_call0_cst : Ref sig .tc := ⟨.hbm, 92, rfl⟩
abbrev main_call0_v0 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_8 : Ref sig .tc := ⟨.hbm, 98, rfl⟩
abbrev main_v75 : Ref sig .tc := ⟨.hbm, 99, rfl⟩
abbrev main_v76 : Ref sig .tc := ⟨.hbm, 100, rfl⟩
abbrev main_c_9 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_cst_10 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_11 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_call1_cst : Ref sig .tc := ⟨.hbm, 143, rfl⟩
abbrev main_call1_v0 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_c_12 : Ref sig .tc := ⟨.hbm, 149, rfl⟩
abbrev main_v120 : Ref sig .tc := ⟨.hbm, 150, rfl⟩
abbrev main_v121 : Ref sig .tc := ⟨.hbm, 151, rfl⟩
abbrev main_c_13 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_14 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_cst_15 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_call2_cst : Ref sig .tc := ⟨.hbm, 194, rfl⟩
abbrev main_call2_v0 : Ref sig .tc := ⟨.hbm, 195, rfl⟩
abbrev main_v161 : Ref sig .tc := ⟨.hbm, 196, rfl⟩
abbrev main_v162 : Ref sig .tc := ⟨.hbm, 197, rfl⟩
abbrev main_cst_16 : Ref sig .tc := ⟨.hbm, 198, rfl⟩
abbrev main_v163 : Ref sig .tc := ⟨.hbm, 199, rfl⟩
abbrev main_cst_17 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_18 : Ref sig .tc := ⟨.hbm, 204, rfl⟩
abbrev main_v167 : Ref sig .tc := ⟨.hbm, 205, rfl⟩
abbrev main_v168 : Ref sig .tc := ⟨.hbm, 206, rfl⟩
abbrev main_v169 : Ref sig .tc := ⟨.hbm, 207, rfl⟩
abbrev main_cst_19 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_v177 : Ref sig .tc := ⟨.hbm, 216, rfl⟩
abbrev main_v178 : Ref sig .tc := ⟨.hbm, 217, rfl⟩
abbrev main_call3_cst : Ref sig .tc := ⟨.hbm, 218, rfl⟩
abbrev main_call3_v0 : Ref sig .tc := ⟨.hbm, 219, rfl⟩
abbrev main_call3_cst_0 : Ref sig .tc := ⟨.hbm, 220, rfl⟩
abbrev main_call3_v1 : Ref sig .tc := ⟨.hbm, 221, rfl⟩
abbrev main_call3_v2 : Ref sig .tc := ⟨.hbm, 222, rfl⟩
abbrev main_call3_v3 : Ref sig .tc := ⟨.hbm, 223, rfl⟩
abbrev main_call3_v4 : Ref sig .tc := ⟨.hbm, 224, rfl⟩
abbrev main_call3_v5 : Ref sig .tc := ⟨.hbm, 225, rfl⟩
abbrev main_call3_v6 : Ref sig .tc := ⟨.hbm, 226, rfl⟩
abbrev main_call3_cst_1 : Ref sig .tc := ⟨.hbm, 227, rfl⟩
abbrev main_call3_v7 : Ref sig .tc := ⟨.hbm, 228, rfl⟩
abbrev main_call3_v8 : Ref sig .tc := ⟨.hbm, 229, rfl⟩
abbrev main_call3_v9 : Ref sig .tc := ⟨.hbm, 230, rfl⟩
abbrev main_call3_v10 : Ref sig .tc := ⟨.hbm, 231, rfl⟩
abbrev main_v179 : Ref sig .tc := ⟨.hbm, 232, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S50000x128_S50000x128_S50000x128_S50000x128_S50000x512_d1 : Shape.Concatenates [S50000x128, S50000x128, S50000x128, S50000x128] S50000x512 1
  bcast_S50000_S50000x1_0 : S50000.BroadcastsInDim S50000x1 (![0] : Fin 1 → Fin S50000x1.rank)
  bcast_S_S128x512 : S_.BroadcastsInDim S128x512 (![] : Fin 0 → Fin S128x512.rank)
  bcast_S128_S128x1_0 : S128.BroadcastsInDim S128x1 (![0] : Fin 1 → Fin S128x1.rank)
  bcast_S128x1_S128x512_0_1 : S128x1.BroadcastsInDim S128x512 (![0, 1] : Fin 2 → Fin S128x512.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  reducesTo_S128x10_S128_d1 : S128x10.ReducesTo [1] S128
  h_S_ : 0 < S_.numel
  bcast_S128x1_S128x10_0_1 : S128x1.BroadcastsInDim S128x10 (![0, 1] : Fin 2 → Fin S128x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S128_S50000x1_S50000_n_0_0_1_wf : ScatterDims.WF S128 S50000x1 S50000 [] [0] [0] 1
  scatter_S128x512_S50000x1_S50000x512_1_0_0_1_wf : ScatterDims.WF S128x512 S50000x1 S50000x512 [1] [0] [0] 1
  dot_S128x512_S512x10_S128x10_1_0_0_1_n_n_wf : DotDims.WF S128x512 S512x10 S128x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x512_S50000x1_S50000x512_1_0_0_1 : ScatterDims S128x512 S50000x1 S50000x512 where
  updateWindowDims := [1]
  insertedWindowDims := [0]
  scatterDimsToOperandDims := [0]
  indexVectorDim := 1
  wf := scatter_S128x512_S50000x1_S50000x512_1_0_0_1_wf
def dot_S128x512_S512x10_S128x10_1_0_0_1_n_n : DotDims S128x512 S512x10 S128x10 where
  lhsContracting := [1]
  rhsContracting := [0]
  lhsNonContracting := [0]
  rhsNonContracting := [1]
  lhsBatch := []
  rhsBatch := []
  wf := dot_S128x512_S512x10_S128x10_1_0_0_1_n_n_wf

class Facts : Prop extends Facts₀ where

variable [Facts]
-- ==== Proof.KRegion0.lean ====
import proofs.«160187_j35459249995962_2_alg».proof.Proof.Gen.Kernel.Launch
import proofs.«160187_j35459249995962_2_alg».proof.Proof.Gen.Kernel.Skeleton
import proofs.«160187_j35459249995962_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# One layer's fused kernel as a pipeline region (region 0)

The region streams a [50000, 128] array through 25 blocks of 2000 rows. At each grid point the body reads the
current row block (window 0), the whole 128 x 128 weight (window 1) and the two 1 x 128 rows of the folded
normalisation (windows 2 and 3), and writes the block of the same rows of its two results (windows 4 and 5):
`max (block * weight * scale + offset, 0)` in f32 and the same value narrowed to bf16. The body keeps nothing
between points, so what each output buffer holds after the body is a function of the four input blocks alone.
Everything here is stated at a parameter `V`, the contents of the TensorCore's arrays when the region is entered.
-/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block of the entry array at every point, whether the
    pipeline fetched it there or left it in place (its block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block of the entry array at every point, whether the
    pipeline fetched it there or left it in place (its block index did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block of the entry array at every point, whether the
    pipeline fetched it there or left it in place (its block index did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block of the entry array at every point, whether the
    pipeline fetched it there or left it in place (its block index did not move). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rBlk0 : Rect S2000x128 := Rect.unit (s := S2000x128) ![0, 0] S2000x128.size inb_S2000x128_S2000x128_0_0
abbrev rMat0 : Rect S128x128 := Rect.unit (s := S128x128) ![0, 0] S128x128.size inb_S128x128_S128x128_0_0
abbrev rRow0 : Rect S1x128 := Rect.unit (s := S1x128) ![0, 0] S1x128.size inb_S1x128_S1x128_0_0

/-- The f32 result buffer after the body: its one whole-buffer store of the layer's value of the four loaded blocks. -/
def out0_4 (x0 : Vec F S2000x128 .f32) (x1 : Vec F S128x128 .f32) (x2 : Vec F S1x128 .f32) (x3 : Vec F S1x128 .f32) : Vec F S2000x128 .f32 :=
  View.canon [⟨rBlk0, k0_pay1 (View.ld x0 rBlk0) (View.ld x1 rMat0) (View.ld x2 rRow0) (View.ld x3 rRow0)⟩]
/-- The bf16 result buffer after the body: the same value narrowed. -/
def out0_5 (x0 : Vec F S2000x128 .f32) (x1 : Vec F S128x128 .f32) (x2 : Vec F S1x128 .f32) (x3 : Vec F S1x128 .f32) : Vec F S2000x128 .bf16 :=
  View.canon [⟨rBlk0, k0_pay2 (View.ld x0 rBlk0) (View.ld x1 rMat0) (View.ld x2 rRow0) (View.ld x3 rRow0)⟩]

/-- One whole-buffer store covers the buffer. -/
theorem cover0_4 (p0 : Vec F S2000x128 .f32) (y : S2000x128.Idx) :
    ∃ pc ∈ ([⟨rBlk0, p0⟩] : List (View.Piece (Elt F) S2000x128 .f32)), y ∈ pc.1.set :=
  View.cover_of_tiled [⟨rBlk0, p0⟩] S2000x128.size (by rfl) y
theorem cover0_5 (p0 : Vec F S2000x128 .bf16) (y : S2000x128.Idx) :
    ∃ pc ∈ ([⟨rBlk0, p0⟩] : List (View.Piece (Elt F) S2000x128 .bf16)), y ∈ pc.1.set :=
  View.cover_of_tiled [⟨rBlk0, p0⟩] S2000x128.size (by rfl) y

set_option maxHeartbeats 1000000 in
/-- The body on whole staging buffers: the four inputs at given contents, the two outputs at anything, run to the
    continuation with the inputs as they were and each output at its value of the inputs. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .bf16) (harg6 : arg6.IsWhole)
    (x0 : Vec F S2000x128 .f32) (x1 : Vec F S128x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1 x2 x3)) -∗ K ⟨⟩))
      ⊢ wp frame (wpE (defs₀ (F := F)) Variants.none c none) E (cc0__fused_layer_kernel i arg1 harg1 arg2 harg2 arg3 harg3 arg4 harg4 arg5 harg5 arg6 harg6) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The pipeline's proof data on core `c`: the arrays as the region finds them; after the body at point `t` each input
    buffer still at its block and each output buffer at the layer's value of the four input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
import proofs.«160187_j35459249995962_2_alg».proof.Proof.Gen.Kernel.Launch
import proofs.«160187_j35459249995962_2_alg».proof.Proof.Gen.Kernel.Skeleton
import proofs.«160187_j35459249995962_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the same fused layer kernel, on the arrays the region before it and the host lines after it left (see region 0's module for the description). -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block of the entry array at every point, whether the
    pipeline fetched it there or left it in place (its block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block of the entry array at every point, whether the
    pipeline fetched it there or left it in place (its block index did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block of the entry array at every point, whether the
    pipeline fetched it there or left it in place (its block index did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block of the entry array at every point, whether the
    pipeline fetched it there or left it in place (its block index did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rBlk1 : Rect S2000x128 := Rect.unit (s := S2000x128) ![0, 0] S2000x128.size inb_S2000x128_S2000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-- The f32 result buffer after the body: its one whole-buffer store of the layer's value of the four loaded blocks. -/
def out1_4 (x0 : Vec F S2000x128 .f32) (x1 : Vec F S128x128 .f32) (x2 : Vec F S1x128 .f32) (x3 : Vec F S1x128 .f32) : Vec F S2000x128 .f32 :=
  View.canon [⟨rBlk1, k1_pay1 (View.ld x0 rBlk1) (View.ld x1 rMat1) (View.ld x2 rRow1) (View.ld x3 rRow1)⟩]
/-- The bf16 result buffer after the body: the same value narrowed. -/
def out1_5 (x0 : Vec F S2000x128 .f32) (x1 : Vec F S128x128 .f32) (x2 : Vec F S1x128 .f32) (x3 : Vec F S1x128 .f32) : Vec F S2000x128 .bf16 :=
  View.canon [⟨rBlk1, k1_pay2 (View.ld x0 rBlk1) (View.ld x1 rMat1) (View.ld x2 rRow1) (View.ld x3 rRow1)⟩]

/-- One whole-buffer store covers the buffer. -/
theorem cover1_4 (p0 : Vec F S2000x128 .f32) (y : S2000x128.Idx) :
    ∃ pc ∈ ([⟨rBlk1, p0⟩] : List (View.Piece (Elt F) S2000x128 .f32)), y ∈ pc.1.set :=
  View.cover_of_tiled [⟨rBlk1, p0⟩] S2000x128.size (by rfl) y
theorem cover1_5 (p0 : Vec F S2000x128 .bf16) (y : S2000x128.Idx) :
    ∃ pc ∈ ([⟨rBlk1, p0⟩] : List (View.Piece (Elt F) S2000x128 .bf16)), y ∈ pc.1.set :=
  View.cover_of_tiled [⟨rBlk1, p0⟩] S2000x128.size (by rfl) y

set_option maxHeartbeats 1000000 in
/-- The body on whole staging buffers: the four inputs at given contents, the two outputs at anything, run to the
    continuation with the inputs as they were and each output at its value of the inputs. -/
theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .bf16) (harg6 : arg6.IsWhole)
    (x0 : Vec F S2000x128 .f32) (x1 : Vec F S128x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)
            ∗ owns (c : Thread nD τ) arg6 fullShare (out1_5 x0 x1 x2 x3)) -∗ K ⟨⟩))
      ⊢ wp frame (wpE (defs₀ (F := F)) Variants.none c none) E (cc1__fused_layer_kernel i arg1 harg1 arg2 harg2 arg3 harg3 arg4 harg4 arg5 harg5 arg6 harg6) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- The pipeline's proof data on core `c`: the arrays as the region finds them; after the body at point `t` each input
    buffer still at its block and each output buffer at the layer's value of the four input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRegion2.lean ====
import proofs.«160187_j35459249995962_2_alg».proof.Proof.Gen.Kernel.Launch
import proofs.«160187_j35459249995962_2_alg».proof.Proof.Gen.Kernel.Skeleton
import proofs.«160187_j35459249995962_2_alg».proof.Proof.Gen.Kernel.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the same fused layer kernel, on the arrays the region before it and the host lines after it left (see region 0's module for the description). -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block of the entry array at every point, whether the
    pipeline fetched it there or left it in place (its block index did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block of the entry array at every point, whether the
    pipeline fetched it there or left it in place (its block index did not move). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block of the entry array at every point, whether the
    pipeline fetched it there or left it in place (its block index did not move). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block of the entry array at every point, whether the
    pipeline fetched it there or left it in place (its block index did not move). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rBlk2 : Rect S2000x128 := Rect.unit (s := S2000x128) ![0, 0] S2000x128.size inb_S2000x128_S2000x128_0_0
abbrev rMat2 : Rect S128x128 := Rect.unit (s := S128x128) ![0, 0] S128x128.size inb_S128x128_S128x128_0_0
abbrev rRow2 : Rect S1x128 := Rect.unit (s := S1x128) ![0, 0] S1x128.size inb_S1x128_S1x128_0_0

/-- The f32 result buffer after the body: its one whole-buffer store of the layer's value of the four loaded blocks. -/
def out2_4 (x0 : Vec F S2000x128 .f32) (x1 : Vec F S128x128 .f32) (x2 : Vec F S1x128 .f32) (x3 : Vec F S1x128 .f32) : Vec F S2000x128 .f32 :=
  View.canon [⟨rBlk2, k2_pay1 (View.ld x0 rBlk2) (View.ld x1 rMat2) (View.ld x2 rRow2) (View.ld x3 rRow2)⟩]
/-- The bf16 result buffer after the body: the same value narrowed. -/
def out2_5 (x0 : Vec F S2000x128 .f32) (x1 : Vec F S128x128 .f32) (x2 : Vec F S1x128 .f32) (x3 : Vec F S1x128 .f32) : Vec F S2000x128 .bf16 :=
  View.canon [⟨rBlk2, k2_pay2 (View.ld x0 rBlk2) (View.ld x1 rMat2) (View.ld x2 rRow2) (View.ld x3 rRow2)⟩]

/-- One whole-buffer store covers the buffer. -/
theorem cover2_4 (p0 : Vec F S2000x128 .f32) (y : S2000x128.Idx) :
    ∃ pc ∈ ([⟨rBlk2, p0⟩] : List (View.Piece (Elt F) S2000x128 .f32)), y ∈ pc.1.set :=
  View.cover_of_tiled [⟨rBlk2, p0⟩] S2000x128.size (by rfl) y
theorem cover2_5 (p0 : Vec F S2000x128 .bf16) (y : S2000x128.Idx) :
    ∃ pc ∈ ([⟨rBlk2, p0⟩] : List (View.Piece (Elt F) S2000x128 .bf16)), y ∈ pc.1.set :=
  View.cover_of_tiled [⟨rBlk2, p0⟩] S2000x128.size (by rfl) y

set_option maxHeartbeats 1000000 in
/-- The body on whole staging buffers: the four inputs at given contents, the two outputs at anything, run to the
    continuation with the inputs as they were and each output at its value of the inputs. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .bf16) (harg6 : arg6.IsWhole)
    (x0 : Vec F S2000x128 .f32) (x1 : Vec F S128x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E (cc2__fused_layer_kernel i arg1 harg1 arg2 harg2 arg3 harg3 arg4 harg4 arg5 harg5 arg6 harg6) K := by
  simp only [cc2__fused_layer_kernel_eq_skeleton]; unfold cc2__fused_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The pipeline's proof data on core `c`: the arrays as the region finds them; after the body at point `t` each input
    buffer still at its block and each output buffer at the layer's value of the four input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KKeeps.lean ====
import proofs.«160187_j35459249995962_2_alg».proof.Proof.Gen.Kernel.Launch
import Idealize.ShloMosaic.Lib.StableHlo.Run

set_option maxRecDepth 16384

/-!
# No host line writes an argument

@main's host lines, stretch by stretch, each write a buffer of their own: none of them is one of the eleven
argument arrays, so an argument's buffer is the same before and after each stretch.
-/

noncomputable section

namespace Cert.Kernel.Hand

open Cert.Kernel Cert.Kernel.Gen
open Idealize.ShloMosaic Idealize.ShloMosaic.TcCoe

variable {F : FTy → Type} [FloatOps F]

/-- The eleven argument arrays. -/
abbrev argRefs : List (Ref sig .tc) :=
  [main_arg0, main_arg1, main_arg2, main_arg3, main_arg4, main_arg5, main_arg6, main_arg7, main_arg8, main_arg9, main_arg10]

set_option maxHeartbeats 4000000 in
/-- No operation of `hostOps0` writes an argument array. -/
theorem keeps_hostOps0 (Vl : Valuation τ sig (Elt F)) (b : Ref sig .tc) (hb : b ∈ argRefs) :
    StableHlo.after (hostOps0 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps1` writes an argument array. -/
theorem keeps_hostOps1 (Vl : Valuation τ sig (Elt F)) (b : Ref sig .tc) (hb : b ∈ argRefs) :
    StableHlo.after (hostOps1 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps2` writes an argument array. -/
theorem keeps_hostOps2 (Vl : Valuation τ sig (Elt F)) (b : Ref sig .tc) (hb : b ∈ argRefs) :
    StableHlo.after (hostOps2 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps3` writes an argument array. -/
theorem keeps_hostOps3 (Vl : Valuation τ sig (Elt F)) (b : Ref sig .tc) (hb : b ∈ argRefs) :
    StableHlo.after (hostOps3 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps3_1` writes an argument array. -/
theorem keeps_hostOps3_1 (Vl : Valuation τ sig (Elt F)) (b : Ref sig .tc) (hb : b ∈ argRefs) :
    StableHlo.after (hostOps3_1 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps3_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

end Cert.Kernel.Hand

end
-- ==== Proof.KRun.lean ====
import proofs.«160187_j35459249995962_2_alg».proof.Proof.Gen.Kernel.Launch
import proofs.«160187_j35459249995962_2_alg».proof.Proof.Gen.Kernel.Skeleton
import proofs.«160187_j35459249995962_2_alg».proof.Proof.Gen.Kernel.Points
import proofs.«160187_j35459249995962_2_alg».proof.Proof.KRegion0
import proofs.«160187_j35459249995962_2_alg».proof.Proof.KRegion1
import proofs.«160187_j35459249995962_2_alg».proof.Proof.KRegion2
import proofs.«160187_j35459249995962_2_alg».proof.Proof.KKeeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The whole run of @main, with every buffer's final contents named

@main is eight items in order: a stretch of host lines, the first layer's region, a stretch, the second layer's
region, a stretch, the third layer's region, a stretch (the pooling and the head) and the outlined log-softmax.
The contents of the TensorCore's buffers at each boundary are a fold from the launch memory: a stretch applies its
lines in order; a region leaves its six arrays at what its pipeline's write-backs leave (the four inputs as entered,
the two results block by block) and every other buffer as entered. The run ends with every unscoped buffer at the
last boundary's contents; no item writes an argument array, so each argument is read back to its launch contents.
-/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, each output's write-backs
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the pooling and the head. -/
abbrev W7 : Dev nD → Valuation τ sig (Elt F) := fun c => StableHlo.after hostOps3 (W6 m ρ c)
/-- After the log-softmax: the contents @main returns with. -/
abbrev W8 : Dev nD → Valuation τ sig (Elt F) := fun c => StableHlo.after hostOps3_1 (W7 m ρ c)

/-! ### The arguments end as launched -/

/-- An argument array's buffer walks back through the fold to the launch memory: no stretch writes it
    and it is no region's array. -/
theorem W8_arg (c : Dev nD) (b : Ref sig .tc) (hb : b ∈ argRefs)
    (h0 : ∀ w, Pipeline.arrRef spec0 w ≠ b) (h1 : ∀ w, Pipeline.arrRef spec1 w ≠ b) (h2 : ∀ w, Pipeline.arrRef spec2 w ≠ b) :
    W8 m ρ c (Proc.devRef .tc b) = m ((c : Thread nD τ).loc b) :=
  calc W8 m ρ c (Proc.devRef .tc b)
    _ = W7 m ρ c (Proc.devRef .tc b) := keeps_hostOps3_1 _ b hb
    _ = W6 m ρ c (Proc.devRef .tc b) := keeps_hostOps3 _ b hb
    _ = W5 m ρ c (Proc.devRef .tc b) := W6_of_ne m ρ c b h2
    _ = W4 m ρ c (Proc.devRef .tc b) := keeps_hostOps2 _ b hb
    _ = W3 m ρ c (Proc.devRef .tc b) := W4_of_ne m ρ c b h1
    _ = W2 m ρ c (Proc.devRef .tc b) := keeps_hostOps1 _ b hb
    _ = W1 m ρ c (Proc.devRef .tc b) := W2_of_ne m ρ c b h0
    _ = W0 m ρ c (Proc.devRef .tc b) := keeps_hostOps0 _ b hb
    _ = m ((c : Thread nD τ).loc b) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what the core
    owes, which is nothing. -/
abbrev R (c : Dev nD) : sProp 𝕄 := iprop((∃ r, prngReg c r) ∗ ∃ W, owes (c : Thread nD τ) (0 : CellTallies nD τ sig Unit) W)
/-- A stretch of host lines as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor

set_option maxHeartbeats 4000000 in
/-- No operation of `hostOps1` allocates a buffer. -/
theorem hostOps1_fresh : (hostOps1 : List (HloOp τ sig (Elt F))).Forall fun op => op.fresh = ∅ := by
  simp only [List.Forall]; repeat' constructor

set_option maxHeartbeats 4000000 in
/-- No operation of `hostOps2` allocates a buffer. -/
theorem hostOps2_fresh : (hostOps2 : List (HloOp τ sig (Elt F))).Forall fun op => op.fresh = ∅ := by
  simp only [List.Forall]; repeat' constructor

set_option maxHeartbeats 4000000 in
/-- No operation of `hostOps3` allocates a buffer. -/
theorem hostOps3_fresh : (hostOps3 : List (HloOp τ sig (Elt F))).Forall fun op => op.fresh = ∅ := by
  simp only [List.Forall]; repeat' constructor

set_option maxHeartbeats 4000000 in
/-- No operation of `hostOps3_1` allocates a buffer. -/
theorem hostOps3_1_fresh : (hostOps3_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at the contents before it, left with its arrays at
    what the pipeline's write-backs leave and every other buffer as entered. Its arrays are split out of the unscoped
    buffers and put back; the generator register goes into the region's invariant and comes out; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with its arrays at
    what the pipeline's write-backs leave and every other buffer as entered. Its arrays are split out of the unscoped
    buffers and put back; the generator register goes into the region's invariant and comes out; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with its arrays at
    what the pipeline's write-backs leave and every other buffer as entered. Its arrays are split out of the unscoped
    buffers and put back; the generator register goes into the region's invariant and comes out; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of @main on the TensorCores terminates,
    nothing faulting, and in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every weakly fair execution of @main terminates, nothing faulting, with the eleven argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W8_arg m ρ c main_arg0 (by decide) (by decide) (by decide) (by decide)),
     (h c _ (mem_uc main_arg1 (by decide))).trans (W8_arg m ρ c main_arg1 (by decide) (by decide) (by decide) (by decide)),
     (h c _ (mem_uc main_arg2 (by decide))).trans (W8_arg m ρ c main_arg2 (by decide) (by decide) (by decide) (by decide)),
     (h c _ (mem_uc main_arg3 (by decide))).trans (W8_arg m ρ c main_arg3 (by decide) (by decide) (by decide) (by decide)),
     (h c _ (mem_uc main_arg4 (by decide))).trans (W8_arg m ρ c main_arg4 (by decide) (by decide) (by decide) (by decide)),
     (h c _ (mem_uc main_arg5 (by decide))).trans (W8_arg m ρ c main_arg5 (by decide) (by decide) (by decide) (by decide)),
     (h c _ (mem_uc main_arg6 (by decide))).trans (W8_arg m ρ c main_arg6 (by decide) (by decide) (by decide) (by decide)),
     (h c _ (mem_uc main_arg7 (by decide))).trans (W8_arg m ρ c main_arg7 (by decide) (by decide) (by decide) (by decide)),
     (h c _ (mem_uc main_arg8 (by decide))).trans (W8_arg m ρ c main_arg8 (by decide) (by decide) (by decide) (by decide)),
     (h c _ (mem_uc main_arg9 (by decide))).trans (W8_arg m ρ c main_arg9 (by decide) (by decide) (by decide) (by decide)),
     (h c _ (mem_uc main_arg10 (by decide))).trans (W8_arg m ρ c main_arg10 (by decide) (by decide) (by decide) (by decide))⟩)
    (run_main m ρ)

end Cert.Kernel.Hand

end
-- ==== Proof.KIRegion0.lean ====
import proofs.«160187_j35459249995962_2_alg».proof.Proof.Gen.KernelIdeal.Launch
import proofs.«160187_j35459249995962_2_alg».proof.Proof.Gen.KernelIdeal.Skeleton
import proofs.«160187_j35459249995962_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# One layer's fused kernel as a pipeline region (region 0)

The region streams a [50000, 128] array through 25 blocks of 2000 rows. At each grid point the body reads the
current row block (window 0), the whole 128 x 128 weight (window 1) and the two 1 x 128 rows of the folded
normalisation (windows 2 and 3), and writes the block of the same rows of its two results (windows 4 and 5):
`max (block * weight * scale + offset, 0)` in f32 and the same value narrowed to bf16. The body keeps nothing
between points, so what each output buffer holds after the body is a function of the four input blocks alone.
Everything here is stated at a parameter `V`, the contents of the TensorCore's arrays when the region is entered.
-/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds the window's block of the entry array at every point, whether the
    pipeline fetched it there or left it in place (its block index did not move). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block of the entry array at every point, whether the
    pipeline fetched it there or left it in place (its block index did not move). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block of the entry array at every point, whether the
    pipeline fetched it there or left it in place (its block index did not move). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds the window's block of the entry array at every point, whether the
    pipeline fetched it there or left it in place (its block index did not move). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rBlk0 : Rect S2000x128 := Rect.unit (s := S2000x128) ![0, 0] S2000x128.size inb_S2000x128_S2000x128_0_0
abbrev rMat0 : Rect S128x128 := Rect.unit (s := S128x128) ![0, 0] S128x128.size inb_S128x128_S128x128_0_0
abbrev rRow0 : Rect S1x128 := Rect.unit (s := S1x128) ![0, 0] S1x128.size inb_S1x128_S1x128_0_0

/-- The f32 result buffer after the body: its one whole-buffer store of the layer's value of the four loaded blocks. -/
def out0_4 (x0 : Vec F S2000x128 .f32) (x1 : Vec F S128x128 .f32) (x2 : Vec F S1x128 .f32) (x3 : Vec F S1x128 .f32) : Vec F S2000x128 .f32 :=
  View.canon [⟨rBlk0, k0_pay1 (View.ld x0 rBlk0) (View.ld x1 rMat0) (View.ld x2 rRow0) (View.ld x3 rRow0)⟩]
/-- The bf16 result buffer after the body: the same value narrowed. -/
def out0_5 (x0 : Vec F S2000x128 .f32) (x1 : Vec F S128x128 .f32) (x2 : Vec F S1x128 .f32) (x3 : Vec F S1x128 .f32) : Vec F S2000x128 .bf16 :=
  View.canon [⟨rBlk0, k0_pay2 (View.ld x0 rBlk0) (View.ld x1 rMat0) (View.ld x2 rRow0) (View.ld x3 rRow0)⟩]

/-- One whole-buffer store covers the buffer. -/
theorem cover0_4 (p0 : Vec F S2000x128 .f32) (y : S2000x128.Idx) :
    ∃ pc ∈ ([⟨rBlk0, p0⟩] : List (View.Piece (Elt F) S2000x128 .f32)), y ∈ pc.1.set :=
  View.cover_of_tiled [⟨rBlk0, p0⟩] S2000x128.size (by rfl) y
theorem cover0_5 (p0 : Vec F S2000x128 .bf16) (y : S2000x128.Idx) :
    ∃ pc ∈ ([⟨rBlk0, p0⟩] : List (View.Piece (Elt F) S2000x128 .bf16)), y ∈ pc.1.set :=
  View.cover_of_tiled [⟨rBlk0, p0⟩] S2000x128.size (by rfl) y

set_option maxHeartbeats 1000000 in
/-- The body on whole staging buffers: the four inputs at given contents, the two outputs at anything, run to the
    continuation with the inputs as they were and each output at its value of the inputs. -/
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .bf16) (harg6 : arg6.IsWhole)
    (x0 : Vec F S2000x128 .f32) (x1 : Vec F S128x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)
            ∗ owns (c : Thread nD τ) arg6 fullShare (out0_5 x0 x1 x2 x3)) -∗ K ⟨⟩))
      ⊢ wp frame (wpE (defs₀ (F := F)) Variants.none c none) E (cc0__fused_layer_kernel i arg1 harg1 arg2 harg2 arg3 harg3 arg4 harg4 arg5 harg5 arg6 harg6) K := by
  simp only [cc0__fused_layer_kernel_eq_skeleton]; unfold cc0__fused_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  iexists _; isplitr
  swap; · iexact H5
  ipureintro
  exact View.read_writes_eq_canon _ _ _ (cover0_5 _)

/-- The pipeline's proof data on core `c`: the arrays as the region finds them; after the body at point `t` each input
    buffer still at its block and each output buffer at the layer's value of the four input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the body's run applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1.lean ====
import proofs.«160187_j35459249995962_2_alg».proof.Proof.Gen.KernelIdeal.Launch
import proofs.«160187_j35459249995962_2_alg».proof.Proof.Gen.KernelIdeal.Skeleton
import proofs.«160187_j35459249995962_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the same fused layer kernel, on the arrays the region before it and the host lines after it left (see region 0's module for the description). -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds the window's block of the entry array at every point, whether the
    pipeline fetched it there or left it in place (its block index did not move). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block of the entry array at every point, whether the
    pipeline fetched it there or left it in place (its block index did not move). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block of the entry array at every point, whether the
    pipeline fetched it there or left it in place (its block index did not move). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds the window's block of the entry array at every point, whether the
    pipeline fetched it there or left it in place (its block index did not move). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rBlk1 : Rect S2000x128 := Rect.unit (s := S2000x128) ![0, 0] S2000x128.size inb_S2000x128_S2000x128_0_0
abbrev rMat1 : Rect S128x128 := Rect.unit (s := S128x128) ![0, 0] S128x128.size inb_S128x128_S128x128_0_0
abbrev rRow1 : Rect S1x128 := Rect.unit (s := S1x128) ![0, 0] S1x128.size inb_S1x128_S1x128_0_0

/-- The f32 result buffer after the body: its one whole-buffer store of the layer's value of the four loaded blocks. -/
def out1_4 (x0 : Vec F S2000x128 .f32) (x1 : Vec F S128x128 .f32) (x2 : Vec F S1x128 .f32) (x3 : Vec F S1x128 .f32) : Vec F S2000x128 .f32 :=
  View.canon [⟨rBlk1, k1_pay1 (View.ld x0 rBlk1) (View.ld x1 rMat1) (View.ld x2 rRow1) (View.ld x3 rRow1)⟩]
/-- The bf16 result buffer after the body: the same value narrowed. -/
def out1_5 (x0 : Vec F S2000x128 .f32) (x1 : Vec F S128x128 .f32) (x2 : Vec F S1x128 .f32) (x3 : Vec F S1x128 .f32) : Vec F S2000x128 .bf16 :=
  View.canon [⟨rBlk1, k1_pay2 (View.ld x0 rBlk1) (View.ld x1 rMat1) (View.ld x2 rRow1) (View.ld x3 rRow1)⟩]

/-- One whole-buffer store covers the buffer. -/
theorem cover1_4 (p0 : Vec F S2000x128 .f32) (y : S2000x128.Idx) :
    ∃ pc ∈ ([⟨rBlk1, p0⟩] : List (View.Piece (Elt F) S2000x128 .f32)), y ∈ pc.1.set :=
  View.cover_of_tiled [⟨rBlk1, p0⟩] S2000x128.size (by rfl) y
theorem cover1_5 (p0 : Vec F S2000x128 .bf16) (y : S2000x128.Idx) :
    ∃ pc ∈ ([⟨rBlk1, p0⟩] : List (View.Piece (Elt F) S2000x128 .bf16)), y ∈ pc.1.set :=
  View.cover_of_tiled [⟨rBlk1, p0⟩] S2000x128.size (by rfl) y

set_option maxHeartbeats 1000000 in
/-- The body on whole staging buffers: the four inputs at given contents, the two outputs at anything, run to the
    continuation with the inputs as they were and each output at its value of the inputs. -/
theorem sound_kernel1 (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .bf16) (harg6 : arg6.IsWhole)
    (x0 : Vec F S2000x128 .f32) (x1 : Vec F S128x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)
            ∗ owns (c : Thread nD τ) arg6 fullShare (out1_5 x0 x1 x2 x3)) -∗ K ⟨⟩))
      ⊢ wp frame (wpE (defs₀ (F := F)) Variants.none c none) E (cc1__fused_layer_kernel i arg1 harg1 arg2 harg2 arg3 harg3 arg4 harg4 arg5 harg5 arg6 harg6) K := by
  simp only [cc1__fused_layer_kernel_eq_skeleton]; unfold cc1__fused_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-- The pipeline's proof data on core `c`: the arrays as the region finds them; after the body at point `t` each input
    buffer still at its block and each output buffer at the layer's value of the four input blocks; the invariant
    is the scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the body's run applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KIRegion2.lean ====
import proofs.«160187_j35459249995962_2_alg».proof.Proof.Gen.KernelIdeal.Launch
import proofs.«160187_j35459249995962_2_alg».proof.Proof.Gen.KernelIdeal.Skeleton
import proofs.«160187_j35459249995962_2_alg».proof.Proof.Gen.KernelIdeal.Points

import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: the same fused layer kernel, on the arrays the region before it and the host lines after it left (see region 0's module for the description). -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds the window's block of the entry array at every point, whether the
    pipeline fetched it there or left it in place (its block index did not move). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block of the entry array at every point, whether the
    pipeline fetched it there or left it in place (its block index did not move). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block of the entry array at every point, whether the
    pipeline fetched it there or left it in place (its block index did not move). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds the window's block of the entry array at every point, whether the
    pipeline fetched it there or left it in place (its block index did not move). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole-buffer rectangles the body loads and stores through. -/
abbrev rBlk2 : Rect S2000x128 := Rect.unit (s := S2000x128) ![0, 0] S2000x128.size inb_S2000x128_S2000x128_0_0
abbrev rMat2 : Rect S128x128 := Rect.unit (s := S128x128) ![0, 0] S128x128.size inb_S128x128_S128x128_0_0
abbrev rRow2 : Rect S1x128 := Rect.unit (s := S1x128) ![0, 0] S1x128.size inb_S1x128_S1x128_0_0

/-- The f32 result buffer after the body: its one whole-buffer store of the layer's value of the four loaded blocks. -/
def out2_4 (x0 : Vec F S2000x128 .f32) (x1 : Vec F S128x128 .f32) (x2 : Vec F S1x128 .f32) (x3 : Vec F S1x128 .f32) : Vec F S2000x128 .f32 :=
  View.canon [⟨rBlk2, k2_pay1 (View.ld x0 rBlk2) (View.ld x1 rMat2) (View.ld x2 rRow2) (View.ld x3 rRow2)⟩]
/-- The bf16 result buffer after the body: the same value narrowed. -/
def out2_5 (x0 : Vec F S2000x128 .f32) (x1 : Vec F S128x128 .f32) (x2 : Vec F S1x128 .f32) (x3 : Vec F S1x128 .f32) : Vec F S2000x128 .bf16 :=
  View.canon [⟨rBlk2, k2_pay2 (View.ld x0 rBlk2) (View.ld x1 rMat2) (View.ld x2 rRow2) (View.ld x3 rRow2)⟩]

/-- One whole-buffer store covers the buffer. -/
theorem cover2_4 (p0 : Vec F S2000x128 .f32) (y : S2000x128.Idx) :
    ∃ pc ∈ ([⟨rBlk2, p0⟩] : List (View.Piece (Elt F) S2000x128 .f32)), y ∈ pc.1.set :=
  View.cover_of_tiled [⟨rBlk2, p0⟩] S2000x128.size (by rfl) y
theorem cover2_5 (p0 : Vec F S2000x128 .bf16) (y : S2000x128.Idx) :
    ∃ pc ∈ ([⟨rBlk2, p0⟩] : List (View.Piece (Elt F) S2000x128 .bf16)), y ∈ pc.1.set :=
  View.cover_of_tiled [⟨rBlk2, p0⟩] S2000x128.size (by rfl) y

set_option maxHeartbeats 1000000 in
/-- The body on whole staging buffers: the four inputs at given contents, the two outputs at anything, run to the
    continuation with the inputs as they were and each output at its value of the inputs. -/
theorem sound_kernel2 (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S2000x128 .f32) (harg5 : arg5.IsWhole) (arg6 : Memref sig .tc .vmem S2000x128 .bf16) (harg6 : arg6.IsWhole)
    (x0 : Vec F S2000x128 .f32) (x1 : Vec F S128x128 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out2_4 x0 x1 x2 x3)
            ∗ owns (c : Thread nD τ) arg6 fullShare (out2_5 x0 x1 x2 x3)) -∗ K ⟨⟩))
      ⊢ wp frame (wpE (defs₀ (F := F)) Variants.none c none) E (cc2__fused_layer_kernel i arg1 harg1 arg2 harg2 arg3 harg3 arg4 harg4 arg5 harg5 arg6 harg6) K := by
  simp only [cc2__fused_layer_kernel_eq_skeleton]; unfold cc2__fused_layer_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover2_4 _)
  iexists _; isplitr
  swap; · iexact H5
  ipureintro
  exact View.read_writes_eq_canon _ _ _ (cover2_5 _)

/-- The pipeline's proof data on core `c`: the arrays as the region finds them; after the body at point `t` each input
    buffer still at its block and each output buffer at the layer's value of the four input blocks; the invariant
    is the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
    | ⟨5, _⟩ => out2_5 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]
theorem after2_5 (c : Dev nD) (t : Fin cfg2.N) : (dat2 V c).after 5 t = out2_5 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the body's run applies; the invariant and what
    the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KIKeeps.lean ====
import proofs.«160187_j35459249995962_2_alg».proof.Proof.Gen.KernelIdeal.Launch
import Idealize.ShloMosaic.Lib.StableHlo.Run

set_option maxRecDepth 16384

/-!
# No host line writes an argument

@main's host lines, stretch by stretch, each write a buffer of their own: none of them is one of the eleven
argument arrays, so an argument's buffer is the same before and after each stretch.
-/

noncomputable section

namespace Cert.KernelIdeal.Hand

open Cert.KernelIdeal Cert.KernelIdeal.Gen
open Idealize.ShloMosaic Idealize.ShloMosaic.TcCoe

variable {F : FTy → Type} [FloatOps F]

/-- The eleven argument arrays. -/
abbrev argRefs : List (Ref sig .tc) :=
  [main_arg0, main_arg1, main_arg2, main_arg3, main_arg4, main_arg5, main_arg6, main_arg7, main_arg8, main_arg9, main_arg10]

set_option maxHeartbeats 4000000 in
/-- No operation of `hostOps0` writes an argument array. -/
theorem keeps_hostOps0 (Vl : Valuation τ sig (Elt F)) (b : Ref sig .tc) (hb : b ∈ argRefs) :
    StableHlo.after (hostOps0 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps1` writes an argument array. -/
theorem keeps_hostOps1 (Vl : Valuation τ sig (Elt F)) (b : Ref sig .tc) (hb : b ∈ argRefs) :
    StableHlo.after (hostOps1 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps2` writes an argument array. -/
theorem keeps_hostOps2 (Vl : Valuation τ sig (Elt F)) (b : Ref sig .tc) (hb : b ∈ argRefs) :
    StableHlo.after (hostOps2 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps3` writes an argument array. -/
theorem keeps_hostOps3 (Vl : Valuation τ sig (Elt F)) (b : Ref sig .tc) (hb : b ∈ argRefs) :
    StableHlo.after (hostOps3 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps3_1` writes an argument array. -/
theorem keeps_hostOps3_1 (Vl : Valuation τ sig (Elt F)) (b : Ref sig .tc) (hb : b ∈ argRefs) :
    StableHlo.after (hostOps3_1 (F := F)) Vl (Proc.devRef .tc b) = Vl (Proc.devRef .tc b) := by
  refine StableHlo.after_of_forall_not_mem (b := Proc.devRef .tc b) _ _ (List.forall_iff_forall_mem.mp ?_)
  simp only [argRefs, List.mem_cons, List.mem_nil_iff, or_false] at hb
  rcases hb with rfl | rfl | rfl | rfl | rfl | rfl | rfl | rfl | rfl | rfl | rfl
  all_goals
    simp only [hostOps3_1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

end Cert.KernelIdeal.Hand

end
-- ==== Proof.KIRun.lean ====
import proofs.«160187_j35459249995962_2_alg».proof.Proof.Gen.KernelIdeal.Launch
import proofs.«160187_j35459249995962_2_alg».proof.Proof.Gen.KernelIdeal.Skeleton
import proofs.«160187_j35459249995962_2_alg».proof.Proof.Gen.KernelIdeal.Points
import proofs.«160187_j35459249995962_2_alg».proof.Proof.KIRegion0
import proofs.«160187_j35459249995962_2_alg».proof.Proof.KIRegion1
import proofs.«160187_j35459249995962_2_alg».proof.Proof.KIRegion2
import proofs.«160187_j35459249995962_2_alg».proof.Proof.KIKeeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-!
# The whole run of @main, with every buffer's final contents named

@main is eight items in order: a stretch of host lines, the first layer's region, a stretch, the second layer's
region, a stretch, the third layer's region, a stretch (the pooling and the head) and the outlined log-softmax.
The contents of the TensorCore's buffers at each boundary are a fold from the launch memory: a stretch applies its
lines in order; a region leaves its six arrays at what its pipeline's write-backs leave (the four inputs as entered,
the two results block by block) and every other buffer as entered. The run ends with every unscoped buffer at the
last boundary's contents; no item writes an argument array, so each argument is read back to its launch contents.
-/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (the inputs as entered, each output's write-backs
    folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (the inputs as entered, each output's write-backs
    folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves (the inputs as entered, each output's write-backs
    folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the pooling and the head. -/
abbrev W7 : Dev nD → Valuation τ sig (Elt F) := fun c => StableHlo.after hostOps3 (W6 m ρ c)
/-- After the log-softmax: the contents @main returns with. -/
abbrev W8 : Dev nD → Valuation τ sig (Elt F) := fun c => StableHlo.after hostOps3_1 (W7 m ρ c)

/-! ### The arguments end as launched -/

/-- An argument array's buffer walks back through the fold to the launch memory: no stretch writes it
    and it is no region's array. -/
theorem W8_arg (c : Dev nD) (b : Ref sig .tc) (hb : b ∈ argRefs)
    (h0 : ∀ w, Pipeline.arrRef spec0 w ≠ b) (h1 : ∀ w, Pipeline.arrRef spec1 w ≠ b) (h2 : ∀ w, Pipeline.arrRef spec2 w ≠ b) :
    W8 m ρ c (Proc.devRef .tc b) = m ((c : Thread nD τ).loc b) :=
  calc W8 m ρ c (Proc.devRef .tc b)
    _ = W7 m ρ c (Proc.devRef .tc b) := keeps_hostOps3_1 _ b hb
    _ = W6 m ρ c (Proc.devRef .tc b) := keeps_hostOps3 _ b hb
    _ = W5 m ρ c (Proc.devRef .tc b) := W6_of_ne m ρ c b h2
    _ = W4 m ρ c (Proc.devRef .tc b) := keeps_hostOps2 _ b hb
    _ = W3 m ρ c (Proc.devRef .tc b) := W4_of_ne m ρ c b h1
    _ = W2 m ρ c (Proc.devRef .tc b) := keeps_hostOps1 _ b hb
    _ = W1 m ρ c (Proc.devRef .tc b) := W2_of_ne m ρ c b h0
    _ = W0 m ρ c (Proc.devRef .tc b) := keeps_hostOps0 _ b hb
    _ = m ((c : Thread nD τ).loc b) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and what the core
    owes, which is nothing. -/
abbrev R (c : Dev nD) : sProp 𝕄 := iprop((∃ r, prngReg c r) ∗ ∃ W, owes (c : Thread nD τ) (0 : CellTallies nD τ sig Unit) W)
/-- A stretch of host lines as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 4000000 in
/-- No operation of `hostOps0` allocates a buffer. -/
theorem hostOps0_fresh : (hostOps0 : List (HloOp τ sig (Elt F))).Forall fun op => op.fresh = ∅ := by
  simp only [List.Forall]; repeat' constructor

set_option maxHeartbeats 4000000 in
/-- No operation of `hostOps1` allocates a buffer. -/
theorem hostOps1_fresh : (hostOps1 : List (HloOp τ sig (Elt F))).Forall fun op => op.fresh = ∅ := by
  simp only [List.Forall]; repeat' constructor

set_option maxHeartbeats 4000000 in
/-- No operation of `hostOps2` allocates a buffer. -/
theorem hostOps2_fresh : (hostOps2 : List (HloOp τ sig (Elt F))).Forall fun op => op.fresh = ∅ := by
  simp only [List.Forall]; repeat' constructor

set_option maxHeartbeats 4000000 in
/-- No operation of `hostOps3` allocates a buffer. -/
theorem hostOps3_fresh : (hostOps3 : List (HloOp τ sig (Elt F))).Forall fun op => op.fresh = ∅ := by
  simp only [List.Forall]; repeat' constructor

set_option maxHeartbeats 4000000 in
/-- No operation of `hostOps3_1` allocates a buffer. -/
theorem hostOps3_1_fresh : (hostOps3_1 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last contents, the generator
    register at some state. -/
abbrev Tₙ (c : Dev nD) : sProp 𝕄 := iprop(StableHlo.held (c : Thread nD τ) (Pipeline.ucRefs τ sig) (W8 m ρ c) ∗ ∃ r, prngReg c r)

/-! ## The regions as segments -/

set_option backward.isDefEq.respectTransparency.types false in
/-- Region 0 over the thread state: entered with every unscoped buffer at the contents before it, left with its arrays at
    what the pipeline's write-backs leave and every other buffer as entered. Its arrays are split out of the unscoped
    buffers and put back; the generator register goes into the region's invariant and comes out; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents before it, left with its arrays at
    what the pipeline's write-backs leave and every other buffer as entered. Its arrays are split out of the unscoped
    buffers and put back; the generator register goes into the region's invariant and comes out; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents before it, left with its arrays at
    what the pipeline's write-backs leave and every other buffer as entered. Its arrays are split out of the unscoped
    buffers and put back; the generator register goes into the region's invariant and comes out; nothing is owed; the
    kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .host (hseg hostOps3_1 hostOps3_1_sub hostOps3_1_fresh (W7 m ρ)) ]

set_option maxHeartbeats 4000000 in
/-- @main is the run of the segments. -/
theorem main_run (c : Dev nD) : main (F := F) c = Pipeline.Seg.run (segs m ρ) := (main_chain c).trans (by chain_rfl)

set_option backward.isDefEq.respectTransparency.types false in
set_option maxHeartbeats 4000000 in
/-- THE RUN: from any memory with zero counters, every weakly fair execution of @main on the TensorCores terminates,
    nothing faulting, and in every final state each unscoped buffer holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m ρ c) ∗ R c) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- THE FRAME: every weakly fair execution of @main terminates, nothing faulting, with the eleven argument arrays as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_arg0 (by decide))).trans (W8_arg m ρ c main_arg0 (by decide) (by decide) (by decide) (by decide)),
     (h c _ (mem_uc main_arg1 (by decide))).trans (W8_arg m ρ c main_arg1 (by decide) (by decide) (by decide) (by decide)),
     (h c _ (mem_uc main_arg2 (by decide))).trans (W8_arg m ρ c main_arg2 (by decide) (by decide) (by decide) (by decide)),
     (h c _ (mem_uc main_arg3 (by decide))).trans (W8_arg m ρ c main_arg3 (by decide) (by decide) (by decide) (by decide)),
     (h c _ (mem_uc main_arg4 (by decide))).trans (W8_arg m ρ c main_arg4 (by decide) (by decide) (by decide) (by decide)),
     (h c _ (mem_uc main_arg5 (by decide))).trans (W8_arg m ρ c main_arg5 (by decide) (by decide) (by decide) (by decide)),
     (h c _ (mem_uc main_arg6 (by decide))).trans (W8_arg m ρ c main_arg6 (by decide) (by decide) (by decide) (by decide)),
     (h c _ (mem_uc main_arg7 (by decide))).trans (W8_arg m ρ c main_arg7 (by decide) (by decide) (by decide) (by decide)),
     (h c _ (mem_uc main_arg8 (by decide))).trans (W8_arg m ρ c main_arg8 (by decide) (by decide) (by decide) (by decide)),
     (h c _ (mem_uc main_arg9 (by decide))).trans (W8_arg m ρ c main_arg9 (by decide) (by decide) (by decide) (by decide)),
     (h c _ (mem_uc main_arg10 (by decide))).trans (W8_arg m ρ c main_arg10 (by decide) (by decide) (by decide) (by decide))⟩)
    (run_main m ρ)

end Cert.KernelIdeal.Hand

end
-- ==== Proof.RefFrame.lean ====
import proofs.«160187_j35459249995962_2_alg».proof.Defs
import proofs.«160187_j35459249995962_2_alg».proof.Proof.Gen.ReferenceIdeal.Run
import proofs.«160187_j35459249995962_2_alg».proof.Proof.Gen.ReferenceIdeal.Read

/-!
# The reference's frame

The reference is host lines only. Its run ends with every result at the lines' composed term of the arguments
and the arguments unchanged; dropping the result leaves the frame.
-/

noncomputable section

namespace Cert.Proof.RefClaims

open Idealize.ShloMosaic Idealize.ShloMosaic.TcCoe Idealize.SL.Sem

theorem frame_ri [hP : Cert.Pre_finite_inputs.Facts] [hR : Cert.ReferenceIdeal.Facts] : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.LayerSpec.lean ====
import Idealize.ShloMosaic.Lib.ValueIdx
import Idealize.ShloMosaic.PureOps.Ideal

/-!
# The dense half of a layer, entry by entry

Given the aggregated features `a` (one row per node), the layer's weight `W`, and the folded normalisation as one
scale row and one offset row, the layer's value at node `n` and channel `j` is
`max ((∑ k, a (n, k) * W (k, j)) * scale j + offset j) 0`.
-/

noncomputable section

namespace Cert.LayerSpec

open Idealize.ShloMosaic Idealize.ShloMosaic.ValueIdx

/-- The dense half of a layer as one function of whole arrays. -/
def dense {N K D : Nat} (a : (⟨2, ![N, K]⟩ : Shape).Idx → EReal) (W : (⟨2, ![K, D]⟩ : Shape).Idx → EReal)
    (sc off : (⟨2, ![1, D]⟩ : Shape).Idx → EReal) : (⟨2, ![N, D]⟩ : Shape).Idx → EReal :=
  fun i => max ((∑ k : Fin K, a (ix2 (i 0) k) * W (ix2 k (i 1))) * sc (ix2 (0 : Fin 1) (i 1)) + off (ix2 (0 : Fin 1) (i 1))) 0

theorem dense_ix2 {N K D : Nat} (a : (⟨2, ![N, K]⟩ : Shape).Idx → EReal) (W : (⟨2, ![K, D]⟩ : Shape).Idx → EReal)
    (sc off : (⟨2, ![1, D]⟩ : Shape).Idx → EReal) (p : Fin N) (q : Fin D) :
    dense a W sc off (ix2 p q) = max ((∑ k : Fin K, a (ix2 p k) * W (ix2 k q)) * sc (ix2 (0 : Fin 1) q) + off (ix2 (0 : Fin 1) q)) 0 := rfl

end Cert.LayerSpec

end
-- ==== Proof.KIVal0.lean ====
import proofs.«160187_j35459249995962_2_alg».proof.Proof.KIRegion0
import proofs.«160187_j35459249995962_2_alg».proof.Proof.LibPlainDot
import proofs.«160187_j35459249995962_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# What region 0 leaves in its two result arrays, over the extended reals

Over the extended reals the narrowing to bf16 is the identity, the matrix unit's product into a zero accumulator is
the plain sum over the contracted axis, and the clamp is `max · 0`. So the body's stored value at row `p` and channel
`q` of a block is the dense layer value of the four loaded blocks at `(p, q)`; the row block at point `t` is rows
`2000 t … 2000 t + 1999` of the aggregated array, the weight and the two rows are whole; and the 25 blocks tile the
50000 rows. Both result arrays therefore end holding the dense layer value of the region's entry arrays, everywhere.
-/

noncomputable section

namespace Cert.KernelIdeal.Hand

open Cert.KernelIdeal Cert.KernelIdeal.Gen
open Idealize.ShloMosaic Idealize.ShloMosaic.TcCoe Idealize.ShloMosaic.ValueIdx Cert.LayerSpec
open Idealize.ShloMosaic.Pipeline (Dat)

theorem hz0 : (![0, 0] : Fin 2 → Nat) = fun _ => 0 := funext fun a => by fin_cases a <;> rfl

/-- The body's stored value at an entry: the dense layer value of the four loaded blocks. -/
theorem pay0_apply (x0 : Vec Ideal S2000x128 .f32) (x1 : Vec Ideal S128x128 .f32) (x2 x3 : Vec Ideal S1x128 .f32) (p : Fin 2000) (q : Fin 128) :
    k0_pay1 (F := Ideal) x0 x1 x2 x3 (ix2 p q) = dense x0 x1 x2 x3 (ix2 p q) := by
  unfold k0_pay1
  simp only [shapeCast_self, maximumf_apply, addf_apply, mulf_apply, broadcast_apply, broadcastTo_1b_ab_apply, Ideal.matmul_constant_zero_apply, truncf_apply]
  rw [Cert.LibPlainDot.sum_plain dot_S2000x128_S128x128_S2000x128_1_0_0_1_n_n rfl rfl rfl rfl rfl rfl x0 x1 p q, dense_ix2]
  show max _ (Ideal.ofBits .f32 0x00000000#32) = _
  rw [Ideal.ofBits_zero_f32]

/-- The printed index maps, decided over the grid: the row block of windows 0, 4 and 5 moves with the point and stays
    below 25; every other block index is zero. -/
theorem idx_facts0 : ∀ t : Fin cfg0.N, win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_4.index t (0 : Fin 2) ∧ win0_4.index t (1 : Fin 2) = 0
    ∧ win0_5.index t (0 : Fin 2) = win0_4.index t (0 : Fin 2) ∧ win0_5.index t (1 : Fin 2) = 0
    ∧ win0_4.index t (0 : Fin 2) ≤ 24 :=
  (by decide +kernel : ∀ t : Fin grid0.N, _)

/-- Every row block is some point's. -/
theorem idx_onto0 : ∀ (q0 : Fin 25), ∃ t : Fin cfg0.N, win0_4.index t (0 : Fin 2) = q0.val :=
  (by decide +kernel : ∀ (q0 : Fin 25), ∃ t : Fin grid0.N, win0_4.index t (0 : Fin 2) = q0.val)

section
variable (V : (c : Dev nD) → (b : Ref sig .tc) → Buf (Elt Ideal) ((c : Thread nD τ).loc b))

set_option maxHeartbeats 2000000 in
/-- What point `t` writes back through output window 4 is block `t` of the layer's value of the entry arrays: the row
    block moves with the point, the weight and the two rows do not move. -/
theorem flushed0_4_eq (c : Dev nD) (t : Fin cfg0.N) :
    (dat0 (F := Ideal) V c).flushed 4 t = ((cfg0.win 4).blk t).view.read (Elt Ideal) (dense (V c main_v41) (V c main_v60) (V c main_v61) (V c main_v62)) := by
  show (cfg0.win 4).cut (grid0.coords t) ((dat0 V c).after 4 t) = _
  rw [after0_4]
  unfold out0_4
  rw [View.canon_unit_zero hz0]
  simp only [View.ld_unit_zero (S := S2000x128) hz0, View.ld_unit_zero (S := S128x128) hz0, View.ld_unit_zero (S := S1x128) hz0]
  obtain ⟨e00, e01, e10, e11, e20, e21, e30, e31, e40, e41, e50, e51, hle⟩ := idx_facts0 t
  funext j
  obtain ⟨p, q, rfl⟩ : ∃ (p : Fin 2000) (q : Fin 128), j = ix2 p q := ⟨j 0, j 1, eq_ix2 j⟩
  refine (pay0_apply _ _ _ _ p q).trans ?_
  rw [dense_ix2]
  have hp : p.val < 2000 := p.isLt
  have hr : win0_4.index t (0 : Fin 2) * 2000 + p.val < 50000 := by omega
  have h0 : ∀ k : Fin 128, ((cfg0.win 0).blk t).view.emb (ix2 p k) = ix2 (⟨win0_4.index t (0 : Fin 2) * 2000 + p.val, hr⟩ : Fin 50000) k := fun k => by
    funext a; apply Fin.ext
    match a with
    | ⟨0, _⟩ => show win0_0.index t (0 : Fin 2) * 2000 + 1 * p.val = win0_4.index t (0 : Fin 2) * 2000 + p.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have h3 : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  have h4 : ((cfg0.win 4).blk t).view.emb (ix2 p q) = ix2 (⟨win0_4.index t (0 : Fin 2) * 2000 + p.val, hr⟩ : Fin 50000) q := by
    funext a; apply Fin.ext
    match a with
    | ⟨0, _⟩ => show win0_4.index t (0 : Fin 2) * 2000 + 1 * p.val = win0_4.index t (0 : Fin 2) * 2000 + p.val; omega
    | ⟨1, _⟩ => show win0_4.index t (1 : Fin 2) * 128 + 1 * q.val = q.val; omega
  have key : ∀ (A0 : S50000x128.Idx → EReal) (A1 : S128x128.Idx → EReal) (A2 A3 : S1x128.Idx → EReal),
      max ((∑ k : Fin 128, A0 (((cfg0.win 0).blk t).view.emb (ix2 p k)) * A1 (((cfg0.win 1).blk t).view.emb (ix2 k q)))
          * A2 (((cfg0.win 2).blk t).view.emb (ix2 (0 : Fin 1) q)) + A3 (((cfg0.win 3).blk t).view.emb (ix2 (0 : Fin 1) q))) 0
        = dense A0 A1 A2 A3 (((cfg0.win 4).blk t).view.emb (ix2 p q)) := by
    intro A0 A1 A2 A3
    rw [h2, h3, h4, dense_ix2]
    simp only [h0, h1]
  exact key (V c main_v41) (V c main_v60) (V c main_v61) (V c main_v62)

/-- An index of the array is in point `t`'s block of window 4 iff each coordinate is in the block's range. -/
theorem mem_blk0_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v63_0).slice (win0_4.rect t)).set ↔ _
  rw [View.set_slice_whole, Rect.mem_set_unit]
  exact Iff.rfl

/-- Every row lies in the block of the point that is the row number divided by 2000. -/
theorem cover0v_4 (i : S50000x128.Idx) : ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto0 ⟨(i 0).val / 2000, by omega⟩
  have q0 : win0_4.index t (0 : Fin 2) = (i 0).val / 2000 := ht
  obtain ⟨e00, e01, e10, e11, e20, e21, e30, e31, e40, e41, e50, e51, hle⟩ := idx_facts0 t
  refine ⟨t, flush0_4 t, ?_⟩
  rw [mem_blk0_4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 128 ≤ (i 1).val ∧ (i 1).val < win0_4.index t (1 : Fin 2) * 128 + 128; omega

/-- THE ARRAY of window 4 after the region: the layer's value of the entry arrays, everywhere. -/
theorem final0_4 (c : Dev nD) : (dat0 (F := Ideal) V c).arrAt 4 cfg0.N = (dense (V c main_v41) (V c main_v60) (V c main_v61) (V c main_v62)) :=
  (dat0 (F := Ideal) V c).arrAt_eq_of_cover 4 (dense (V c main_v41) (V c main_v60) (V c main_v61) (V c main_v62)) (fun t _ => flushed0_4_eq V c t) (cover0v_4)

set_option maxHeartbeats 2000000 in
/-- What point `t` writes back through output window 5 is block `t` of the layer's value of the entry arrays: the row
    block moves with the point, the weight and the two rows do not move. -/
theorem flushed0_5_eq (c : Dev nD) (t : Fin cfg0.N) :
    (dat0 (F := Ideal) V c).flushed 5 t = ((cfg0.win 5).blk t).view.read (Elt Ideal) (dense (V c main_v41) (V c main_v60) (V c main_v61) (V c main_v62)) := by
  show (cfg0.win 5).cut (grid0.coords t) ((dat0 V c).after 5 t) = _
  rw [after0_5]
  unfold out0_5
  rw [View.canon_unit_zero hz0]
  simp only [View.ld_unit_zero (S := S2000x128) hz0, View.ld_unit_zero (S := S128x128) hz0, View.ld_unit_zero (S := S1x128) hz0]
  obtain ⟨e00, e01, e10, e11, e20, e21, e30, e31, e40, e41, e50, e51, hle⟩ := idx_facts0 t
  funext j
  obtain ⟨p, q, rfl⟩ : ∃ (p : Fin 2000) (q : Fin 128), j = ix2 p q := ⟨j 0, j 1, eq_ix2 j⟩
  show k0_pay1 (F := Ideal) _ _ _ _ (ix2 p q) = _
  refine (pay0_apply _ _ _ _ p q).trans ?_
  rw [dense_ix2]
  have hp : p.val < 2000 := p.isLt
  have hr : win0_4.index t (0 : Fin 2) * 2000 + p.val < 50000 := by omega
  have h0 : ∀ k : Fin 128, ((cfg0.win 0).blk t).view.emb (ix2 p k) = ix2 (⟨win0_4.index t (0 : Fin 2) * 2000 + p.val, hr⟩ : Fin 50000) k := fun k => by
    funext a; apply Fin.ext
    match a with
    | ⟨0, _⟩ => show win0_0.index t (0 : Fin 2) * 2000 + 1 * p.val = win0_4.index t (0 : Fin 2) * 2000 + p.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 (0 : Fin 1) q) = ix2 (0 : Fin 1) q := by
    funext a; apply Fin.ext
    match a with
    | ⟨0, _⟩ => show win0_2.index t (0 : Fin 2) * 1 + 1 * 0 = 0; omega
    | ⟨1, _⟩ => show win0_2.index t (1 : Fin 2) * 128 + 1 * q.val = q.val; omega
  have h3 : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 128 + 1 * q.val = q.val; omega
  have h4 : ((cfg0.win 5).blk t).view.emb (ix2 p q) = ix2 (⟨win0_4.index t (0 : Fin 2) * 2000 + p.val, hr⟩ : Fin 50000) q := by
    funext a; apply Fin.ext
    match a with
    | ⟨0, _⟩ => show win0_5.index t (0 : Fin 2) * 2000 + 1 * p.val = win0_4.index t (0 : Fin 2) * 2000 + p.val; omega
    | ⟨1, _⟩ => show win0_5.index t (1 : Fin 2) * 128 + 1 * q.val = q.val; omega
  have key : ∀ (A0 : S50000x128.Idx → EReal) (A1 : S128x128.Idx → EReal) (A2 A3 : S1x128.Idx → EReal),
      max ((∑ k : Fin 128, A0 (((cfg0.win 0).blk t).view.emb (ix2 p k)) * A1 (((cfg0.win 1).blk t).view.emb (ix2 k q)))
          * A2 (((cfg0.win 2).blk t).view.emb (ix2 (0 : Fin 1) q)) + A3 (((cfg0.win 3).blk t).view.emb (ix2 (0 : Fin 1) q))) 0
        = dense A0 A1 A2 A3 (((cfg0.win 5).blk t).view.emb (ix2 p q)) := by
    intro A0 A1 A2 A3
    rw [h2, h3, h4, dense_ix2]
    simp only [h0, h1]
  exact key (V c main_v41) (V c main_v60) (V c main_v61) (V c main_v62)

/-- An index of the array is in point `t`'s block of window 5 iff each coordinate is in the block's range. -/
theorem mem_blk0_5 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v63_1).slice (win0_5.rect t)).set ↔ _
  rw [View.set_slice_whole, Rect.mem_set_unit]
  exact Iff.rfl

/-- Every row lies in the block of the point that is the row number divided by 2000. -/
theorem cover0v_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto0 ⟨(i 0).val / 2000, by omega⟩
  have q0 : win0_4.index t (0 : Fin 2) = (i 0).val / 2000 := ht
  obtain ⟨e00, e01, e10, e11, e20, e21, e30, e31, e40, e41, e50, e51, hle⟩ := idx_facts0 t
  refine ⟨t, flush0_5 t, ?_⟩
  rw [mem_blk0_5]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE ARRAY of window 5 after the region: the layer's value of the entry arrays, everywhere. -/
theorem final0_5 (c : Dev nD) : (dat0 (F := Ideal) V c).arrAt 5 cfg0.N = (dense (V c main_v41) (V c main_v60) (V c main_v61) (V c main_v62)) :=
  (dat0 (F := Ideal) V c).arrAt_eq_of_cover 5 (dense (V c main_v41) (V c main_v60) (V c main_v61) (V c main_v62)) (fun t _ => flushed0_5_eq V c t) (cover0v_5)

end

end Cert.KernelIdeal.Hand

end
-- ==== Proof.KIVal1.lean ====
import proofs.«160187_j35459249995962_2_alg».proof.Proof.KIRegion1
import proofs.«160187_j35459249995962_2_alg».proof.Proof.LibPlainDot
import proofs.«160187_j35459249995962_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# What region 1 leaves in its two result arrays, over the extended reals

Over the extended reals the narrowing to bf16 is the identity, the matrix unit's product into a zero accumulator is
the plain sum over the contracted axis, and the clamp is `max · 0`. So the body's stored value at row `p` and channel
`q` of a block is the dense layer value of the four loaded blocks at `(p, q)`; the row block at point `t` is rows
`2000 t … 2000 t + 1999` of the aggregated array, the weight and the two rows are whole; and the 25 blocks tile the
50000 rows. Both result arrays therefore end holding the dense layer value of the region's entry arrays, everywhere.
-/

noncomputable section

namespace Cert.KernelIdeal.Hand

open Cert.KernelIdeal Cert.KernelIdeal.Gen
open Idealize.ShloMosaic Idealize.ShloMosaic.TcCoe Idealize.ShloMosaic.ValueIdx Cert.LayerSpec
open Idealize.ShloMosaic.Pipeline (Dat)

theorem hz1 : (![0, 0] : Fin 2 → Nat) = fun _ => 0 := funext fun a => by fin_cases a <;> rfl

/-- The body's stored value at an entry: the dense layer value of the four loaded blocks. -/
theorem pay1_apply (x0 : Vec Ideal S2000x128 .f32) (x1 : Vec Ideal S128x128 .f32) (x2 x3 : Vec Ideal S1x128 .f32) (p : Fin 2000) (q : Fin 128) :
    k1_pay1 (F := Ideal) x0 x1 x2 x3 (ix2 p q) = dense x0 x1 x2 x3 (ix2 p q) := by
  unfold k1_pay1
  simp only [shapeCast_self, maximumf_apply, addf_apply, mulf_apply, broadcast_apply, broadcastTo_1b_ab_apply, Ideal.matmul_constant_zero_apply, truncf_apply]
  rw [Cert.LibPlainDot.sum_plain dot_S2000x128_S128x128_S2000x128_1_0_0_1_n_n rfl rfl rfl rfl rfl rfl x0 x1 p q, dense_ix2]
  show max _ (Ideal.ofBits .f32 0x00000000#32) = _
  rw [Ideal.ofBits_zero_f32]

/-- The printed index maps, decided over the grid: the row block of windows 0, 4 and 5 moves with the point and stays
    below 25; every other block index is zero. -/
theorem idx_facts1 : ∀ t : Fin cfg1.N, win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = win1_4.index t (0 : Fin 2) ∧ win1_4.index t (1 : Fin 2) = 0
    ∧ win1_5.index t (0 : Fin 2) = win1_4.index t (0 : Fin 2) ∧ win1_5.index t (1 : Fin 2) = 0
    ∧ win1_4.index t (0 : Fin 2) ≤ 24 :=
  (by decide +kernel : ∀ t : Fin grid1.N, _)

/-- Every row block is some point's. -/
theorem idx_onto1 : ∀ (q0 : Fin 25), ∃ t : Fin cfg1.N, win1_4.index t (0 : Fin 2) = q0.val :=
  (by decide +kernel : ∀ (q0 : Fin 25), ∃ t : Fin grid1.N, win1_4.index t (0 : Fin 2) = q0.val)

section
variable (V : (c : Dev nD) → (b : Ref sig .tc) → Buf (Elt Ideal) ((c : Thread nD τ).loc b))

set_option maxHeartbeats 2000000 in
/-- What point `t` writes back through output window 4 is block `t` of the layer's value of the entry arrays: the row
    block moves with the point, the weight and the two rows do not move. -/
theorem flushed1_4_eq (c : Dev nD) (t : Fin cfg1.N) :
    (dat1 (F := Ideal) V c).flushed 4 t = ((cfg1.win 4).blk t).view.read (Elt Ideal) (dense (V c main_v76) (V c main_v95) (V c main_v96) (V c main_v97)) := by
  show (cfg1.win 4).cut (grid1.coords t) ((dat1 V c).after 4 t) = _
  rw [after1_4]
  unfold out1_4
  rw [View.canon_unit_zero hz1]
  simp only [View.ld_unit_zero (S := S2000x128) hz1, View.ld_unit_zero (S := S128x128) hz1, View.ld_unit_zero (S := S1x128) hz1]
  obtain ⟨e00, e01, e10, e11, e20, e21, e30, e31, e40, e41, e50, e51, hle⟩ := idx_facts1 t
  funext j
  obtain ⟨p, q, rfl⟩ : ∃ (p : Fin 2000) (q : Fin 128), j = ix2 p q := ⟨j 0, j 1, eq_ix2 j⟩
  refine (pay1_apply _ _ _ _ p q).trans ?_
  rw [dense_ix2]
  have hp : p.val < 2000 := p.isLt
  have hr : win1_4.index t (0 : Fin 2) * 2000 + p.val < 50000 := by omega
  have h0 : ∀ k : Fin 128, ((cfg1.win 0).blk t).view.emb (ix2 p k) = ix2 (⟨win1_4.index t (0 : Fin 2) * 2000 + p.val, hr⟩ : Fin 50000) k := fun k => by
    funext a; apply Fin.ext
    match a with
    | ⟨0, _⟩ => show win1_0.index t (0 : Fin 2) * 2000 + 1 * p.val = win1_4.index t (0 : Fin 2) * 2000 + p.val; omega
    | ⟨1, _⟩ => show win1_0.index t (1 : Fin 2) * 128 + 1 * k.val = k.val; omega
  have h1 : ∀ k : Fin 128, ((cfg1.win 1).blk t).view.emb (ix2 k q) = ix2 k q := fun k => by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have h4 : ((cfg1.win 4).blk t).view.emb (ix2 p q) = ix2 (⟨win1_4.index t (0 : Fin 2) * 2000 + p.val, hr⟩ : Fin 50000) q := by
    funext a; apply Fin.ext
    match a with
    | ⟨0, _⟩ => show win1_4.index t (0 : Fin 2) * 2000 + 1 * p.val = win1_4.index t (0 : Fin 2) * 2000 + p.val; omega
    | ⟨1, _⟩ => show win1_4.index t (1 : Fin 2) * 128 + 1 * q.val = q.val; omega
  have key : ∀ (A0 : S50000x128.Idx → EReal) (A1 : S128x128.Idx → EReal) (A2 A3 : S1x128.Idx → EReal),
      max ((∑ k : Fin 128, A0 (((cfg1.win 0).blk t).view.emb (ix2 p k)) * A1 (((cfg1.win 1).blk t).view.emb (ix2 k q)))
          * A2 (((cfg1.win 2).blk t).view.emb (ix2 (0 : Fin 1) q)) + A3 (((cfg1.win 3).blk t).view.emb (ix2 (0 : Fin 1) q))) 0
        = dense A0 A1 A2 A3 (((cfg1.win 4).blk t).view.emb (ix2 p q)) := by
    intro A0 A1 A2 A3
    rw [h2, h3, h4, dense_ix2]
    simp only [h0, h1]
  exact key (V c main_v76) (V c main_v95) (V c main_v96) (V c main_v97)

/-- An index of the array is in point `t`'s block of window 4 iff each coordinate is in the block's range. -/
theorem mem_blk1_4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v98_0).slice (win1_4.rect t)).set ↔ _
  rw [View.set_slice_whole, Rect.mem_set_unit]
  exact Iff.rfl

/-- Every row lies in the block of the point that is the row number divided by 2000. -/
theorem cover1v_4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  obtain ⟨t, ht⟩ := idx_onto1 ⟨(i 0).val / 2000, by omega⟩
  have q0 : win1_4.index t (0 : Fin 2) = (i 0).val / 2000 := ht
  obtain ⟨e00, e01, e10, e11, e20, e21, e30, e31, e40, e41, e50, e51, hle⟩ := idx_facts1 t
  refine ⟨t, flush1_4 t, ?_⟩
  rw [mem_blk1_4]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 128 ≤ (i 1).val ∧ (i 1).val < win1_4.index t (1 : Fin 2) * 128 + 128; omega

/-- THE ARRAY of window 4 after the region: the layer's value of the entry arrays, everywhere. -/
theorem final1_4 (c : Dev nD) : (dat1 (F := Ideal) V c).arrAt 4 cfg1.N = (dense (V c main_v76) (V c main_v95) (V c main_v96) (V c main_v97)) :=
  (dat1 (F := Ideal) V c).arrAt_eq_of_cover 4 (dense (V c main_v76) (V c main_v95) (V c main_v96) (V c main_v97)) (fun t _ => flushed1_4_eq V c t) (cover1v_4)

set_option maxHeartbeats 2000000 in
/-- What point `t` writes back through output window 5 is block `t` of the layer's value of the entry arrays: the row
    block moves with the point, the weight and the two rows do not move. -/
theorem flushed1_5_eq (c : Dev nD) (t : Fin cfg1.N) :
    (dat1 (F := Ideal) V c).flushed 5 t = ((cfg1.win 5).blk t).view.read (Elt Ideal) (dense (V c main_v76) (V c main_v95) (V c main_v96) (V c main_v97)) := by
  show (cfg1.win 5).cut (grid1.coords t) ((dat1 V c).after 5 t) = _
  rw [after1_5]
  unfold out1_5
  rw [View.canon_unit_zero hz1]
  simp only [View.ld_unit_zero (S := S2000x128) hz1, View.ld_unit_zero (S := S128x128) hz1, View.ld_unit_zero (S := S1x128) hz1]
  obtain ⟨e00, e01, e10, e11, e20, e21, e30, e31, e40, e41, e50, e51, hle⟩ := idx_facts1 t
  funext j
  obtain ⟨p, q, rfl⟩ : ∃ (p : Fin 2000) (q : Fin 128), j = ix2 p q := ⟨j 0, j 1, eq_ix2 j⟩
  show k1_pay1 (F := Ideal) _ _ _ _ (ix2 p q) = _
  refine (pay1_apply _ _ _ _ p q).trans ?_
  rw [dense_ix2]
  have hp : p.val < 2000 := p.isLt
  have hr : win1_4.index t (0 : Fin 2) * 2000 + p.val < 50000 := by omega
  have h0 : ∀ k : Fin 128, ((cfg1.win 0).blk t).view.emb (ix2 p k) = ix2 (⟨win1_4.index t (0 : Fin 2) * 2000 + p.val, hr⟩ : Fin 50000) k := fun k => by
    funext a; apply Fin.ext
    match a with
    | ⟨0, _⟩ => show win1_0.index t (0 : Fin 2) * 2000 + 1 * p.val = win1_4.index t (0 : Fin 2) * 2000 + p.val; omega
    | ⟨1, _⟩ => show win1_0.index t (1 : Fin 2) * 128 + 1 * k.val = k.val; omega
  have h1 : ∀ k : Fin 128, ((cfg1.win 1).blk t).view.emb (ix2 k q) = ix2 k q := fun k => by
    funext a; apply Fin.ext
    match a with
    | ⟨0, _⟩ => show win1_1.index t (0 : Fin 2) * 128 + 1 * k.val = k.val; omega
    | ⟨1, _⟩ => show win1_1.index t (1 : Fin 2) * 128 + 1 * q.val = q.val; omega
  have h2 : ((cfg1.win 2).blk t).view.emb (ix2 (0 : Fin 1) q) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have h4 : ((cfg1.win 5).blk t).view.emb (ix2 p q) = ix2 (⟨win1_4.index t (0 : Fin 2) * 2000 + p.val, hr⟩ : Fin 50000) q := by
    funext a; apply Fin.ext
    match a with
    | ⟨0, _⟩ => show win1_5.index t (0 : Fin 2) * 2000 + 1 * p.val = win1_4.index t (0 : Fin 2) * 2000 + p.val; omega
    | ⟨1, _⟩ => show win1_5.index t (1 : Fin 2) * 128 + 1 * q.val = q.val; omega
  have key : ∀ (A0 : S50000x128.Idx → EReal) (A1 : S128x128.Idx → EReal) (A2 A3 : S1x128.Idx → EReal),
      max ((∑ k : Fin 128, A0 (((cfg1.win 0).blk t).view.emb (ix2 p k)) * A1 (((cfg1.win 1).blk t).view.emb (ix2 k q)))
          * A2 (((cfg1.win 2).blk t).view.emb (ix2 (0 : Fin 1) q)) + A3 (((cfg1.win 3).blk t).view.emb (ix2 (0 : Fin 1) q))) 0
        = dense A0 A1 A2 A3 (((cfg1.win 5).blk t).view.emb (ix2 p q)) := by
    intro A0 A1 A2 A3
    rw [h2, h3, h4, dense_ix2]
    simp only [h0, h1]
  exact key (V c main_v76) (V c main_v95) (V c main_v96) (V c main_v97)

/-- An index of the array is in point `t`'s block of window 5 iff each coordinate is in the block's range. -/
theorem mem_blk1_5 (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v98_1).slice (win1_5.rect t)).set ↔ _
  rw [View.set_slice_whole, Rect.mem_set_unit]
  exact Iff.rfl

/-- Every row lies in the block of the point that is the row number divided by 2000. -/
theorem cover1v_5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto1 ⟨(i 0).val / 2000, by omega⟩
  have q0 : win1_4.index t (0 : Fin 2) = (i 0).val / 2000 := ht
  obtain ⟨e00, e01, e10, e11, e20, e21, e30, e31, e40, e41, e50, e51, hle⟩ := idx_facts1 t
  refine ⟨t, flush1_5 t, ?_⟩
  rw [mem_blk1_5]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE ARRAY of window 5 after the region: the layer's value of the entry arrays, everywhere. -/
theorem final1_5 (c : Dev nD) : (dat1 (F := Ideal) V c).arrAt 5 cfg1.N = (dense (V c main_v76) (V c main_v95) (V c main_v96) (V c main_v97)) :=
  (dat1 (F := Ideal) V c).arrAt_eq_of_cover 5 (dense (V c main_v76) (V c main_v95) (V c main_v96) (V c main_v97)) (fun t _ => flushed1_5_eq V c t) (cover1v_5)

end

end Cert.KernelIdeal.Hand

end
-- ==== Proof.KIVal2.lean ====
import proofs.«160187_j35459249995962_2_alg».proof.Proof.KIRegion2
import proofs.«160187_j35459249995962_2_alg».proof.Proof.LibPlainDot
import proofs.«160187_j35459249995962_2_alg».proof.Proof.LayerSpec
import Idealize.ShloMosaic.Lib.Pipeline.Value
import Idealize.ShloMosaic.Lib.ValueIdx
import Idealize.ShloMosaic.Lib.ValueLayout
import Idealize.ShloMosaic.PureOps.Ideal.Laws

set_option maxRecDepth 16384

/-!
# What region 2 leaves in its two result arrays, over the extended reals

Over the extended reals the narrowing to bf16 is the identity, the matrix unit's product into a zero accumulator is
the plain sum over the contracted axis, and the clamp is `max · 0`. So the body's stored value at row `p` and channel
`q` of a block is the dense layer value of the four loaded blocks at `(p, q)`; the row block at point `t` is rows
`2000 t … 2000 t + 1999` of the aggregated array, the weight and the two rows are whole; and the 25 blocks tile the
50000 rows. Both result arrays therefore end holding the dense layer value of the region's entry arrays, everywhere.
-/

noncomputable section

namespace Cert.KernelIdeal.Hand

open Cert.KernelIdeal Cert.KernelIdeal.Gen
open Idealize.ShloMosaic Idealize.ShloMosaic.TcCoe Idealize.ShloMosaic.ValueIdx Cert.LayerSpec
open Idealize.ShloMosaic.Pipeline (Dat)

theorem hz2 : (![0, 0] : Fin 2 → Nat) = fun _ => 0 := funext fun a => by fin_cases a <;> rfl

/-- The body's stored value at an entry: the dense layer value of the four loaded blocks. -/
theorem pay2_apply (x0 : Vec Ideal S2000x128 .f32) (x1 : Vec Ideal S128x128 .f32) (x2 x3 : Vec Ideal S1x128 .f32) (p : Fin 2000) (q : Fin 128) :
    k2_pay1 (F := Ideal) x0 x1 x2 x3 (ix2 p q) = dense x0 x1 x2 x3 (ix2 p q) := by
  unfold k2_pay1
  simp only [shapeCast_self, maximumf_apply, addf_apply, mulf_apply, broadcast_apply, broadcastTo_1b_ab_apply, Ideal.matmul_constant_zero_apply, truncf_apply]
  rw [Cert.LibPlainDot.sum_plain dot_S2000x128_S128x128_S2000x128_1_0_0_1_n_n rfl rfl rfl rfl rfl rfl x0 x1 p q, dense_ix2]
  show max _ (Ideal.ofBits .f32 0x00000000#32) = _
  rw [Ideal.ofBits_zero_f32]

/-- The printed index maps, decided over the grid: the row block of windows 0, 4 and 5 moves with the point and stays
    below 25; every other block index is zero. -/
theorem idx_facts2 : ∀ t : Fin cfg2.N, win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = win2_4.index t (0 : Fin 2) ∧ win2_4.index t (1 : Fin 2) = 0
    ∧ win2_5.index t (0 : Fin 2) = win2_4.index t (0 : Fin 2) ∧ win2_5.index t (1 : Fin 2) = 0
    ∧ win2_4.index t (0 : Fin 2) ≤ 24 :=
  (by decide +kernel : ∀ t : Fin grid2.N, _)

/-- Every row block is some point's. -/
theorem idx_onto2 : ∀ (q0 : Fin 25), ∃ t : Fin cfg2.N, win2_4.index t (0 : Fin 2) = q0.val :=
  (by decide +kernel : ∀ (q0 : Fin 25), ∃ t : Fin grid2.N, win2_4.index t (0 : Fin 2) = q0.val)

section
variable (V : (c : Dev nD) → (b : Ref sig .tc) → Buf (Elt Ideal) ((c : Thread nD τ).loc b))

set_option maxHeartbeats 2000000 in
/-- What point `t` writes back through output window 4 is block `t` of the layer's value of the entry arrays: the row
    block moves with the point, the weight and the two rows do not move. -/
theorem flushed2_4_eq (c : Dev nD) (t : Fin cfg2.N) :
    (dat2 (F := Ideal) V c).flushed 4 t = ((cfg2.win 4).blk t).view.read (Elt Ideal) (dense (V c main_v111) (V c main_v130) (V c main_v131) (V c main_v132)) := by
  show (cfg2.win 4).cut (grid2.coords t) ((dat2 V c).after 4 t) = _
  rw [after2_4]
  unfold out2_4
  rw [View.canon_unit_zero hz2]
  simp only [View.ld_unit_zero (S := S2000x128) hz2, View.ld_unit_zero (S := S128x128) hz2, View.ld_unit_zero (S := S1x128) hz2]
  obtain ⟨e00, e01, e10, e11, e20, e21, e30, e31, e40, e41, e50, e51, hle⟩ := idx_facts2 t
  funext j
  obtain ⟨p, q, rfl⟩ : ∃ (p : Fin 2000) (q : Fin 128), j = ix2 p q := ⟨j 0, j 1, eq_ix2 j⟩
  refine (pay2_apply _ _ _ _ p q).trans ?_
  rw [dense_ix2]
  have hp : p.val < 2000 := p.isLt
  have hr : win2_4.index t (0 : Fin 2) * 2000 + p.val < 50000 := by omega
  have h0 : ∀ k : Fin 128, ((cfg2.win 0).blk t).view.emb (ix2 p k) = ix2 (⟨win2_4.index t (0 : Fin 2) * 2000 + p.val, hr⟩ : Fin 50000) k := fun k => by
    funext a; apply Fin.ext
    match a with
    | ⟨0, _⟩ => show win2_0.index t (0 : Fin 2) * 2000 + 1 * p.val = win2_4.index t (0 : Fin 2) * 2000 + p.val; omega
    | ⟨1, _⟩ => show win2_0.index t (1 : Fin 2) * 128 + 1 * k.val = k.val; omega
  have h1 : ∀ k : Fin 128, ((cfg2.win 1).blk t).view.emb (ix2 k q) = ix2 k q := fun k => by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have h4 : ((cfg2.win 4).blk t).view.emb (ix2 p q) = ix2 (⟨win2_4.index t (0 : Fin 2) * 2000 + p.val, hr⟩ : Fin 50000) q := by
    funext a; apply Fin.ext
    match a with
    | ⟨0, _⟩ => show win2_4.index t (0 : Fin 2) * 2000 + 1 * p.val = win2_4.index t (0 : Fin 2) * 2000 + p.val; omega
    | ⟨1, _⟩ => show win2_4.index t (1 : Fin 2) * 128 + 1 * q.val = q.val; omega
  have key : ∀ (A0 : S50000x128.Idx → EReal) (A1 : S128x128.Idx → EReal) (A2 A3 : S1x128.Idx → EReal),
      max ((∑ k : Fin 128, A0 (((cfg2.win 0).blk t).view.emb (ix2 p k)) * A1 (((cfg2.win 1).blk t).view.emb (ix2 k q)))
          * A2 (((cfg2.win 2).blk t).view.emb (ix2 (0 : Fin 1) q)) + A3 (((cfg2.win 3).blk t).view.emb (ix2 (0 : Fin 1) q))) 0
        = dense A0 A1 A2 A3 (((cfg2.win 4).blk t).view.emb (ix2 p q)) := by
    intro A0 A1 A2 A3
    rw [h2, h3, h4, dense_ix2]
    simp only [h0, h1]
  exact key (V c main_v111) (V c main_v130) (V c main_v131) (V c main_v132)

/-- An index of the array is in point `t`'s block of window 4 iff each coordinate is in the block's range. -/
theorem mem_blk2_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v133_0).slice (win2_4.rect t)).set ↔ _
  rw [View.set_slice_whole, Rect.mem_set_unit]
  exact Iff.rfl

/-- Every row lies in the block of the point that is the row number divided by 2000. -/
theorem cover2v_4 (i : S50000x128.Idx) : ∃ t : Fin cfg2.N, (cfg2.win 4).flush t = true ∧ i ∈ ((cfg2.win 4).blk t).view.set := by
  have hi0 : (i 0).val < 50000 := (i 0).isLt
  have hi1 : (i 1).val < 128 := (i 1).isLt
  obtain ⟨t, ht⟩ := idx_onto2 ⟨(i 0).val / 2000, by omega⟩
  have q0 : win2_4.index t (0 : Fin 2) = (i 0).val / 2000 := ht
  obtain ⟨e00, e01, e10, e11, e20, e21, e30, e31, e40, e41, e50, e51, hle⟩ := idx_facts2 t
  refine ⟨t, flush2_4 t, ?_⟩
  rw [mem_blk2_4]
  intro a
  match a with
  | ⟨0, _⟩ => show win2_4.index t (0 : Fin 2) * 2000 ≤ (i 0).val ∧ (i 0).val < win2_4.index t (0 : Fin 2) * 2000 + 2000; omega
  | ⟨1, _⟩ => show win2_4.index t (1 : Fin 2) * 128 ≤ (i 1).val ∧ (i 1).val < win2_4.index t (1 : Fin 2) * 128 + 128; omega

/-- THE ARRAY of window 4 after the region: the layer's value of the entry arrays, everywhere. -/
theorem final2_4 (c : Dev nD) : (dat2 (F := Ideal) V c).arrAt 4 cfg2.N = (dense (V c main_v111) (V c main_v130) (V c main_v131) (V c main_v132)) :=
  (dat2 (F := Ideal) V c).arrAt_eq_of_cover 4 (dense (V c main_v111) (V c main_v130) (V c main_v131) (V c main_v132)) (fun t _ => flushed2_4_eq V c t) (cover2v_4)

set_option maxHeartbeats 2000000 in
/-- What point `t` writes back through output window 5 is block `t` of the layer's value of the entry arrays: the row
    block moves with the point, the weight and the two rows do not move. -/
theorem flushed2_5_eq (c : Dev nD) (t : Fin cfg2.N) :
    (dat2 (F := Ideal) V c).flushed 5 t = ((cfg2.win 5).blk t).view.read (Elt Ideal) (dense (V c main_v111) (V c main_v130) (V c main_v131) (V c main_v132)) := by
  show (cfg2.win 5).cut (grid2.coords t) ((dat2 V c).after 5 t) = _
  rw [after2_5]
  unfold out2_5
  rw [View.canon_unit_zero hz2]
  simp only [View.ld_unit_zero (S := S2000x128) hz2, View.ld_unit_zero (S := S128x128) hz2, View.ld_unit_zero (S := S1x128) hz2]
  obtain ⟨e00, e01, e10, e11, e20, e21, e30, e31, e40, e41, e50, e51, hle⟩ := idx_facts2 t
  funext j
  obtain ⟨p, q, rfl⟩ : ∃ (p : Fin 2000) (q : Fin 128), j = ix2 p q := ⟨j 0, j 1, eq_ix2 j⟩
  show k2_pay1 (F := Ideal) _ _ _ _ (ix2 p q) = _
  refine (pay2_apply _ _ _ _ p q).trans ?_
  rw [dense_ix2]
  have hp : p.val < 2000 := p.isLt
  have hr : win2_4.index t (0 : Fin 2) * 2000 + p.val < 50000 := by omega
  have h0 : ∀ k : Fin 128, ((cfg2.win 0).blk t).view.emb (ix2 p k) = ix2 (⟨win2_4.index t (0 : Fin 2) * 2000 + p.val, hr⟩ : Fin 50000) k := fun k => by
    funext a; apply Fin.ext
    match a with
    | ⟨0, _⟩ => show win2_0.index t (0 : Fin 2) * 2000 + 1 * p.val = win2_4.index t (0 : Fin 2) * 2000 + p.val; omega
    | ⟨1, _⟩ => show win2_0.index t (1 : Fin 2) * 128 + 1 * k.val = k.val; omega
  have h1 : ∀ k : Fin 128, ((cfg2.win 1).blk t).view.emb (ix2 k q) = ix2 k q := fun k => by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have h3 : ((cfg2.win 3).blk t).view.emb (ix2 (0 : Fin 1) q) = ix2 (0 : Fin 1) q := by
    funext a; apply Fin.ext
    match a with
    | ⟨0, _⟩ => show win2_3.index t (0 : Fin 2) * 1 + 1 * 0 = 0; omega
    | ⟨1, _⟩ => show win2_3.index t (1 : Fin 2) * 128 + 1 * q.val = q.val; omega
  have h4 : ((cfg2.win 5).blk t).view.emb (ix2 p q) = ix2 (⟨win2_4.index t (0 : Fin 2) * 2000 + p.val, hr⟩ : Fin 50000) q := by
    funext a; apply Fin.ext
    match a with
    | ⟨0, _⟩ => show win2_5.index t (0 : Fin 2) * 2000 + 1 * p.val = win2_4.index t (0 : Fin 2) * 2000 + p.val; omega
    | ⟨1, _⟩ => show win2_5.index t (1 : Fin 2) * 128 + 1 * q.val = q.val; omega
  have key : ∀ (A0 : S50000x128.Idx → EReal) (A1 : S128x128.Idx → EReal) (A2 A3 : S1x128.Idx → EReal),
      max ((∑ k : Fin 128, A0 (((cfg2.win 0).blk t).view.emb (ix2 p k)) * A1 (((cfg2.win 1).blk t).view.emb (ix2 k q)))
          * A2 (((cfg2.win 2).blk t).view.emb (ix2 (0 : Fin 1) q)) + A3 (((cfg2.win 3).blk t).view.emb (ix2 (0 : Fin 1) q))) 0
        = dense A0 A1 A2 A3 (((cfg2.win 5).blk t).view.emb (ix2 p q)) := by
    intro A0 A1 A2 A3
    rw [h2, h3, h4, dense_ix2]
    simp only [h0, h1]
  exact key (V c main_v111) (V c main_v130) (V c main_v131) (V c main_v132)

/-- An index of the array is in point `t`'s block of window 5 iff each coordinate is in the block's range. -/
theorem mem_blk2_5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v133_1).slice (win2_5.rect t)).set ↔ _
  rw [View.set_slice_whole, Rect.mem_set_unit]
  exact Iff.rfl

/-- Every row lies in the block of the point that is the row number divided by 2000. -/
theorem cover2v_5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto2 ⟨(i 0).val / 2000, by omega⟩
  have q0 : win2_4.index t (0 : Fin 2) = (i 0).val / 2000 := ht
  obtain ⟨e00, e01, e10, e11, e20, e21, e30, e31, e40, e41, e50, e51, hle⟩ := idx_facts2 t
  refine ⟨t, flush2_5 t, ?_⟩
  rw [mem_blk2_5]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-- THE ARRAY of window 5 after the region: the layer's value of the entry arrays, everywhere. -/
theorem final2_5 (c : Dev nD) : (dat2 (F := Ideal) V c).arrAt 5 cfg2.N = (dense (V c main_v111) (V c main_v130) (V c main_v131) (V c main_v132)) :=
  (dat2 (F := Ideal) V c).arrAt_eq_of_cover 5 (dense (V c main_v111) (V c main_v130) (V c main_v131) (V c main_v132)) (fun t _ => flushed2_5_eq V c t) (cover2v_5)

end

end Cert.KernelIdeal.Hand

end
-- ==== Proof.KIKeepsB.lean ====
import proofs.«160187_j35459249995962_2_alg».proof.Proof.Gen.KernelIdeal.Launch
import Idealize.ShloMosaic.Lib.StableHlo.Run
import Idealize.ShloMosaic.PureOps.Ideal

set_option maxRecDepth 16384

/-!
# Buffers a later stretch of host lines leaves alone

The edge words, the edge coefficients and the earlier layers' results are written once and only read afterwards: no
line of the second or the third stretch writes them.
-/

noncomputable section

namespace Cert.KernelIdeal.Hand

open Cert.KernelIdeal Cert.KernelIdeal.Gen
open Idealize.ShloMosaic Idealize.ShloMosaic.TcCoe

variable {F : FTy → Type} [FloatOps F]

set_option maxHeartbeats 4000000 in
/-- No operation of `hostOps1` writes one of these buffers. -/
theorem keepsB_hostOps1 (Vl : Valuation τ sig (Elt F)) (b : Ref sig .tc) (hb : b ∈ ([main_v63_0, main_v3, main_v6, main_v27] : List (Ref sig .tc))) :
    StableHlo.after (hostOps1 (F := F)) Vl (Proc.devRef .tc b) = Vl (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

set_option maxHeartbeats 4000000 in
/-- No operation of `hostOps2` writes one of these buffers. -/
theorem keepsB_hostOps2 (Vl : Valuation τ sig (Elt F)) (b : Ref sig .tc) (hb : b ∈ ([main_v63_0, main_v98_0, main_v3, main_v6, main_v27] : List (Ref sig .tc))) :
    StableHlo.after (hostOps2 (F := F)) Vl (Proc.devRef .tc b) = Vl (Proc.devRef .tc b) := by
  refine StableHlo.after_of_forall_not_mem (b := Proc.devRef .tc b) _ _ (List.forall_iff_forall_mem.mp ?_)
  simp only [List.mem_cons, List.mem_nil_iff, or_false] at hb
  rcases hb with rfl | rfl | rfl | rfl | rfl
  all_goals
    simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

end Cert.KernelIdeal.Hand

end
-- ==== Proof.KIStages.lean ====
import proofs.«160187_j35459249995962_2_alg».proof.Proof.Gen.KernelIdeal.Launch
import Idealize.ShloMosaic.Lib.StableHlo.Run
import Idealize.ShloMosaic.PureOps.Ideal

set_option maxRecDepth 16384

/-!
# The kernel program's host lines between its regions, as named functions of whole arrays

Before each region the host aggregates the previous layer's (narrowed) features: it gathers their rows at the source
words of the edge list (a negative word wrapped by the node count), scales each gathered row by the edge's
coefficient, and accumulates the rows at the target words into a zero array. It also cuts the layer's weight and the
layer's row of each per-channel parameter out of the stacked arguments, and folds bias, running mean, running
variance, gamma and beta into one scale row `gamma * rsqrt (var + eps)` and one offset row
`beta - (mean - bias) * scale`.
-/

noncomputable section

namespace Cert.KernelIdeal.Hand

open Cert.KernelIdeal Cert.KernelIdeal.Gen
open Idealize.ShloMosaic Idealize.ShloMosaic.TcCoe Idealize.ShloMosaic.StableHlo

/-- Gather index words as a column: a negative word wrapped by the node count. -/
def gIdx (w : IVec S850000 32) : IVec S850000x1 32 :=
  broadcastInDim S850000x1 ![0] bcast_S850000_S850000x1_0
    (select (cmpi CmpIPredicate.slt w (broadcastInDim S850000 ![] bcast_S_S850000 (constantI S_ 32 0#32)))
      (addi w (broadcastInDim S850000 ![] bcast_S_S850000 (constantI S_ 32 50000#32))) w)

/-- Scatter index words as a column. -/
def sIdx (w : IVec S850000 32) : IVec S850000x1 32 := broadcastInDim S850000x1 ![0] bcast_S850000_S850000x1_0 w

/-- The zero array the aggregation accumulates into. -/
def zeroND : FVec Ideal S50000x128 .f32 := broadcastInDim S50000x128 ![] bcast_S_S50000x128 (constant (F := Ideal) S_ FTy.f32 0#32)

/-- One aggregation: rows of `hb` gathered at the source words, scaled by the edge coefficients `nc`, accumulated at
    the target words. -/
def agg (hb : FVec Ideal S50000x128 .bf16) (srcW dstW : IVec S850000 32) (nc : FVec Ideal S850000x1 .f32) : FVec Ideal S50000x128 .f32 :=
  Host.scatterAdd scatter_S50000x128_S850000x1_S850000x128_1_0_0_1 zeroND (sIdx dstW)
    (mulf (extf FTy.f32 (Host.gather gather_S50000x128_S850000x1_S850000x128_1_0_n_n_0_1_1128 hb (gIdx srcW)) bitsLt_bf16_f32)
      (broadcastInDim S850000x128 ![0, 1] bcast_S850000x1_S850000x128_0_1 nc))

/-- A layer's row of a stacked per-channel parameter, as a list of 128. -/
def vecRow (x : FVec Ideal S3x128 .f32) (off : Fin 2 → Nat) (h : S3x128.Slices off S1x128) : FVec Ideal S128 .f32 :=
  shapeCast S128 (extractStridedSlice S1x128 off x h) shapeCasts_S1x128_S128

/-- The folded scale `gamma * rsqrt (var + eps)`. -/
def scaleV (x5 x8 : FVec Ideal S3x128 .f32) (off : Fin 2 → Nat) (h : S3x128.Slices off S1x128) : FVec Ideal S128 .f32 :=
  mulf (vecRow x5 off h) (Host.rsqrt (addf (vecRow x8 off h) (broadcastInDim S128 ![] bcast_S_S128 (constant (F := Ideal) S_ FTy.f32 925353388#32))))

/-- The folded offset `beta - (mean - bias) * scale`. -/
def offsetV (x4 x5 x6 x7 x8 : FVec Ideal S3x128 .f32) (off : Fin 2 → Nat) (h : S3x128.Slices off S1x128) : FVec Ideal S128 .f32 :=
  subf (vecRow x6 off h) (mulf (subf (vecRow x7 off h) (vecRow x4 off h)) (scaleV x5 x8 off h))

/-- A list of 128 as a 1 x 128 row. -/
def asRow (v : FVec Ideal S128 .f32) : FVec Ideal S1x128 .f32 := shapeCast S1x128 v shapeCasts_S128_S1x128

/-- A layer's weight cut out of the stacked weights. -/
def wMat (x3 : FVec Ideal S3x128x128 .f32) (off : Fin 3 → Nat) (h : S3x128x128.Slices off S1x128x128) : FVec Ideal S128x128 .f32 :=
  shapeCast S128x128 (extractStridedSlice S1x128x128 off x3 h) shapeCasts_S1x128x128_S128x128

/-! ## The prelude: the edge words with self-loops appended, and the edge coefficients -/

/-- Row `k` of the edge list followed by the node numbers (one self-loop per node): 850000 words. -/
def edgeW (x1 : IVec S2x800000 32) (off : Fin 2 → Nat) (h : S2x800000.Slices off S1x800000) : IVec S850000 32 :=
  concatenate S850000 0 [⟨S800000, shapeCast S800000 (extractStridedSlice S1x800000 off x1 h) shapeCasts_S1x800000_S800000⟩,
    ⟨S50000, iotaInDim S50000 32 0⟩] concatenates_S800000_S50000_S850000_d0

/-- The source words. -/
def srcW (x1 : IVec S2x800000 32) : IVec S850000 32 := edgeW x1 ![0, 0] slices_S2x800000_S1x800000_0_0
/-- The target words. -/
def dstW (x1 : IVec S2x800000 32) : IVec S850000 32 := edgeW x1 ![1, 0] slices_S2x800000_S1x800000_1_0

/-- The inverse square root of each node's in-degree (self-loop included). -/
def dinv (x1 : IVec S2x800000 32) : FVec Ideal S50000 .f32 :=
  Host.rsqrt (Host.scatterAdd scatter_S50000_S850000x1_S850000_n_0_0_1
    (broadcastInDim S50000 ![] bcast_S_S50000 (constant (F := Ideal) S_ FTy.f32 0#32)) (sIdx (dstW x1))
    (broadcastInDim S850000 ![] bcast_S_S850000 (constant (F := Ideal) S_ FTy.f32 1065353216#32)))

/-- The edge coefficients `dinv[src] * dinv[dst]`, as a column. -/
def normCol (x1 : IVec S2x800000 32) : FVec Ideal S850000x1 .f32 :=
  broadcastInDim S850000x1 ![0] bcast_S850000_S850000x1_0
    (mulf (Host.gather gather_S50000_S850000x1_S850000_n_0_n_n_0_1_1 (dinv x1) (gIdx (srcW x1)))
      (Host.gather gather_S50000_S850000x1_S850000_n_0_n_n_0_1_1 (dinv x1) (gIdx (dstW x1))))

/-! ## The head: the linear classifier on the pooled features, then the log-softmax -/

/-- The logits of the pooled features. -/
def headK (p : FVec Ideal S128x512 .f32) (x9 : FVec Ideal S512x10 .f32) (x10 : FVec Ideal S10 .f32) : FVec Ideal S128x10 .f32 :=
  addf (Host.dotGeneral dot_S128x512_S512x10_S128x10_1_0_0_1_n_n none p x9)
    (broadcastInDim S128x10 ![0, 1] bcast_S1x10_S128x10_0_1 (broadcastInDim S1x10 ![1] bcast_S10_S1x10_1 x10))

/-- The log-softmax along the classes: the logits less their row maximum, less the logarithm of the row sum of the
    exponentials of that difference. -/
def lsK (x : FVec Ideal S128x10 .f32) : FVec Ideal S128x10 .f32 :=
  let d : FVec Ideal S128x10 .f32 := subf x (broadcastInDim S128x10 ![0, 1] bcast_S128x1_S128x10_0_1 (broadcastInDim S128x1 ![0] bcast_S128_S128x1_0
    (maximumf (broadcastInDim S128 ![] bcast_S_S128 (constant (F := Ideal) S_ FTy.f32 0xFF800000#32))
      (Host.reduce FloatOps.maximumf x (constant (F := Ideal) S_ FTy.f32 0xFF800000#32) reducesTo_S128x10_S128_d1 h_S_))))
  subf d (broadcastInDim S128x10 ![0, 1] bcast_S128x1_S128x10_0_1 (Host.log (broadcastInDim S128x1 ![0] bcast_S128_S128x1_0
    (Host.reduceAdd (Host.exp d) (constant (F := Ideal) S_ FTy.f32 0#32) reducesTo_S128x10_S128_d1 h_S_))))

end Cert.KernelIdeal.Hand

end
-- ==== Proof.KILayer.lean ====
import proofs.«160187_j35459249995962_2_alg».proof.Proof.KIStages
import proofs.«160187_j35459249995962_2_alg».proof.Proof.LayerSpec

set_option maxRecDepth 16384

/-! One layer of the kernel program as a function of whole arrays: the dense layer value of the aggregate of the (narrowed) previous
    features, of the layer's weight and of its folded scale and offset rows. -/

noncomputable section

namespace Cert.KernelIdeal.Hand

open Cert.KernelIdeal Cert.KernelIdeal.Gen
open Idealize.ShloMosaic Idealize.ShloMosaic.TcCoe Cert.LayerSpec

/-- One layer of the kernel program as a function of the previous layer's features and the arguments. -/
def kLayer (H : FVec Ideal S50000x128 .f32) (x1 : IVec S2x800000 32) (x3 : FVec Ideal S3x128x128 .f32) (x4 x5 x6 x7 x8 : FVec Ideal S3x128 .f32)
    (off3 : Fin 3 → Nat) (h3 : S3x128x128.Slices off3 S1x128x128) (off2 : Fin 2 → Nat) (h2 : S3x128.Slices off2 S1x128) : FVec Ideal S50000x128 .f32 :=
  dense (agg (truncf .bf16 H bitsLt_bf16_f32) (srcW x1) (dstW x1) (normCol x1)) (wMat x3 off3 h3) (asRow (scaleV x5 x8 off2 h2)) (asRow (offsetV x4 x5 x6 x7 x8 off2 h2))

end Cert.KernelIdeal.Hand

end
-- ==== Proof.KIA_after1_v76.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after1_v76 (V : Valuation τ sig (Elt Ideal)) :
    (StableHlo.after (hostOps1 (F := Ideal)) V (Proc.devRef .tc main_v76) : FVec Ideal S50000x128 .f32)
      = agg (V (Proc.devRef .tc main_v63_1)) (V (Proc.devRef .tc main_v3)) (V (Proc.devRef .tc main_v6)) (V (Proc.devRef .tc main_v27)) := by
  after_results
  rfl

end Cert.KernelIdeal.Hand

end
-- ==== Proof.KIA_after1_v95.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after1_v95 (V : Valuation τ sig (Elt Ideal)) :
    (StableHlo.after (hostOps1 (F := Ideal)) V (Proc.devRef .tc main_v95) : FVec Ideal S128x128 .f32)
      = wMat (V (Proc.devRef .tc main_arg3)) ![1, 0, 0] slices_S3x128x128_S1x128x128_1_0_0 := by
  after_results
  rfl

end Cert.KernelIdeal.Hand

end
-- ==== Proof.KIA_after1_v96.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after1_v96 (V : Valuation τ sig (Elt Ideal)) :
    (StableHlo.after (hostOps1 (F := Ideal)) V (Proc.devRef .tc main_v96) : FVec Ideal S1x128 .f32)
      = asRow (scaleV (V (Proc.devRef .tc main_arg5)) (V (Proc.devRef .tc main_arg8)) ![1, 0] slices_S3x128_S1x128_1_0) := by
  after_results
  rfl

end Cert.KernelIdeal.Hand

end
-- ==== Proof.KIA_after1_v97.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after1_v97 (V : Valuation τ sig (Elt Ideal)) :
    (StableHlo.after (hostOps1 (F := Ideal)) V (Proc.devRef .tc main_v97) : FVec Ideal S1x128 .f32)
      = asRow (offsetV (V (Proc.devRef .tc main_arg4)) (V (Proc.devRef .tc main_arg5)) (V (Proc.devRef .tc main_arg6)) (V (Proc.devRef .tc main_arg7)) (V (Proc.devRef .tc main_arg8)) ![1, 0] slices_S3x128_S1x128_1_0) := by
  after_results
  rfl

end Cert.KernelIdeal.Hand

end
-- ==== Proof.KIA_after2_v111.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after2_v111 (V : Valuation τ sig (Elt Ideal)) :
    (StableHlo.after (hostOps2 (F := Ideal)) V (Proc.devRef .tc main_v111) : FVec Ideal S50000x128 .f32)
      = agg (V (Proc.devRef .tc main_v98_1)) (V (Proc.devRef .tc main_v3)) (V (Proc.devRef .tc main_v6)) (V (Proc.devRef .tc main_v27)) := by
  after_results
  rfl

end Cert.KernelIdeal.Hand

end
-- ==== Proof.KIA_after2_v130.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after2_v130 (V : Valuation τ sig (Elt Ideal)) :
    (StableHlo.after (hostOps2 (F := Ideal)) V (Proc.devRef .tc main_v130) : FVec Ideal S128x128 .f32)
      = wMat (V (Proc.devRef .tc main_arg3)) ![2, 0, 0] slices_S3x128x128_S1x128x128_2_0_0 := by
  after_results
  rfl

end Cert.KernelIdeal.Hand

end
-- ==== Proof.KIA_after2_v131.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after2_v131 (V : Valuation τ sig (Elt Ideal)) :
    (StableHlo.after (hostOps2 (F := Ideal)) V (Proc.devRef .tc main_v131) : FVec Ideal S1x128 .f32)
      = asRow (scaleV (V (Proc.devRef .tc main_arg5)) (V (Proc.devRef .tc main_arg8)) ![2, 0] slices_S3x128_S1x128_2_0) := by
  after_results
  rfl

end Cert.KernelIdeal.Hand

end
-- ==== Proof.KIA_after2_v132.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after2_v132 (V : Valuation τ sig (Elt Ideal)) :
    (StableHlo.after (hostOps2 (F := Ideal)) V (Proc.devRef .tc main_v132) : FVec Ideal S1x128 .f32)
      = asRow (offsetV (V (Proc.devRef .tc main_arg4)) (V (Proc.devRef .tc main_arg5)) (V (Proc.devRef .tc main_arg6)) (V (Proc.devRef .tc main_arg7)) (V (Proc.devRef .tc main_arg8)) ![2, 0] slices_S3x128_S1x128_2_0) := by
  after_results
  rfl

end Cert.KernelIdeal.Hand

end
-- ==== Proof.KIA_after0_v41.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after0_v41 (V : Valuation τ sig (Elt Ideal)) :
    (StableHlo.after (hostOps0 (F := Ideal)) V (Proc.devRef .tc main_v41) : FVec Ideal S50000x128 .f32)
      = agg (truncf .bf16 (V (Proc.devRef .tc main_arg0)) bitsLt_bf16_f32) (srcW (V (Proc.devRef .tc main_arg1))) (dstW (V (Proc.devRef .tc main_arg1))) (normCol (V (Proc.devRef .tc main_arg1))) := by
  after_results
  rfl

end Cert.KernelIdeal.Hand

end
-- ==== Proof.KIA_after0_v60.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after0_v60 (V : Valuation τ sig (Elt Ideal)) :
    (StableHlo.after (hostOps0 (F := Ideal)) V (Proc.devRef .tc main_v60) : FVec Ideal S128x128 .f32)
      = wMat (V (Proc.devRef .tc main_arg3)) ![0, 0, 0] slices_S3x128x128_S1x128x128_0_0_0 := by
  after_results
  rfl

end Cert.KernelIdeal.Hand

end
-- ==== Proof.KIA_after0_v61.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after0_v61 (V : Valuation τ sig (Elt Ideal)) :
    (StableHlo.after (hostOps0 (F := Ideal)) V (Proc.devRef .tc main_v61) : FVec Ideal S1x128 .f32)
      = asRow (scaleV (V (Proc.devRef .tc main_arg5)) (V (Proc.devRef .tc main_arg8)) ![0, 0] slices_S3x128_S1x128_0_0) := by
  after_results
  rfl

end Cert.KernelIdeal.Hand

end
-- ==== Proof.KIA_after0_v62.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after0_v62 (V : Valuation τ sig (Elt Ideal)) :
    (StableHlo.after (hostOps0 (F := Ideal)) V (Proc.devRef .tc main_v62) : FVec Ideal S1x128 .f32)
      = asRow (offsetV (V (Proc.devRef .tc main_arg4)) (V (Proc.devRef .tc main_arg5)) (V (Proc.devRef .tc main_arg6)) (V (Proc.devRef .tc main_arg7)) (V (Proc.devRef .tc main_arg8)) ![0, 0] slices_S3x128_S1x128_0_0) := by
  after_results
  rfl

end Cert.KernelIdeal.Hand

end
-- ==== Proof.KIA_after0_v3.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after0_v3 (V : Valuation τ sig (Elt Ideal)) :
    (StableHlo.after (hostOps0 (F := Ideal)) V (Proc.devRef .tc main_v3) : IVec S850000 32)
      = srcW (V (Proc.devRef .tc main_arg1)) := by
  after_results
  rfl

end Cert.KernelIdeal.Hand

end
-- ==== Proof.KIA_after0_v6.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after0_v6 (V : Valuation τ sig (Elt Ideal)) :
    (StableHlo.after (hostOps0 (F := Ideal)) V (Proc.devRef .tc main_v6) : IVec S850000 32)
      = dstW (V (Proc.devRef .tc main_arg1)) := by
  after_results
  rfl

end Cert.KernelIdeal.Hand

end
-- ==== Proof.KIA_after0_v27.lean ====
import proofs.«160187_j35459249995962_2_alg».proof.Proof.KIStages

set_option maxRecDepth 16384

/-! One buffer of the kernel program after a stretch of its host lines, as its named function of the buffers the stretch reads. -/

noncomputable section

namespace Cert.KernelIdeal.Hand

open Cert.KernelIdeal Cert.KernelIdeal.Gen
open Idealize.ShloMosaic Idealize.ShloMosaic.TcCoe Idealize.ShloMosaic.StableHlo

set_option maxHeartbeats 8000000 in
theorem after0_v27 (V : Valuation τ sig (Elt Ideal)) :
    (StableHlo.after (hostOps0 (F := Ideal)) V (Proc.devRef .tc main_v27) : FVec Ideal S850000x1 .f32)
      = normCol (V (Proc.devRef .tc main_arg1)) := by
  after_results
  rfl

end Cert.KernelIdeal.Hand

end
-- ==== Proof.LibUnitAxis.lean ====
/-
  An array with a leading axis of extent one, and the same array without it.

  An index (b, p, q) of a 1 x A x B array has b = 0, so dropping b is a bijection onto the indices (p, q) of an A x B
  array; `low` drops the unit coordinate, `up` restores it, and `lowEquiv` is the bijection, through which a sum over
  one index set is re-indexed as a sum over the other.
-/
import Idealize.ShloMosaic.Lib.ValueIdx

noncomputable section

namespace Cert.LibUnitAxis

open Idealize.ShloMosaic Idealize.ShloMosaic.ValueIdx

/-- The index (p, q) of an A x B array under the index (0, p, q) of the 1 x A x B array. -/
def low {A B : Nat} (i : (⟨3, ![1, A, B]⟩ : Shape).Idx) : (⟨2, ![A, B]⟩ : Shape).Idx :=
  ix2 (n0 := A) (n1 := B) (i 1) (i 2)

/-- The index (0, p, q) of the 1 x A x B array over the index (p, q). -/
def up {A B : Nat} (j : (⟨2, ![A, B]⟩ : Shape).Idx) : (⟨3, ![1, A, B]⟩ : Shape).Idx :=
  ix3 (n0 := 1) (n1 := A) (n2 := B) (0 : Fin 1) (j 0) (j 1)

theorem low_ix3 {A B : Nat} (b : Fin 1) (p : Fin A) (q : Fin B) : low (ix3 b p q) = ix2 p q := rfl
theorem up_ix2 {A B : Nat} (p : Fin A) (q : Fin B) : up (ix2 p q) = ix3 (0 : Fin 1) p q := rfl

theorem low_up {A B : Nat} (j : (⟨2, ![A, B]⟩ : Shape).Idx) : low (up j) = j := (eq_ix2 j).symm

theorem up_low {A B : Nat} (i : (⟨3, ![1, A, B]⟩ : Shape).Idx) : up (low i) = i := by
  funext a
  match a with
  | ⟨0, _⟩ => exact Subsingleton.elim (α := Fin 1) _ _
  | ⟨1, _⟩ => rfl
  | ⟨2, _⟩ => rfl

/-- Dropping the unit coordinate is a bijection of the two index sets. -/
def lowEquiv {A B : Nat} : (⟨3, ![1, A, B]⟩ : Shape).Idx ≃ (⟨2, ![A, B]⟩ : Shape).Idx where
  toFun := low
  invFun := up
  left_inv := up_low
  right_inv := low_up

theorem low_injective {A B : Nat} : Function.Injective (low (A := A) (B := B)) := lowEquiv.injective

end Cert.LibUnitAxis

end
-- ==== Proof.LibRowScatter.lean ====
/-
  Accumulating rows into a matrix, with and without a leading axis of extent one.

  A scatter with an addition body takes an N x D operand, a list of E row numbers (one index word per update row) and
  an E x D array of updates, and adds update row e into operand row z(e), where z(e) is the e-th index word read as a
  signed integer; a row number outside [0, N) drops its update row. In the exact model the result element (n, o) is the
  operand element plus the sum of the update elements (e, o) with z(e) = n.

  The same accumulation can be written on arrays that carry a leading axis of extent one: a 1 x N x D operand and
  1 x E x D updates, the unit axis and the last axis being window axes and the middle axis the scattered one. This
  file proves that the two say the same thing, for all extents: reading the rank-3 result at (b, n, o) is reading the
  rank-2 result at (n, o).

  The proof computes, for both sets of dimension numbers, the start and the window coordinate on each operand axis
  (`start2_0` ... `window3_2`): the scattered axis starts at z(e) with window coordinate 0, every other axis starts
  at 0 with the update's own coordinate as window coordinate. An update index therefore lands on a given operand index
  exactly when z(e) is that index's row and the column coordinates agree (`resultIdx2`, `resultIdx3`); the unit axis
  adds no condition, since both of its coordinates are 0. So dropping the unit coordinate carries the set of updates
  landing on (b, n, o) bijectively onto the set of updates landing on (n, o) (`resultIdx_low`), and the two sums agree
  term by term (`scatterAdd_low`).
-/
import Idealize.ShloMosaic.Lib.ValueIdx
import Idealize.ShloMosaic.PureOps.Ideal
import proofs.«160187_j35459249995962_2_alg».proof.Proof.LibUnitAxis

noncomputable section

namespace Cert.LibRowScatter

open Idealize.ShloMosaic Idealize.ShloMosaic.ValueIdx Cert.LibUnitAxis

/-- The dimension numbers of the row accumulation on an N x D operand: E scatter indices of one component each,
    naming a row (operand axis 0, which is the inserted window axis); the updates are E x D, their axis 1 the window
    over the operand's columns. -/
abbrev sdims2 (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The dimension numbers of the same accumulation on a 1 x N x D operand: the scatter indices name a coordinate on
    operand axis 1 (the inserted window axis); the updates are 1 x E x D, their axes 0 and 2 the windows over the
    operand's unit axis and its columns. -/
abbrev sdims3 (N E D : Nat) (wf : ScatterDims.WF ⟨3, ![1, N, D]⟩ ⟨2, ![E, 1]⟩ ⟨3, ![1, E, D]⟩ [0, 2] [1] [1] 1) :
    ScatterDims ⟨3, ![1, N, D]⟩ ⟨2, ![E, 1]⟩ ⟨3, ![1, E, D]⟩ where
  updateWindowDims := [0, 2]
  insertedWindowDims := [1]
  scatterDimsToOperandDims := [1]
  indexVectorDim := 1
  wf := wf

/-! ## Where an update lands, in general

An update index lands on operand index `i` exactly when start plus window coordinate equals `i`'s coordinate on every
axis: being inside the operand is then automatic, because `i` is. -/

/-- For any scatter dimension numbers: the result index of update index `j` is `i` if and only if, on every operand
    axis, the (signed, unclamped) start plus the window coordinate is `i`'s coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some_inj]
    constructor
    · intro hi a
      have := h a
      rw [← hi]
      show _ = (((d.start j idx a + (d.window j a : Int)).toNat : Nat) : Int)
      omega
    · intro hi
      funext a
      refine Fin.ext ?_
      show (d.start j idx a + (d.window j a : Int)).toNat = (i a).val
      have := hi a
      omega
  · rename_i h
    constructor
    · intro hi; exact absurd hi (by simp)
    · intro hi
      exfalso
      apply h
      intro a
      have := hi a
      have := (i a).isLt
      omega

section
variable {N E D w : Nat}
  (wf2 : ScatterDims.WF ⟨2, ![N, D]⟩ ⟨2, ![E, 1]⟩ ⟨2, ![E, D]⟩ [1] [0] [0] 1)
  (wf3 : ScatterDims.WF ⟨3, ![1, N, D]⟩ ⟨2, ![E, 1]⟩ ⟨3, ![1, E, D]⟩ [0, 2] [1] [1] 1)

/-! ## Starts and window coordinates of the rank-2 accumulation -/

/-- The row axis is an inserted window axis: its window coordinate is 0. -/
theorem window2_0 (j : (⟨2, ![E, D]⟩ : Shape).Idx) : (sdims2 N E D wf2).window j 0 = 0 := rfl
/-- The column axis is the window axis: its window coordinate is the update's column. -/
theorem window2_1 (j : (⟨2, ![E, D]⟩ : Shape).Idx) : (sdims2 N E D wf2).window j 1 = (j 1).val := rfl
/-- The column axis is not named by the scatter indices: it starts at 0. -/
theorem start2_1 (j : (⟨2, ![E, D]⟩ : Shape).Idx) (idx : IVec ⟨2, ![E, 1]⟩ w) : (sdims2 N E D wf2).start j idx 1 = 0 := rfl
/-- Update (e, o) reads its start index at position (e, 0) of the scatter indices. -/
theorem siIdx2 (j : (⟨2, ![E, D]⟩ : Shape).Idx) (c : Fin 1) : (sdims2 N E D wf2).siIdx j c = ix2 (j 0) (0 : Fin 1) := by
  funext b; refine Fin.ext ?_
  match b with
  | ⟨0, _⟩ => rfl
  | ⟨1, _⟩ => exact congrArg Fin.val (Subsingleton.elim (α := Fin 1) _ _)
/-- The row axis starts at the row number of update row e: the index word at (e, 0), read signed. -/
theorem start2_0 (j : (⟨2, ![E, D]⟩ : Shape).Idx) (idx : IVec ⟨2, ![E, 1]⟩ w) :
    (sdims2 N E D wf2).start j idx 0 = (idx (ix2 (j 0) (0 : Fin 1))).toInt := by
  unfold ScatterDims.start
  rw [dif_pos (show (0 : Fin 2) ∈ (sdims2 N E D wf2).scatterDimsToOperandDims from List.mem_singleton.mpr rfl)]
  rw [siIdx2]
  rfl

/-! ## Starts and window coordinates of the rank-3 accumulation -/

/-- The unit axis is a window axis: its window coordinate is the update's unit coordinate. -/
theorem window3_0 (j : (⟨3, ![1, E, D]⟩ : Shape).Idx) : (sdims3 N E D wf3).window j 0 = (j 0).val := rfl
/-- The row axis is an inserted window axis: its window coordinate is 0. -/
theorem window3_1 (j : (⟨3, ![1, E, D]⟩ : Shape).Idx) : (sdims3 N E D wf3).window j 1 = 0 := rfl
/-- The column axis is a window axis: its window coordinate is the update's column. -/
theorem window3_2 (j : (⟨3, ![1, E, D]⟩ : Shape).Idx) : (sdims3 N E D wf3).window j 2 = (j 2).val := rfl
/-- The unit axis is not named by the scatter indices: it starts at 0. -/
theorem start3_0 (j : (⟨3, ![1, E, D]⟩ : Shape).Idx) (idx : IVec ⟨2, ![E, 1]⟩ w) : (sdims3 N E D wf3).start j idx 0 = 0 := rfl
/-- The column axis is not named by the scatter indices: it starts at 0. -/
theorem start3_2 (j : (⟨3, ![1, E, D]⟩ : Shape).Idx) (idx : IVec ⟨2, ![E, 1]⟩ w) : (sdims3 N E D wf3).start j idx 2 = 0 := rfl
/-- Update (b, e, o) reads its start index at position (e, 0) of the scatter indices. -/
theorem siIdx3 (j : (⟨3, ![1, E, D]⟩ : Shape).Idx) (c : Fin 1) : (sdims3 N E D wf3).siIdx j c = ix2 (j 1) (0 : Fin 1) := by
  funext b; refine Fin.ext ?_
  match b with
  | ⟨0, _⟩ => rfl
  | ⟨1, _⟩ => exact congrArg Fin.val (Subsingleton.elim (α := Fin 1) _ _)
/-- The row axis starts at the row number of update row e: the index word at (e, 0), read signed. -/
theorem start3_1 (j : (⟨3, ![1, E, D]⟩ : Shape).Idx) (idx : IVec ⟨2, ![E, 1]⟩ w) :
    (sdims3 N E D wf3).start j idx 1 = (idx (ix2 (j 1) (0 : Fin 1))).toInt := by
  unfold ScatterDims.start
  rw [dif_pos (show (1 : Fin 3) ∈ (sdims3 N E D wf3).scatterDimsToOperandDims from List.mem_singleton.mpr rfl)]
  rw [siIdx3]
  rfl

/-! ## Where an update lands, for the two accumulations -/

/-- Rank 2: update (e, o) lands on operand element (n, o') exactly when the row number of e is n and o = o'. -/
theorem resultIdx2 (j : (⟨2, ![E, D]⟩ : Shape).Idx) (idx : IVec ⟨2, ![E, 1]⟩ w) (i : (⟨2, ![N, D]⟩ : Shape).Idx) :
    (sdims2 N E D wf2).resultIdx? j idx = some i ↔
      (idx (ix2 (j 0) (0 : Fin 1))).toInt = ((i 0).val : Int) ∧ (j 1).val = (i 1).val := by
  rw [resultIdx?_eq_some_iff]
  constructor
  · intro h
    have h0 := h 0
    have h1 := h 1
    rw [start2_0, window2_0] at h0
    rw [start2_1, window2_1] at h1
    exact ⟨by omega, by omega⟩
  · rintro ⟨h0, h1⟩ a
    match a with
    | ⟨0, _⟩ =>
      show (sdims2 N E D wf2).start j idx 0 + ((sdims2 N E D wf2).window j 0 : Int) = ((i 0).val : Int)
      rw [start2_0, window2_0]; omega
    | ⟨1, _⟩ =>
      show (sdims2 N E D wf2).start j idx 1 + ((sdims2 N E D wf2).window j 1 : Int) = ((i 1).val : Int)
      rw [start2_1, window2_1]; omega

/-- Rank 3: update (b, e, o) lands on operand element (b', n, o') exactly when the row number of e is n and o = o';
    the unit coordinates b and b' are both 0 and add no condition. -/
theorem resultIdx3 (j : (⟨3, ![1, E, D]⟩ : Shape).Idx) (idx : IVec ⟨2, ![E, 1]⟩ w) (i : (⟨3, ![1, N, D]⟩ : Shape).Idx) :
    (sdims3 N E D wf3).resultIdx? j idx = some i ↔
      (idx (ix2 (j 1) (0 : Fin 1))).toInt = ((i 1).val : Int) ∧ (j 2).val = (i 2).val := by
  rw [resultIdx?_eq_some_iff]
  constructor
  · intro h
    have h1 := h 1
    have h2 := h 2
    rw [start3_1, window3_1] at h1
    rw [start3_2, window3_2] at h2
    exact ⟨by omega, by omega⟩
  · rintro ⟨h1, h2⟩ a
    match a with
    | ⟨0, _⟩ =>
      show (sdims3 N E D wf3).start j idx 0 + ((sdims3 N E D wf3).window j 0 : Int) = ((i 0).val : Int)
      rw [start3_0, window3_0]
      have hj : (j 0).val < 1 := (j 0).isLt
      have hi : (i 0).val < 1 := (i 0).isLt
      omega
    | ⟨1, _⟩ =>
      show (sdims3 N E D wf3).start j idx 1 + ((sdims3 N E D wf3).window j 1 : Int) = ((i 1).val : Int)
      rw [start3_1, window3_1]; omega
    | ⟨2, _⟩ =>
      show (sdims3 N E D wf3).start j idx 2 + ((sdims3 N E D wf3).window j 2 : Int) = ((i 2).val : Int)
      rw [start3_2, window3_2]; omega

/-- Rank 2, computed: when the row number z of update row e is inside [0, N), update (e, o) lands on (z, o). -/
theorem resultIdx2_some (j : (⟨2, ![E, D]⟩ : Shape).Idx) (idx : IVec ⟨2, ![E, 1]⟩ w)
    (h0 : 0 ≤ (idx (ix2 (j 0) (0 : Fin 1))).toInt) (hN : (idx (ix2 (j 0) (0 : Fin 1))).toInt < N) :
    (sdims2 N E D wf2).resultIdx? j idx
      = some (ix2 (n0 := N) (n1 := D) ⟨(idx (ix2 (j 0) (0 : Fin 1))).toInt.toNat, by omega⟩ (j 1)) := by
  rw [resultIdx2]
  refine ⟨?_, rfl⟩
  show _ = (((idx (ix2 (j 0) (0 : Fin 1))).toInt.toNat : Nat) : Int)
  omega

/-- Rank 2, computed: when the row number of update row e is outside [0, N), update (e, o) is dropped. -/
theorem resultIdx2_none (j : (⟨2, ![E, D]⟩ : Shape).Idx) (idx : IVec ⟨2, ![E, 1]⟩ w)
    (h : ¬ (0 ≤ (idx (ix2 (j 0) (0 : Fin 1))).toInt ∧ (idx (ix2 (j 0) (0 : Fin 1))).toInt < N)) :
    (sdims2 N E D wf2).resultIdx? j idx = none := by
  rw [Option.eq_none_iff_forall_ne_some]
  intro i hi
  rw [resultIdx2] at hi
  have hlt : (i 0).val < N := (i 0).isLt
  omega

/-- Dropping the unit coordinate on both sides: update index `j` of the rank-3 accumulation lands on `i` exactly when
    the update index under `j` lands, in the rank-2 accumulation, on the index under `i`. -/
theorem resultIdx_low (j : (⟨3, ![1, E, D]⟩ : Shape).Idx) (idx : IVec ⟨2, ![E, 1]⟩ w) (i : (⟨3, ![1, N, D]⟩ : Shape).Idx) :
    (sdims3 N E D wf3).resultIdx? j idx = some i ↔ (sdims2 N E D wf2).resultIdx? (low j) idx = some (low i) := by
  rw [resultIdx3, resultIdx2]
  exact Iff.rfl

end

/-- THE LAW. Accumulating the rows of `U` into `X` at the row numbers `idx`, written on arrays with a leading unit axis,
    is the accumulation on the arrays without it: the element at (b, n, o) of the one is the element at (n, o) of the
    other. The operand terms are the same element; the sums run over the updates landing on (b, n, o) and on (n, o),
    and dropping the unit coordinate is a bijection between these two sets that preserves the summand. -/
theorem scatterAdd_low {N E D w : Nat}
    (wf2 : ScatterDims.WF ⟨2, ![N, D]⟩ ⟨2, ![E, 1]⟩ ⟨2, ![E, D]⟩ [1] [0] [0] 1)
    (wf3 : ScatterDims.WF ⟨3, ![1, N, D]⟩ ⟨2, ![E, 1]⟩ ⟨3, ![1, E, D]⟩ [0, 2] [1] [1] 1)
    (X : (⟨2, ![N, D]⟩ : Shape).Idx → EReal) (idx : IVec ⟨2, ![E, 1]⟩ w) (U : (⟨2, ![E, D]⟩ : Shape).Idx → EReal)
    (i : (⟨3, ![1, N, D]⟩ : Shape).Idx) :
    Ideal.hostScatterAdd (sdims3 N E D wf3) (fun i' => X (low i')) idx (fun j => U (low j)) i
      = Ideal.hostScatterAdd (sdims2 N E D wf2) X idx U (low i) := by
  unfold Ideal.hostScatterAdd
  congr 1
  refine Finset.sum_equiv (lowEquiv (A := E) (B := D)) ?_ ?_
  · intro j
    rw [Finset.mem_filter, Finset.mem_filter]
    simp only [Finset.mem_univ, true_and]
    exact resultIdx_low wf2 wf3 j idx i
  · intro j _
    rfl

end Cert.LibRowScatter

end
-- ==== Proof.Tail.lean ====
/-
  Global mean pooling, written two ways, is one function.

  Both programs pool node features into 128 graphs: rows are accumulated at the batch words (one 32-bit word per node,
  read signed, naming the node's graph; a word outside [0, 128) drops its row) and each graph's row is divided by
  max(count, 1), the count being ones accumulated at the same words. One program pools each of four 50000 x 128 arrays
  on its own and lays the four 128 x 128 results side by side; the other lays the four arrays side by side first and
  pools the 50000 x 512 array.

  `kPooled` and `rPooled` are the two compositions of array operations, `after_pooled` and `val_pooled` say that
  they are what the two programs compute, and `pooled_eq` says they are equal. At an entry (g, c) with c = 128 a + o
  both are (0 + the sum over the nodes n whose word is g of array a's entry (n, o)) divided by max(count g, 1): a row
  accumulation read at an entry is a sum over the update rows whose word names that entry's row
  (`scatterAdd2_apply`), four blocks side by side read at column 128 a + o are block a read at column o
  (`concat4_apply`), and the count column repeated along the columns reads the count of the row (`bcastCol_apply`).
  No arithmetic on the extended reals is used: the two sides are the same sum and the same quotient.

  The last section reads the rest of that program's head: the logits are the classifier (a matrix product and a bias
  row) applied to the pooled features (`after_logits`), and the outlined log-softmax's lines compute the log-softmax of
  the logits (`after_logsoftmax`).
-/
import proofs.«160187_j35459249995962_2_alg».proof.Proof.Gen.KernelIdeal.Launch
import proofs.«160187_j35459249995962_2_alg».proof.Proof.Gen.ReferenceIdeal.Read
import Idealize.ShloMosaic.Lib.StableHlo.Run
import Idealize.ShloMosaic.Lib.Pipeline.Value
import Idealize.ShloMosaic.Lib.ValueIdx
import Idealize.ShloMosaic.PureOps.Ideal.Laws
import proofs.«160187_j35459249995962_2_alg».proof.Proof.LibRowScatter
import proofs.«160187_j35459249995962_2_alg».proof.Proof.KIStages

set_option maxRecDepth 4096

noncomputable section

namespace Cert.Proof.Tail

open Idealize.ShloMosaic Idealize.ShloMosaic.TcCoe Idealize.ShloMosaic.ValueIdx Idealize.SL.Sem Idealize.ShloMosaic.StableHlo

/-! ## The kernel program's pooled features -/

section Kernel
open Cert.KernelIdeal Cert.KernelIdeal.Gen

/-- The number of nodes of each graph, at least one: ones accumulated at the batch words into 128 zeros, then the
    maximum with one. -/
def kCount (b : IVec Cert.KernelIdeal.S50000 32) : Cert.KernelIdeal.S128.Idx → EReal :=
  maximumf (F := Ideal)
    (Host.scatterAdd (F := Ideal) (φ := .f32) scatter_S128_S50000x1_S50000_n_0_0_1
      (broadcastInDim S128 ![] bcast_S_S128 (constant (F := Ideal) S_ .f32 0x00000000#32))
      (broadcastInDim S50000x1 ![0] bcast_S50000_S50000x1_0 b)
      (broadcastInDim S50000 ![] bcast_S_S50000 (constant (F := Ideal) S_ .f32 0x3F800000#32)))
    (broadcastInDim S128 ![] bcast_S_S128 (constant (F := Ideal) S_ .f32 0x3F800000#32))

/-- One array of node features pooled against given counts: its rows accumulated at the batch words into a zero
    128 x 128 array, each row divided by its graph's count. -/
def kPieceC (X : Cert.KernelIdeal.S50000x128.Idx → EReal) (b : IVec Cert.KernelIdeal.S50000 32)
    (cnt : Cert.KernelIdeal.S128.Idx → EReal) : Cert.KernelIdeal.S128x128.Idx → EReal :=
  Host.divf (F := Ideal) (φ := .f32)
    (Host.scatterAdd (F := Ideal) (φ := .f32) scatter_S128x128_S50000x1_S50000x128_1_0_0_1
      (broadcastInDim S128x128 ![] bcast_S_S128x128 (constant (F := Ideal) S_ .f32 0x00000000#32))
      (broadcastInDim S50000x1 ![0] bcast_S50000_S50000x1_0 b)
      X)
    (broadcastInDim S128x128 ![0, 1] bcast_S128x1_S128x128_0_1
      (broadcastInDim S128x1 ![0] bcast_S128_S128x1_0 cnt))

/-- One array of node features pooled. -/
def kPiece (X : Cert.KernelIdeal.S50000x128.Idx → EReal) (b : IVec Cert.KernelIdeal.S50000 32) :
    Cert.KernelIdeal.S128x128.Idx → EReal :=
  kPieceC X b (kCount b)

/-- The kernel program's pooled features: the four arrays pooled one by one and laid side by side. -/
def kPooled (X0 X1 X2 X3 : Cert.KernelIdeal.S50000x128.Idx → EReal) (b : IVec Cert.KernelIdeal.S50000 32) :
    Cert.KernelIdeal.S128x512.Idx → EReal :=
  concatenate S128x512 1 [⟨S128x128, kPiece X0 b⟩, ⟨S128x128, kPiece X1 b⟩, ⟨S128x128, kPiece X2 b⟩, ⟨S128x128, kPiece X3 b⟩]
    concatenates_S128x128_S128x128_S128x128_S128x128_S128x512_d1

/-! ### The last host lines, cut into six runs

The lines are run in six consecutive runs: the counts, the four poolings, and the laying side by side with the lines
after it. Each run is read on its own, from any contents before it: what it computes in its result buffer, and that it
leaves alone the buffers read later. -/

/-- Running two lists of lines one after the other is running their concatenation. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => simp only [List.cons_append, after_cons, ih]

section Runs
variable {F : FTy → Type} [FloatOps F]

/-- Host lines 1 to 9 of the kernel program's last stretch. -/
abbrev gseg0 : List (HloOp τ sig (Elt F)) :=
  [ StableHlo.nullary main_cst_16 (constant S_ .f32 0x3F800000#32),
    StableHlo.unary main_cst_16 main_v134 (broadcastInDim S50000 ![] bcast_S_S50000 : (⟨S_, .f32⟩ : BufTy).Contents (Elt F) → (⟨S50000, .f32⟩ : BufTy).Contents (Elt F)),
    StableHlo.nullary main_cst_17 (constant S_ .f32 0x00000000#32),
    StableHlo.unary main_cst_17 main_v135 (broadcastInDim S128 ![] bcast_S_S128 : (⟨S_, .f32⟩ : BufTy).Contents (Elt F) → (⟨S128, .f32⟩ : BufTy).Contents (Elt F)),
    StableHlo.unary main_arg2 main_v136 (broadcastInDim S50000x1 ![0] bcast_S50000_S50000x1_0 : (⟨S50000, .i32⟩ : BufTy).Contents (Elt F) → (⟨S50000x1, .i32⟩ : BufTy).Contents (Elt F)),
    StableHlo.ternary main_v135 main_v136 main_v134 main_v137 ((fun x i u => Host.scatterAdd scatter_S128_S50000x1_S50000_n_0_0_1 x i u) : (⟨S128, .f32⟩ : BufTy).Contents (Elt F) → (⟨S50000x1, .i32⟩ : BufTy).Contents (Elt F) → (⟨S50000, .f32⟩ : BufTy).Contents (Elt F) → (⟨S128, .f32⟩ : BufTy).Contents (Elt F)),
    StableHlo.nullary main_cst_18 (constant S_ .f32 0x3F800000#32),
    StableHlo.unary main_cst_18 main_v138 (broadcastInDim S128 ![] bcast_S_S128 : (⟨S_, .f32⟩ : BufTy).Contents (Elt F) → (⟨S128, .f32⟩ : BufTy).Contents (Elt F)),
    StableHlo.binary main_v137 main_v138 main_v139 (maximumf : (⟨S128, .f32⟩ : BufTy).Contents (Elt F) → (⟨S128, .f32⟩ : BufTy).Contents (Elt F) → (⟨S128, .f32⟩ : BufTy).Contents (Elt F)) ]

/-- Host lines 10 to 16 of the kernel program's last stretch. -/
abbrev gseg1 : List (HloOp τ sig (Elt F)) :=
  [ StableHlo.nullary main_cst_19 (constant S_ .f32 0x00000000#32),
    StableHlo.unary main_cst_19 main_v140 (broadcastInDim S128x128 ![] bcast_S_S128x128 : (⟨S_, .f32⟩ : BufTy).Contents (Elt F) → (⟨S128x128, .f32⟩ : BufTy).Contents (Elt F)),
    StableHlo.unary main_arg2 main_v141 (broadcastInDim S50000x1 ![0] bcast_S50000_S50000x1_0 : (⟨S50000, .i32⟩ : BufTy).Contents (Elt F) → (⟨S50000x1, .i32⟩ : BufTy).Contents (Elt F)),
    StableHlo.ternary main_v140 main_v141 main_arg0 main_v142 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.unary main_v139 main_v143 (broadcastInDim S128x1 ![0] bcast_S128_S128x1_0 : (⟨S128, .f32⟩ : BufTy).Contents (Elt F) → (⟨S128x1, .f32⟩ : BufTy).Contents (Elt F)),
    StableHlo.unary main_v143 main_v144 (broadcastInDim S128x128 ![0, 1] bcast_S128x1_S128x128_0_1 : (⟨S128x1, .f32⟩ : BufTy).Contents (Elt F) → (⟨S128x128, .f32⟩ : BufTy).Contents (Elt F)),
    StableHlo.binary main_v142 main_v144 main_v145 (Host.divf : (⟨S128x128, .f32⟩ : BufTy).Contents (Elt F) → (⟨S128x128, .f32⟩ : BufTy).Contents (Elt F) → (⟨S128x128, .f32⟩ : BufTy).Contents (Elt F)) ]

/-- Host lines 17 to 23 of the kernel program's last stretch. -/
abbrev gseg2 : List (HloOp τ sig (Elt F)) :=
  [ StableHlo.nullary main_cst_20 (constant S_ .f32 0x00000000#32),
    StableHlo.unary main_cst_20 main_v146 (broadcastInDim S128x128 ![] bcast_S_S128x128 : (⟨S_, .f32⟩ : BufTy).Contents (Elt F) → (⟨S128x128, .f32⟩ : BufTy).Contents (Elt F)),
    StableHlo.unary main_arg2 main_v147 (broadcastInDim S50000x1 ![0] bcast_S50000_S50000x1_0 : (⟨S50000, .i32⟩ : BufTy).Contents (Elt F) → (⟨S50000x1, .i32⟩ : BufTy).Contents (Elt F)),
    StableHlo.ternary main_v146 main_v147 main_v63_0 main_v148 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.unary main_v139 main_v149 (broadcastInDim S128x1 ![0] bcast_S128_S128x1_0 : (⟨S128, .f32⟩ : BufTy).Contents (Elt F) → (⟨S128x1, .f32⟩ : BufTy).Contents (Elt F)),
    StableHlo.unary main_v149 main_v150 (broadcastInDim S128x128 ![0, 1] bcast_S128x1_S128x128_0_1 : (⟨S128x1, .f32⟩ : BufTy).Contents (Elt F) → (⟨S128x128, .f32⟩ : BufTy).Contents (Elt F)),
    StableHlo.binary main_v148 main_v150 main_v151 (Host.divf : (⟨S128x128, .f32⟩ : BufTy).Contents (Elt F) → (⟨S128x128, .f32⟩ : BufTy).Contents (Elt F) → (⟨S128x128, .f32⟩ : BufTy).Contents (Elt F)) ]

/-- Host lines 24 to 30 of the kernel program's last stretch. -/
abbrev gseg3 : List (HloOp τ sig (Elt F)) :=
  [ StableHlo.nullary main_cst_21 (constant S_ .f32 0x00000000#32),
    StableHlo.unary main_cst_21 main_v152 (broadcastInDim S128x128 ![] bcast_S_S128x128 : (⟨S_, .f32⟩ : BufTy).Contents (Elt F) → (⟨S128x128, .f32⟩ : BufTy).Contents (Elt F)),
    StableHlo.unary main_arg2 main_v153 (broadcastInDim S50000x1 ![0] bcast_S50000_S50000x1_0 : (⟨S50000, .i32⟩ : BufTy).Contents (Elt F) → (⟨S50000x1, .i32⟩ : BufTy).Contents (Elt F)),
    StableHlo.ternary main_v152 main_v153 main_v98_0 main_v154 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.unary main_v139 main_v155 (broadcastInDim S128x1 ![0] bcast_S128_S128x1_0 : (⟨S128, .f32⟩ : BufTy).Contents (Elt F) → (⟨S128x1, .f32⟩ : BufTy).Contents (Elt F)),
    StableHlo.unary main_v155 main_v156 (broadcastInDim S128x128 ![0, 1] bcast_S128x1_S128x128_0_1 : (⟨S128x1, .f32⟩ : BufTy).Contents (Elt F) → (⟨S128x128, .f32⟩ : BufTy).Contents (Elt F)),
    StableHlo.binary main_v154 main_v156 main_v157 (Host.divf : (⟨S128x128, .f32⟩ : BufTy).Contents (Elt F) → (⟨S128x128, .f32⟩ : BufTy).Contents (Elt F) → (⟨S128x128, .f32⟩ : BufTy).Contents (Elt F)) ]

/-- Host lines 31 to 37 of the kernel program's last stretch. -/
abbrev gseg4 : List (HloOp τ sig (Elt F)) :=
  [ StableHlo.nullary main_cst_22 (constant S_ .f32 0x00000000#32),
    StableHlo.unary main_cst_22 main_v158 (broadcastInDim S128x128 ![] bcast_S_S128x128 : (⟨S_, .f32⟩ : BufTy).Contents (Elt F) → (⟨S128x128, .f32⟩ : BufTy).Contents (Elt F)),
    StableHlo.unary main_arg2 main_v159 (broadcastInDim S50000x1 ![0] bcast_S50000_S50000x1_0 : (⟨S50000, .i32⟩ : BufTy).Contents (Elt F) → (⟨S50000x1, .i32⟩ : BufTy).Contents (Elt F)),
    StableHlo.ternary main_v158 main_v159 main_v133_0 main_v160 ((fun x i u => Host.scatterAdd scatter_S128x128_S50000x1_S50000x128_1_0_0_1 x i u) : (⟨S128x128, .f32⟩ : BufTy).Contents (Elt F) → (⟨S50000x1, .i32⟩ : BufTy).Contents (Elt F) → (⟨S50000x128, .f32⟩ : BufTy).Contents (Elt F) → (⟨S128x128, .f32⟩ : BufTy).Contents (Elt F)),
    StableHlo.unary main_v139 main_v161 (broadcastInDim S128x1 ![0] bcast_S128_S128x1_0 : (⟨S128, .f32⟩ : BufTy).Contents (Elt F) → (⟨S128x1, .f32⟩ : BufTy).Contents (Elt F)),
    StableHlo.unary main_v161 main_v162 (broadcastInDim S128x128 ![0, 1] bcast_S128x1_S128x128_0_1 : (⟨S128x1, .f32⟩ : BufTy).Contents (Elt F) → (⟨S128x128, .f32⟩ : BufTy).Contents (Elt F)),
    StableHlo.binary main_v160 main_v162 main_v163 (Host.divf : (⟨S128x128, .f32⟩ : BufTy).Contents (Elt F) → (⟨S128x128, .f32⟩ : BufTy).Contents (Elt F) → (⟨S128x128, .f32⟩ : BufTy).Contents (Elt F)) ]

/-- Host lines 38 to 42 of the kernel program's last stretch. -/
abbrev gseg5 : List (HloOp τ sig (Elt F)) :=
  [ StableHlo.nary ![main_v145, main_v151, main_v157, main_v163] main_v164 (fun u => concatenate S128x512 1 [⟨S128x128, u 0⟩, ⟨S128x128, u 1⟩, ⟨S128x128, u 2⟩, ⟨S128x128, u 3⟩] concatenates_S128x128_S128x128_S128x128_S128x128_S128x512_d1),
    StableHlo.binary main_v164 main_arg9 main_v165 ((fun l r => Host.dotGeneral dot_S128x512_S512x10_S128x10_1_0_0_1_n_n none l r) : (⟨S128x512, .f32⟩ : BufTy).Contents (Elt F) → (⟨S512x10, .f32⟩ : BufTy).Contents (Elt F) → (⟨S128x10, .f32⟩ : BufTy).Contents (Elt F)),
    StableHlo.unary main_arg10 main_v166 (broadcastInDim S1x10 ![1] bcast_S10_S1x10_1 : (⟨S10, .f32⟩ : BufTy).Contents (Elt F) → (⟨S1x10, .f32⟩ : BufTy).Contents (Elt F)),
    StableHlo.unary main_v166 main_v167 (broadcastInDim S128x10 ![0, 1] bcast_S1x10_S128x10_0_1 : (⟨S1x10, .f32⟩ : BufTy).Contents (Elt F) → (⟨S128x10, .f32⟩ : BufTy).Contents (Elt F)),
    StableHlo.binary main_v165 main_v167 main_v168 (addf : (⟨S128x10, .f32⟩ : BufTy).Contents (Elt F) → (⟨S128x10, .f32⟩ : BufTy).Contents (Elt F) → (⟨S128x10, .f32⟩ : BufTy).Contents (Elt F)) ]

end Runs

/-- Run 1 at the extended reals. -/
abbrev seg0 : List (HloOp τ sig (Elt Ideal)) := gseg0 (F := Ideal)
/-- Run 2 at the extended reals. -/
abbrev seg1 : List (HloOp τ sig (Elt Ideal)) := gseg1 (F := Ideal)
/-- Run 3 at the extended reals. -/
abbrev seg2 : List (HloOp τ sig (Elt Ideal)) := gseg2 (F := Ideal)
/-- Run 4 at the extended reals. -/
abbrev seg3 : List (HloOp τ sig (Elt Ideal)) := gseg3 (F := Ideal)
/-- Run 5 at the extended reals. -/
abbrev seg4 : List (HloOp τ sig (Elt Ideal)) := gseg4 (F := Ideal)
/-- Run 6 at the extended reals. -/
abbrev seg5 : List (HloOp τ sig (Elt Ideal)) := gseg5 (F := Ideal)

/-- The runs, in order, are the whole stretch. -/
theorem hostOps3_split :
    (hostOps3 (F := Ideal)) = seg0 ++ (seg1 ++ (seg2 ++ (seg3 ++ (seg4 ++ seg5)))) := rfl

/-- Rewrites each line's result at its own buffer to its function's value and at any other buffer to what was there. -/
local macro "results" : tactic =>
  `(tactic| (simp only [after_cons, after_nil]
             repeat (first
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

/-- The first lines compute the counts from the batch words. -/
theorem seg0_v139 (W : Valuation τ sig (Elt Ideal)) :
    (after seg0 W (Proc.devRef .tc main_v139) : S128.Idx → EReal) = kCount (W (Proc.devRef .tc main_arg2)) := by
  results
  rfl
theorem seg0_k_arg0 (W : Valuation τ sig (Elt Ideal)) :
    after seg0 W (Proc.devRef .tc main_arg0) = W (Proc.devRef .tc main_arg0) := by
  results
theorem seg0_k_v63_0 (W : Valuation τ sig (Elt Ideal)) :
    after seg0 W (Proc.devRef .tc main_v63_0) = W (Proc.devRef .tc main_v63_0) := by
  results
theorem seg0_k_v98_0 (W : Valuation τ sig (Elt Ideal)) :
    after seg0 W (Proc.devRef .tc main_v98_0) = W (Proc.devRef .tc main_v98_0) := by
  results
theorem seg0_k_v133_0 (W : Valuation τ sig (Elt Ideal)) :
    after seg0 W (Proc.devRef .tc main_v133_0) = W (Proc.devRef .tc main_v133_0) := by
  results
theorem seg0_k_arg2 (W : Valuation τ sig (Elt Ideal)) :
    after seg0 W (Proc.devRef .tc main_arg2) = W (Proc.devRef .tc main_arg2) := by
  results
/-- The next seven lines pool one array, from it, the batch words and the counts. -/
theorem seg1_v145 (W : Valuation τ sig (Elt Ideal)) :
    (after seg1 W (Proc.devRef .tc main_v145) : S128x128.Idx → EReal)
      = kPieceC (W (Proc.devRef .tc main_arg0)) (W (Proc.devRef .tc main_arg2)) (W (Proc.devRef .tc main_v139)) := by
  results
  rfl
theorem seg1_k_v63_0 (W : Valuation τ sig (Elt Ideal)) :
    after seg1 W (Proc.devRef .tc main_v63_0) = W (Proc.devRef .tc main_v63_0) := by
  results
theorem seg1_k_v98_0 (W : Valuation τ sig (Elt Ideal)) :
    after seg1 W (Proc.devRef .tc main_v98_0) = W (Proc.devRef .tc main_v98_0) := by
  results
theorem seg1_k_v133_0 (W : Valuation τ sig (Elt Ideal)) :
    after seg1 W (Proc.devRef .tc main_v133_0) = W (Proc.devRef .tc main_v133_0) := by
  results
theorem seg1_k_arg2 (W : Valuation τ sig (Elt Ideal)) :
    after seg1 W (Proc.devRef .tc main_arg2) = W (Proc.devRef .tc main_arg2) := by
  results
theorem seg1_k_v139 (W : Valuation τ sig (Elt Ideal)) :
    after seg1 W (Proc.devRef .tc main_v139) = W (Proc.devRef .tc main_v139) := by
  results
/-- The next seven lines pool one array, from it, the batch words and the counts. -/
theorem seg2_v151 (W : Valuation τ sig (Elt Ideal)) :
    (after seg2 W (Proc.devRef .tc main_v151) : S128x128.Idx → EReal)
      = kPieceC (W (Proc.devRef .tc main_v63_0)) (W (Proc.devRef .tc main_arg2)) (W (Proc.devRef .tc main_v139)) := by
  results
  rfl
theorem seg2_k_v145 (W : Valuation τ sig (Elt Ideal)) :
    after seg2 W (Proc.devRef .tc main_v145) = W (Proc.devRef .tc main_v145) := by
  results
theorem seg2_k_v98_0 (W : Valuation τ sig (Elt Ideal)) :
    after seg2 W (Proc.devRef .tc main_v98_0) = W (Proc.devRef .tc main_v98_0) := by
  results
theorem seg2_k_v133_0 (W : Valuation τ sig (Elt Ideal)) :
    after seg2 W (Proc.devRef .tc main_v133_0) = W (Proc.devRef .tc main_v133_0) := by
  results
theorem seg2_k_arg2 (W : Valuation τ sig (Elt Ideal)) :
    after seg2 W (Proc.devRef .tc main_arg2) = W (Proc.devRef .tc main_arg2) := by
  results
theorem seg2_k_v139 (W : Valuation τ sig (Elt Ideal)) :
    after seg2 W (Proc.devRef .tc main_v139) = W (Proc.devRef .tc main_v139) := by
  results
/-- The next seven lines pool one array, from it, the batch words and the counts. -/
theorem seg3_v157 (W : Valuation τ sig (Elt Ideal)) :
    (after seg3 W (Proc.devRef .tc main_v157) : S128x128.Idx → EReal)
      = kPieceC (W (Proc.devRef .tc main_v98_0)) (W (Proc.devRef .tc main_arg2)) (W (Proc.devRef .tc main_v139)) := by
  results
  rfl
theorem seg3_k_v145 (W : Valuation τ sig (Elt Ideal)) :
    after seg3 W (Proc.devRef .tc main_v145) = W (Proc.devRef .tc main_v145) := by
  results
theorem seg3_k_v151 (W : Valuation τ sig (Elt Ideal)) :
    after seg3 W (Proc.devRef .tc main_v151) = W (Proc.devRef .tc main_v151) := by
  results
theorem seg3_k_v133_0 (W : Valuation τ sig (Elt Ideal)) :
    after seg3 W (Proc.devRef .tc main_v133_0) = W (Proc.devRef .tc main_v133_0) := by
  results
theorem seg3_k_arg2 (W : Valuation τ sig (Elt Ideal)) :
    after seg3 W (Proc.devRef .tc main_arg2) = W (Proc.devRef .tc main_arg2) := by
  results
theorem seg3_k_v139 (W : Valuation τ sig (Elt Ideal)) :
    after seg3 W (Proc.devRef .tc main_v139) = W (Proc.devRef .tc main_v139) := by
  results
/-- The next seven lines pool one array, from it, the batch words and the counts. -/
theorem seg4_v163 (W : Valuation τ sig (Elt Ideal)) :
    (after seg4 W (Proc.devRef .tc main_v163) : S128x128.Idx → EReal)
      = kPieceC (W (Proc.devRef .tc main_v133_0)) (W (Proc.devRef .tc main_arg2)) (W (Proc.devRef .tc main_v139)) := by
  results
  rfl
theorem seg4_k_v145 (W : Valuation τ sig (Elt Ideal)) :
    after seg4 W (Proc.devRef .tc main_v145) = W (Proc.devRef .tc main_v145) := by
  results
theorem seg4_k_v151 (W : Valuation τ sig (Elt Ideal)) :
    after seg4 W (Proc.devRef .tc main_v151) = W (Proc.devRef .tc main_v151) := by
  results
theorem seg4_k_v157 (W : Valuation τ sig (Elt Ideal)) :
    after seg4 W (Proc.devRef .tc main_v157) = W (Proc.devRef .tc main_v157) := by
  results
/-- The line after them lays the four pooled arrays side by side. -/
theorem seg5_v164 (W : Valuation τ sig (Elt Ideal)) :
    (after seg5 W (Proc.devRef .tc main_v164) : S128x512.Idx → EReal)
      = concatenate S128x512 1
          [⟨S128x128, (W (Proc.devRef .tc main_v145) : S128x128.Idx → EReal)⟩,
            ⟨S128x128, (W (Proc.devRef .tc main_v151) : S128x128.Idx → EReal)⟩,
            ⟨S128x128, (W (Proc.devRef .tc main_v157) : S128x128.Idx → EReal)⟩,
            ⟨S128x128, (W (Proc.devRef .tc main_v163) : S128x128.Idx → EReal)⟩]
          concatenates_S128x128_S128x128_S128x128_S128x128_S128x512_d1 := by
  simp only [after_cons, after_nil]
  repeat (first | (rw [binary_result_ne]; rotate_left; decide) | (rw [unary_result_ne]; rotate_left; decide))
  rw [nary4_result]
  rfl

/-- What the kernel program's last host lines leave in the pooled-features buffer. -/
theorem after_pooled (V : Valuation Cert.KernelIdeal.τ Cert.KernelIdeal.sig (Elt Ideal)) :
    (StableHlo.after (Cert.KernelIdeal.Gen.hostOps3 (F := Ideal)) V (Proc.devRef .tc Cert.KernelIdeal.main_v164)
        : Cert.KernelIdeal.S128x512.Idx → EReal)
      = kPooled (V (Proc.devRef .tc Cert.KernelIdeal.main_arg0)) (V (Proc.devRef .tc Cert.KernelIdeal.main_v63_0))
          (V (Proc.devRef .tc Cert.KernelIdeal.main_v98_0)) (V (Proc.devRef .tc Cert.KernelIdeal.main_v133_0))
          (V (Proc.devRef .tc Cert.KernelIdeal.main_arg2)) := by
  rw [hostOps3_split]
  simp only [after_append]
  rw [seg5_v164]
  rw [seg4_v163, seg4_k_v145, seg4_k_v151, seg4_k_v157]
  rw [seg3_v157, seg3_k_v145, seg3_k_v151, seg3_k_v133_0, seg3_k_arg2, seg3_k_v139]
  rw [seg2_v151, seg2_k_v145, seg2_k_v98_0, seg2_k_v133_0, seg2_k_arg2, seg2_k_v139]
  rw [seg1_v145, seg1_k_v63_0, seg1_k_v98_0, seg1_k_v133_0, seg1_k_arg2, seg1_k_v139]
  rw [seg0_v139, seg0_k_arg0, seg0_k_v63_0, seg0_k_v98_0, seg0_k_v133_0, seg0_k_arg2]
  rfl

end Kernel

/-! ## The reference program's pooled features -/

section Reference
open Cert.ReferenceIdeal Cert.ReferenceIdeal.Gen Cert.ReferenceIdeal.Read

/-- The number of nodes of each graph, at least one, as the reference program spells it. -/
def rCount (b : IVec Cert.ReferenceIdeal.S50000 32) : Cert.ReferenceIdeal.S128.Idx → EReal :=
  maximumf (F := Ideal)
    (Host.scatterAdd (F := Ideal) (φ := .f32) scatter_S128_S50000x1_S50000_n_0_0_1
      (broadcastInDim S128 ![] bcast_S_S128 (constant (F := Ideal) S_ .f32 0x00000000#32))
      (broadcastInDim S50000x1 ![0] bcast_S50000_S50000x1_0 b)
      (broadcastInDim S50000 ![] bcast_S_S50000 (constant (F := Ideal) S_ .f32 0x3F800000#32)))
    (broadcastInDim S128 ![] bcast_S_S128 (constant (F := Ideal) S_ .f32 0x3F800000#32))

/-- The reference program's pooled features: the four arrays laid side by side, their rows accumulated at the batch
    words into a zero 128 x 512 array, each row divided by its graph's count. -/
def rPooled (X0 X1 X2 X3 : Cert.ReferenceIdeal.S50000x128.Idx → EReal) (b : IVec Cert.ReferenceIdeal.S50000 32) :
    Cert.ReferenceIdeal.S128x512.Idx → EReal :=
  Host.divf (F := Ideal) (φ := .f32)
    (Host.scatterAdd (F := Ideal) (φ := .f32) scatter_S128x512_S50000x1_S50000x512_1_0_0_1
      (broadcastInDim S128x512 ![] bcast_S_S128x512 (constant (F := Ideal) S_ .f32 0x00000000#32))
      (broadcastInDim S50000x1 ![0] bcast_S50000_S50000x1_0 b)
      (concatenate S50000x512 1 [⟨S50000x128, X0⟩, ⟨S50000x128, X1⟩, ⟨S50000x128, X2⟩, ⟨S50000x128, X3⟩]
        concatenates_S50000x128_S50000x128_S50000x128_S50000x128_S50000x512_d1))
    (broadcastInDim S128x512 ![0, 1] bcast_S128x1_S128x512_0_1
      (broadcastInDim S128x1 ![0] bcast_S128_S128x1_0 (rCount b)))

/-- The reference program's pooled-features stage is that composition, of the input features and the three layers'
    outputs. -/
theorem val_pooled (x0 : (⟨S50000x128, .f32⟩ : BufTy).Contents (Elt Ideal)) (x1 : (⟨S2x800000, .i32⟩ : BufTy).Contents (Elt Ideal))
    (x2 : (⟨S50000, .i32⟩ : BufTy).Contents (Elt Ideal)) (x3 : (⟨S3x128x128, .f32⟩ : BufTy).Contents (Elt Ideal))
    (x4 x5 x6 x7 x8 : (⟨S3x128, .f32⟩ : BufTy).Contents (Elt Ideal)) :
    val_main_v174 (F := Ideal) x0 x1 x2 x3 x4 x5 x6 x7 x8
      = rPooled x0 (val_main_v71 (F := Ideal) x0 x1 x3 x4 x5 x6 x7 x8) (val_main_v116 (F := Ideal) x0 x1 x3 x4 x5 x6 x7 x8)
          (val_main_v161 (F := Ideal) x0 x1 x3 x4 x5 x6 x7 x8) x2 := by
  unfold val_main_v174 val_main_v173 val_main_v172 val_main_v171 val_main_v170 val_main_cst_19 val_main_v169 val_main_v168
    val_main_v167 val_main_cst_18 val_main_v166 val_main_v165 val_main_v164 val_main_cst_17 val_main_v163 val_main_cst_16
    val_main_v162 rPooled rCount
  rfl

end Reference

/-! ## One entry of a row accumulation, of a count column, and of four blocks side by side -/

section Generic
open Cert.LibRowScatter

/-- The row accumulation read at an entry (n, o): the operand's entry plus the sum, over the update rows e whose index
    word, read signed, is n, of the update's entry (e, o). The updates landing on (n, o) are the pairs (e, o') with
    that word equal to n and o' = o; sending such a pair to its row e is a bijection onto those rows. -/
theorem scatterAdd2_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (u : (⟨2, ![E, D]⟩ : Shape).Idx → EReal)
    (n : Fin N) (o : Fin D) :
    Ideal.hostScatterAdd (sdims2 N E D wf) x idx u (ix2 n o)
      = x (ix2 n o)
        + ∑ e ∈ Finset.univ.filter (fun e : Fin E => (idx (ix2 e (0 : Fin 1))).toInt = (n.val : Int)), u (ix2 e o) := by
  unfold Ideal.hostScatterAdd
  congr 1
  have hleft : ∀ j : (⟨2, ![E, D]⟩ : Shape).Idx,
      (sdims2 N E D wf).resultIdx? j idx = some (ix2 n o) →
        ix2 (n0 := E) (n1 := D) (⟨(j 0).val, idx2_lt0 j⟩ : Fin E) o = j := by
    intro j hj
    have h1 : (j 1).val = o.val := ((resultIdx2 wf j idx (ix2 n o)).mp hj).2
    funext a
    match a with
    | ⟨0, _⟩ => rfl
    | ⟨1, _⟩ => exact Fin.ext h1.symm
  refine Finset.sum_nbij' (fun j => (⟨(j 0).val, idx2_lt0 j⟩ : Fin E)) (fun e => ix2 e o) ?_ ?_ ?_ ?_ ?_
  · intro j hj
    have hj' := (Finset.mem_filter.mp hj).2
    exact Finset.mem_filter.mpr ⟨Finset.mem_univ _, ((resultIdx2 wf j idx (ix2 n o)).mp hj').1⟩
  · intro e he
    have he' := (Finset.mem_filter.mp he).2
    exact Finset.mem_filter.mpr ⟨Finset.mem_univ _, (resultIdx2 wf (ix2 e o) idx (ix2 n o)).mpr ⟨he', rfl⟩⟩
  · intro j hj
    exact hleft j (Finset.mem_filter.mp hj).2
  · intro e _
    rfl
  · intro j hj
    exact congrArg u (hleft j (Finset.mem_filter.mp hj).2).symm

/-- A list of 128 numbers made a column and repeated along D columns, read at (g, o): the g-th number. -/
theorem bcastCol_apply {D : Nat}
    (h1 : (⟨1, ![128]⟩ : Shape).BroadcastsInDim ⟨2, ![128, 1]⟩ (![0] : Fin 1 → Fin 2))
    (h2 : (⟨2, ![128, 1]⟩ : Shape).BroadcastsInDim ⟨2, ![128, D]⟩ (![0, 1] : Fin 2 → Fin 2))
    (y : (⟨1, ![128]⟩ : Shape).Idx → EReal) (g : Fin 128) (o : Fin D) :
    broadcastInDim ⟨2, ![128, D]⟩ ![0, 1] h2 (broadcastInDim ⟨2, ![128, 1]⟩ ![0] h1 y) (ix2 g o) = y (ix1 g) := by
  rw [broadcastInDim_apply ![0, 1] h2 _ (ix2 g o) (ix2 g (0 : Fin 1)) (fun a => match a with
    | ⟨0, _⟩ => by show g.val = if (128 : Nat) = 1 then 0 else g.val; rw [if_neg (by decide)]
    | ⟨1, _⟩ => by show 0 = if (1 : Nat) = 1 then 0 else o.val; rw [if_pos rfl])]
  exact broadcastInDim_apply ![0] h1 y (ix2 g (0 : Fin 1)) (ix1 g) (fun a => match a with
    | ⟨0, _⟩ => by show g.val = if (128 : Nat) = 1 then 0 else g.val; rw [if_neg (by decide)])

/-- Four R x 128 blocks side by side, read at (r, c) with c = 128 a + o: block a at (r, o). -/
theorem concat4_apply {R : Nat}
    (h : Shape.Concatenates [(⟨2, ![R, 128]⟩ : Shape), ⟨2, ![R, 128]⟩, ⟨2, ![R, 128]⟩, ⟨2, ![R, 128]⟩] ⟨2, ![R, 512]⟩ 1)
    (Y : Fin 4 → (⟨2, ![R, 128]⟩ : Shape).Idx → EReal) (r : Fin R) (a : Fin 4) (o : Fin 128) (c : Fin 512)
    (hc : c.val = 128 * a.val + o.val) :
    concatenate (⟨2, ![R, 512]⟩ : Shape) 1
        [⟨(⟨2, ![R, 128]⟩ : Shape), Y 0⟩, ⟨(⟨2, ![R, 128]⟩ : Shape), Y 1⟩, ⟨(⟨2, ![R, 128]⟩ : Shape), Y 2⟩,
          ⟨(⟨2, ![R, 128]⟩ : Shape), Y 3⟩] h (ix2 r c)
      = Y a (ix2 r o) := by
  have hi : ∀ b : Fin 2, b.cast (rfl : (2 : Nat) = 2) ≠ (1 : Fin 2) →
      ((ix2 r o : (⟨2, ![R, 128]⟩ : Shape).Idx) b).val = ((ix2 r c : (⟨2, ![R, 512]⟩ : Shape).Idx) (b.cast rfl)).val := by
    intro b hb
    match b with
    | ⟨0, _⟩ => rfl
    | ⟨1, _⟩ => exact absurd rfl hb
  have key : ∀ (k : Nat) (hk : k < 4) (pre : Nat), pre = 128 * k → c.val = pre + o.val →
      concatenate (⟨2, ![R, 512]⟩ : Shape) 1
          [⟨(⟨2, ![R, 128]⟩ : Shape), Y 0⟩, ⟨(⟨2, ![R, 128]⟩ : Shape), Y 1⟩, ⟨(⟨2, ![R, 128]⟩ : Shape), Y 2⟩,
            ⟨(⟨2, ![R, 128]⟩ : Shape), Y 3⟩] h (ix2 r c)
        = Y ⟨k, hk⟩ (ix2 r o) := by
    intro k hk pre hpre hcp
    match k, hk with
    | 0, _ =>
      exact concatenate_apply_piece (α := EReal) 1
        [⟨(⟨2, ![R, 128]⟩ : Shape), Y 0⟩, ⟨(⟨2, ![R, 128]⟩ : Shape), Y 1⟩, ⟨(⟨2, ![R, 128]⟩ : Shape), Y 2⟩,
          ⟨(⟨2, ![R, 128]⟩ : Shape), Y 3⟩] h (ix2 r c) 0 (by show (0 : Nat) < 4; omega) ⟨2, ![R, 128]⟩ (Y 0) rfl rfl 0 rfl (ix2 r o) hi
        (by show 0 + o.val = c.val; omega)
    | 1, _ =>
      exact concatenate_apply_piece (α := EReal) 1
        [⟨(⟨2, ![R, 128]⟩ : Shape), Y 0⟩, ⟨(⟨2, ![R, 128]⟩ : Shape), Y 1⟩, ⟨(⟨2, ![R, 128]⟩ : Shape), Y 2⟩,
          ⟨(⟨2, ![R, 128]⟩ : Shape), Y 3⟩] h (ix2 r c) 1 (by show (1 : Nat) < 4; omega) ⟨2, ![R, 128]⟩ (Y 1) rfl rfl 128 rfl (ix2 r o) hi
        (by show 128 + o.val = c.val; omega)
    | 2, _ =>
      exact concatenate_apply_piece (α := EReal) 1
        [⟨(⟨2, ![R, 128]⟩ : Shape), Y 0⟩, ⟨(⟨2, ![R, 128]⟩ : Shape), Y 1⟩, ⟨(⟨2, ![R, 128]⟩ : Shape), Y 2⟩,
          ⟨(⟨2, ![R, 128]⟩ : Shape), Y 3⟩] h (ix2 r c) 2 (by show (2 : Nat) < 4; omega) ⟨2, ![R, 128]⟩ (Y 2) rfl rfl 256 rfl (ix2 r o) hi
        (by show 256 + o.val = c.val; omega)
    | 3, _ =>
      exact concatenate_apply_piece (α := EReal) 1
        [⟨(⟨2, ![R, 128]⟩ : Shape), Y 0⟩, ⟨(⟨2, ![R, 128]⟩ : Shape), Y 1⟩, ⟨(⟨2, ![R, 128]⟩ : Shape), Y 2⟩,
          ⟨(⟨2, ![R, 128]⟩ : Shape), Y 3⟩] h (ix2 r c) 3 (by show (3 : Nat) < 4; omega) ⟨2, ![R, 128]⟩ (Y 3) rfl rfl 384 rfl (ix2 r o) hi
        (by show 384 + o.val = c.val; omega)
  exact key a.val a.isLt (128 * a.val) rfl hc

end Generic

/-! ## The two poolings are one function -/

section Main
open Cert.LibRowScatter

/-- The two programs spell the count of each graph the same way. -/
theorem kCount_eq_rCount (b : IVec Cert.KernelIdeal.S50000 32) : kCount b = rCount b := rfl

/-- Pooling the four arrays one by one and laying the results side by side is pooling the four arrays laid side by
    side. At an entry (g, c), c = 128 a + o, both are the quotient of (zero plus the sum, over the nodes whose batch
    word is g, of array a's entry (node, o)) by the count of graph g: the kernel program's side by side is read at
    block a, both accumulations are read at their entry as sums over those nodes, and under the reference program's sum
    the four arrays side by side are read at block a. -/
theorem pooled_eq (X0 X1 X2 X3 : Cert.KernelIdeal.S50000x128.Idx → EReal) (b : IVec Cert.KernelIdeal.S50000 32) :
    kPooled X0 X1 X2 X3 b = rPooled X0 X1 X2 X3 b := by
  funext i
  obtain ⟨g, c, rfl⟩ : ∃ (g : Fin 128) (c : Fin 512), i = ix2 g c := ⟨i 0, i 1, eq_ix2 i⟩
  have ha : c.val / 128 < 4 := by have := c.isLt; omega
  have ho : c.val % 128 < 128 := Nat.mod_lt _ (by decide)
  have hc : c.val = 128 * (⟨c.val / 128, ha⟩ : Fin 4).val + (⟨c.val % 128, ho⟩ : Fin 128).val := by
    show c.val = 128 * (c.val / 128) + c.val % 128
    omega
  generalize (⟨c.val / 128, ha⟩ : Fin 4) = a at hc
  generalize (⟨c.val % 128, ho⟩ : Fin 128) = o at hc
  -- the kernel program's side by side, read at block a
  have hK : kPooled X0 X1 X2 X3 b (ix2 g c) = kPiece (![X0, X1, X2, X3] a) b (ix2 g o) :=
    concat4_apply (R := 128) Cert.KernelIdeal.Gen.concatenates_S128x128_S128x128_S128x128_S128x128_S128x512_d1
      (fun k => kPiece (![X0, X1, X2, X3] k) b) g a o c hc
  rw [hK]
  refine congrArg₂ (FloatOps.hostDivf (F := Ideal) (φ := .f32)) ?_ ?_
  · -- the accumulated sums
    have h1 := scatterAdd2_apply (N := 128) (E := 50000) (D := 128)
      Cert.KernelIdeal.scatter_S128x128_S50000x1_S50000x128_1_0_0_1.wf
      (broadcastInDim Cert.KernelIdeal.S128x128 ![] Cert.KernelIdeal.Gen.bcast_S_S128x128
        (constant (F := Ideal) Cert.KernelIdeal.S_ .f32 0x00000000#32))
      (broadcastInDim Cert.KernelIdeal.S50000x1 ![0] Cert.KernelIdeal.Gen.bcast_S50000_S50000x1_0 b)
      (![X0, X1, X2, X3] a) g o
    have h2 := scatterAdd2_apply (N := 128) (E := 50000) (D := 512)
      Cert.ReferenceIdeal.scatter_S128x512_S50000x1_S50000x512_1_0_0_1.wf
      (broadcastInDim Cert.ReferenceIdeal.S128x512 ![] Cert.ReferenceIdeal.Gen.bcast_S_S128x512
        (constant (F := Ideal) Cert.ReferenceIdeal.S_ .f32 0x00000000#32))
      (broadcastInDim Cert.ReferenceIdeal.S50000x1 ![0] Cert.ReferenceIdeal.Gen.bcast_S50000_S50000x1_0 b)
      (concatenate Cert.ReferenceIdeal.S50000x512 1
        [⟨Cert.ReferenceIdeal.S50000x128, X0⟩, ⟨Cert.ReferenceIdeal.S50000x128, X1⟩,
          ⟨Cert.ReferenceIdeal.S50000x128, X2⟩, ⟨Cert.ReferenceIdeal.S50000x128, X3⟩]
        Cert.ReferenceIdeal.Gen.concatenates_S50000x128_S50000x128_S50000x128_S50000x128_S50000x512_d1) g c
    refine h1.trans (Eq.trans ?_ h2.symm)
    refine congrArg₂ (· + ·) rfl (Finset.sum_congr rfl fun e _ => ?_)
    exact (concat4_apply (R := 50000)
      Cert.ReferenceIdeal.Gen.concatenates_S50000x128_S50000x128_S50000x128_S50000x128_S50000x512_d1
      ![X0, X1, X2, X3] e a o c hc).symm
  · -- the counts
    exact (bcastCol_apply Cert.KernelIdeal.Gen.bcast_S128_S128x1_0 Cert.KernelIdeal.Gen.bcast_S128x1_S128x128_0_1
        (kCount b) g o).trans
      (bcastCol_apply Cert.ReferenceIdeal.Gen.bcast_S128_S128x1_0 Cert.ReferenceIdeal.Gen.bcast_S128x1_S128x512_0_1
        (rCount b) g c).symm

end Main

/-! ## The head of the kernel program: the logits of the pooled features, and their log-softmax -/

section Head
open Cert.KernelIdeal Cert.KernelIdeal.Gen

/-- Rewrites each line's result at its own buffer to its function's value and at any other buffer to what was there. -/
local macro "results" : tactic =>
  `(tactic| (simp only [after_cons, after_nil]
             repeat (first
               | rw [nullary_result] | rw [unary_result] | rw [binary_result] | rw [ternary_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

/-- The last run lays the pooled arrays side by side, multiplies by the classifier's weight and adds its bias row. -/
theorem seg5_v168 (W : Valuation τ sig (Elt Ideal)) :
    (after seg5 W (Proc.devRef .tc main_v168) : FVec Ideal S128x10 .f32)
      = Cert.KernelIdeal.Hand.headK
          (concatenate S128x512 1
            [⟨S128x128, (W (Proc.devRef .tc main_v145) : S128x128.Idx → EReal)⟩,
              ⟨S128x128, (W (Proc.devRef .tc main_v151) : S128x128.Idx → EReal)⟩,
              ⟨S128x128, (W (Proc.devRef .tc main_v157) : S128x128.Idx → EReal)⟩,
              ⟨S128x128, (W (Proc.devRef .tc main_v163) : S128x128.Idx → EReal)⟩]
            concatenates_S128x128_S128x128_S128x128_S128x128_S128x512_d1)
          (W (Proc.devRef .tc main_arg9)) (W (Proc.devRef .tc main_arg10)) := by
  simp only [after_cons, after_nil]
  repeat (first
    | rw [unary_result] | rw [binary_result] | rw [nary4_result]
    | (rw [unary_result_ne]; rotate_left; decide)
    | (rw [binary_result_ne]; rotate_left; decide)
    | (rw [nary_result_ne]; rotate_left; decide))
  rfl

/-- The five runs before the last leave the classifier's weight alone. -/
theorem runs_k_arg9 (V : Valuation τ sig (Elt Ideal)) :
    after seg4 (after seg3 (after seg2 (after seg1 (after seg0 V)))) (Proc.devRef .tc main_arg9)
      = V (Proc.devRef .tc main_arg9) := by
  results

/-- The five runs before the last leave the classifier's bias alone. -/
theorem runs_k_arg10 (V : Valuation τ sig (Elt Ideal)) :
    after seg4 (after seg3 (after seg2 (after seg1 (after seg0 V)))) (Proc.devRef .tc main_arg10)
      = V (Proc.devRef .tc main_arg10) := by
  results

/-- What the kernel program's last host lines leave in the logits buffer: the classifier applied to the pooled
    features. -/
theorem after_logits (V : Valuation Cert.KernelIdeal.τ Cert.KernelIdeal.sig (Elt Ideal)) :
    (StableHlo.after (Cert.KernelIdeal.Gen.hostOps3 (F := Ideal)) V (Proc.devRef .tc Cert.KernelIdeal.main_v168)
        : FVec Ideal Cert.KernelIdeal.S128x10 .f32)
      = Cert.KernelIdeal.Hand.headK
          (kPooled (V (Proc.devRef .tc Cert.KernelIdeal.main_arg0)) (V (Proc.devRef .tc Cert.KernelIdeal.main_v63_0))
            (V (Proc.devRef .tc Cert.KernelIdeal.main_v98_0)) (V (Proc.devRef .tc Cert.KernelIdeal.main_v133_0))
            (V (Proc.devRef .tc Cert.KernelIdeal.main_arg2)))
          (V (Proc.devRef .tc Cert.KernelIdeal.main_arg9)) (V (Proc.devRef .tc Cert.KernelIdeal.main_arg10)) := by
  have h := after_pooled V
  rw [hostOps3_split] at h ⊢
  simp only [after_append] at h ⊢
  rw [seg5_v168, ← seg5_v164, h, runs_k_arg9, runs_k_arg10]

/-- What the outlined log-softmax's host lines leave in its result buffer: the log-softmax of the logits. -/
theorem after_logsoftmax (V : Valuation Cert.KernelIdeal.τ Cert.KernelIdeal.sig (Elt Ideal)) :
    (StableHlo.after (Cert.KernelIdeal.Gen.hostOps3_1 (F := Ideal)) V (Proc.devRef .tc Cert.KernelIdeal.main_v169)
        : FVec Ideal Cert.KernelIdeal.S128x10 .f32)
      = Cert.KernelIdeal.Hand.lsK (V (Proc.devRef .tc Cert.KernelIdeal.main_v168)) := by
  results
  rfl

end Head

end Cert.Proof.Tail

end
-- ==== Proof.KIChain.lean ====
import proofs.«160187_j35459249995962_2_alg».proof.Proof.KIRun
import proofs.«160187_j35459249995962_2_alg».proof.Proof.KIVal0
import proofs.«160187_j35459249995962_2_alg».proof.Proof.KIVal1
import proofs.«160187_j35459249995962_2_alg».proof.Proof.KIVal2
import proofs.«160187_j35459249995962_2_alg».proof.Proof.KIKeepsB
import proofs.«160187_j35459249995962_2_alg».proof.Proof.KILayer
import proofs.«160187_j35459249995962_2_alg».proof.Proof.KIA_after1_v76
import proofs.«160187_j35459249995962_2_alg».proof.Proof.KIA_after1_v95
import proofs.«160187_j35459249995962_2_alg».proof.Proof.KIA_after1_v96
import proofs.«160187_j35459249995962_2_alg».proof.Proof.KIA_after1_v97
import proofs.«160187_j35459249995962_2_alg».proof.Proof.KIA_after2_v111
import proofs.«160187_j35459249995962_2_alg».proof.Proof.KIA_after2_v130
import proofs.«160187_j35459249995962_2_alg».proof.Proof.KIA_after2_v131
import proofs.«160187_j35459249995962_2_alg».proof.Proof.KIA_after2_v132
import proofs.«160187_j35459249995962_2_alg».proof.Proof.KIA_after0_v41
import proofs.«160187_j35459249995962_2_alg».proof.Proof.KIA_after0_v60
import proofs.«160187_j35459249995962_2_alg».proof.Proof.KIA_after0_v61
import proofs.«160187_j35459249995962_2_alg».proof.Proof.KIA_after0_v62
import proofs.«160187_j35459249995962_2_alg».proof.Proof.KIA_after0_v3
import proofs.«160187_j35459249995962_2_alg».proof.Proof.KIA_after0_v6
import proofs.«160187_j35459249995962_2_alg».proof.Proof.KIA_after0_v27
import proofs.«160187_j35459249995962_2_alg».proof.Proof.Tail

set_option maxRecDepth 16384

/-!
# The kernel program's result as one function of its arguments

Reading the fold of buffer contents back from the end: the result is the log-softmax of the logits; the logits are
the head applied to the pooled features; the pooled features are read off the four feature arrays (the input and the
three layers' results); each layer's result is the dense layer value of the aggregate of the layer before, of the
layer's weight and of its folded scale and offset rows; the edge words and the edge coefficients are computed once
before the first region and only read afterwards.
-/

noncomputable section

namespace Cert.KernelIdeal.Hand

open Cert.KernelIdeal Cert.KernelIdeal.Gen
open Idealize.ShloMosaic Idealize.ShloMosaic.TcCoe Idealize.ShloMosaic.ValueIdx Cert.LayerSpec

/-- Argument 0 on core `c`. -/
abbrev X0 (m : (ℓ : Loc nD τ sig) → Buf (Elt Ideal) ℓ) (c : Dev nD) : FVec Ideal S50000x128 .f32 := m ((c : Thread nD τ).loc main_arg0)
/-- Argument 1 on core `c`. -/
abbrev X1 (m : (ℓ : Loc nD τ sig) → Buf (Elt Ideal) ℓ) (c : Dev nD) : IVec S2x800000 32 := m ((c : Thread nD τ).loc main_arg1)
/-- Argument 2 on core `c`. -/
abbrev X2 (m : (ℓ : Loc nD τ sig) → Buf (Elt Ideal) ℓ) (c : Dev nD) : IVec S50000 32 := m ((c : Thread nD τ).loc main_arg2)
/-- Argument 3 on core `c`. -/
abbrev X3 (m : (ℓ : Loc nD τ sig) → Buf (Elt Ideal) ℓ) (c : Dev nD) : FVec Ideal S3x128x128 .f32 := m ((c : Thread nD τ).loc main_arg3)
/-- Argument 4 on core `c`. -/
abbrev X4 (m : (ℓ : Loc nD τ sig) → Buf (Elt Ideal) ℓ) (c : Dev nD) : FVec Ideal S3x128 .f32 := m ((c : Thread nD τ).loc main_arg4)
/-- Argument 5 on core `c`. -/
abbrev X5 (m : (ℓ : Loc nD τ sig) → Buf (Elt Ideal) ℓ) (c : Dev nD) : FVec Ideal S3x128 .f32 := m ((c : Thread nD τ).loc main_arg5)
/-- Argument 6 on core `c`. -/
abbrev X6 (m : (ℓ : Loc nD τ sig) → Buf (Elt Ideal) ℓ) (c : Dev nD) : FVec Ideal S3x128 .f32 := m ((c : Thread nD τ).loc main_arg6)
/-- Argument 7 on core `c`. -/
abbrev X7 (m : (ℓ : Loc nD τ sig) → Buf (Elt Ideal) ℓ) (c : Dev nD) : FVec Ideal S3x128 .f32 := m ((c : Thread nD τ).loc main_arg7)
/-- Argument 8 on core `c`. -/
abbrev X8 (m : (ℓ : Loc nD τ sig) → Buf (Elt Ideal) ℓ) (c : Dev nD) : FVec Ideal S3x128 .f32 := m ((c : Thread nD τ).loc main_arg8)
/-- Argument 9 on core `c`. -/
abbrev X9 (m : (ℓ : Loc nD τ sig) → Buf (Elt Ideal) ℓ) (c : Dev nD) : FVec Ideal S512x10 .f32 := m ((c : Thread nD τ).loc main_arg9)
/-- Argument 10 on core `c`. -/
abbrev X10 (m : (ℓ : Loc nD τ sig) → Buf (Elt Ideal) ℓ) (c : Dev nD) : FVec Ideal S10 .f32 := m ((c : Thread nD τ).loc main_arg10)

variable (m : (ℓ : Loc nD τ sig) → Buf (Elt Ideal) ℓ) (ρ : Dev nD → PrngReg) (c : Dev nD)

/-- The first layer's result. -/
def H1 : FVec Ideal S50000x128 .f32 := kLayer (X0 m c) (X1 m c) (X3 m c) (X4 m c) (X5 m c) (X6 m c) (X7 m c) (X8 m c) ![0, 0, 0] slices_S3x128x128_S1x128x128_0_0_0 ![0, 0] slices_S3x128_S1x128_0_0
/-- The second layer's result. -/
def H2 : FVec Ideal S50000x128 .f32 := kLayer (H1 m c) (X1 m c) (X3 m c) (X4 m c) (X5 m c) (X6 m c) (X7 m c) (X8 m c) ![1, 0, 0] slices_S3x128x128_S1x128x128_1_0_0 ![1, 0] slices_S3x128_S1x128_1_0
/-- The third layer's result. -/
def H3 : FVec Ideal S50000x128 .f32 := kLayer (H2 m c) (X1 m c) (X3 m c) (X4 m c) (X5 m c) (X6 m c) (X7 m c) (X8 m c) ![2, 0, 0] slices_S3x128x128_S1x128x128_2_0_0 ![2, 0] slices_S3x128_S1x128_2_0

/-! ## Before the first region -/

theorem W1_v41 : (W1 m ρ c (Proc.devRef .tc main_v41) : FVec Ideal S50000x128 .f32) = agg (truncf .bf16 (X0 m c) bitsLt_bf16_f32) (srcW (X1 m c)) (dstW (X1 m c)) (normCol (X1 m c)) :=
  after0_v41 (W0 m ρ c)
theorem W1_v60 : (W1 m ρ c (Proc.devRef .tc main_v60) : FVec Ideal S128x128 .f32) = wMat (X3 m c) ![0, 0, 0] slices_S3x128x128_S1x128x128_0_0_0 :=
  after0_v60 (W0 m ρ c)
theorem W1_v61 : (W1 m ρ c (Proc.devRef .tc main_v61) : FVec Ideal S1x128 .f32) = asRow (scaleV (X5 m c) (X8 m c) ![0, 0] slices_S3x128_S1x128_0_0) :=
  after0_v61 (W0 m ρ c)
theorem W1_v62 : (W1 m ρ c (Proc.devRef .tc main_v62) : FVec Ideal S1x128 .f32) = asRow (offsetV (X4 m c) (X5 m c) (X6 m c) (X7 m c) (X8 m c) ![0, 0] slices_S3x128_S1x128_0_0) :=
  after0_v62 (W0 m ρ c)
theorem W1_v3 : (W1 m ρ c (Proc.devRef .tc main_v3) : IVec S850000 32) = srcW (X1 m c) := after0_v3 (W0 m ρ c)
theorem W1_v6 : (W1 m ρ c (Proc.devRef .tc main_v6) : IVec S850000 32) = dstW (X1 m c) := after0_v6 (W0 m ρ c)
theorem W1_v27 : (W1 m ρ c (Proc.devRef .tc main_v27) : FVec Ideal S850000x1 .f32) = normCol (X1 m c) := after0_v27 (W0 m ρ c)

/-! ## The first region's results -/

theorem W2_v63_0 : (W2 m ρ c (Proc.devRef .tc main_v63_0) : FVec Ideal S50000x128 .f32) = H1 m c := by
  refine (W2_arr m ρ c 4).trans ?_
  refine (final0_4 (V1 m ρ) c).trans ?_
  unfold H1 kLayer
  rw [show (V1 m ρ c main_v41 : FVec Ideal S50000x128 .f32) = _ from W1_v41 m ρ c,
    show (V1 m ρ c main_v60 : FVec Ideal S128x128 .f32) = _ from W1_v60 m ρ c,
    show (V1 m ρ c main_v61 : FVec Ideal S1x128 .f32) = _ from W1_v61 m ρ c,
    show (V1 m ρ c main_v62 : FVec Ideal S1x128 .f32) = _ from W1_v62 m ρ c]

theorem W2_v63_1 : (W2 m ρ c (Proc.devRef .tc main_v63_1) : FVec Ideal S50000x128 .bf16) = H1 m c := by
  refine (W2_arr m ρ c 5).trans ?_
  refine (final0_5 (V1 m ρ) c).trans ?_
  unfold H1 kLayer
  rw [show (V1 m ρ c main_v41 : FVec Ideal S50000x128 .f32) = _ from W1_v41 m ρ c,
    show (V1 m ρ c main_v60 : FVec Ideal S128x128 .f32) = _ from W1_v60 m ρ c,
    show (V1 m ρ c main_v61 : FVec Ideal S1x128 .f32) = _ from W1_v61 m ρ c,
    show (V1 m ρ c main_v62 : FVec Ideal S1x128 .f32) = _ from W1_v62 m ρ c]

/-! ## What the later items leave alone -/

theorem W2_keep (b : Ref sig .tc) (hb : ∀ w, Pipeline.arrRef spec0 w ≠ b) : W2 m ρ c (Proc.devRef .tc b) = W1 m ρ c (Proc.devRef .tc b) := W2_of_ne m ρ c b hb
theorem W4_keep (b : Ref sig .tc) (hb : ∀ w, Pipeline.arrRef spec1 w ≠ b) : W4 m ρ c (Proc.devRef .tc b) = W3 m ρ c (Proc.devRef .tc b) := W4_of_ne m ρ c b hb
theorem W6_keep (b : Ref sig .tc) (hb : ∀ w, Pipeline.arrRef spec2 w ≠ b) : W6 m ρ c (Proc.devRef .tc b) = W5 m ρ c (Proc.devRef .tc b) := W6_of_ne m ρ c b hb

/-- An argument array at the entry of the second stretch. -/
theorem W2_arg (b : Ref sig .tc) (hb : b ∈ argRefs) (h0 : ∀ w, Pipeline.arrRef spec0 w ≠ b) : W2 m ρ c (Proc.devRef .tc b) = m ((c : Thread nD τ).loc b) :=
  (W2_of_ne m ρ c b h0).trans ((keeps_hostOps0 _ b hb).trans rfl)
/-- An argument array at the entry of the third stretch. -/
theorem W4_arg (b : Ref sig .tc) (hb : b ∈ argRefs) (h0 : ∀ w, Pipeline.arrRef spec0 w ≠ b) (h1 : ∀ w, Pipeline.arrRef spec1 w ≠ b) :
    W4 m ρ c (Proc.devRef .tc b) = m ((c : Thread nD τ).loc b) :=
  (W4_of_ne m ρ c b h1).trans ((keeps_hostOps1 _ b hb).trans (W2_arg m ρ c b hb h0))
/-- An argument array at the entry of the last stretch. -/
theorem W6_arg (b : Ref sig .tc) (hb : b ∈ argRefs) (h0 : ∀ w, Pipeline.arrRef spec0 w ≠ b) (h1 : ∀ w, Pipeline.arrRef spec1 w ≠ b) (h2 : ∀ w, Pipeline.arrRef spec2 w ≠ b) :
    W6 m ρ c (Proc.devRef .tc b) = m ((c : Thread nD τ).loc b) :=
  (W6_of_ne m ρ c b h2).trans ((keeps_hostOps2 _ b hb).trans (W4_arg m ρ c b hb h0 h1))

theorem W2_v3 : (W2 m ρ c (Proc.devRef .tc main_v3) : IVec S850000 32) = srcW (X1 m c) := (W2_keep m ρ c main_v3 (by decide)).trans (W1_v3 m ρ c)
theorem W2_v6 : (W2 m ρ c (Proc.devRef .tc main_v6) : IVec S850000 32) = dstW (X1 m c) := (W2_keep m ρ c main_v6 (by decide)).trans (W1_v6 m ρ c)
theorem W2_v27 : (W2 m ρ c (Proc.devRef .tc main_v27) : FVec Ideal S850000x1 .f32) = normCol (X1 m c) := (W2_keep m ρ c main_v27 (by decide)).trans (W1_v27 m ρ c)
theorem W4_v3 : (W4 m ρ c (Proc.devRef .tc main_v3) : IVec S850000 32) = srcW (X1 m c) :=
  (W4_keep m ρ c main_v3 (by decide)).trans ((keepsB_hostOps1 _ main_v3 (by decide)).trans (W2_v3 m ρ c))
theorem W4_v6 : (W4 m ρ c (Proc.devRef .tc main_v6) : IVec S850000 32) = dstW (X1 m c) :=
  (W4_keep m ρ c main_v6 (by decide)).trans ((keepsB_hostOps1 _ main_v6 (by decide)).trans (W2_v6 m ρ c))
theorem W4_v27 : (W4 m ρ c (Proc.devRef .tc main_v27) : FVec Ideal S850000x1 .f32) = normCol (X1 m c) :=
  (W4_keep m ρ c main_v27 (by decide)).trans ((keepsB_hostOps1 _ main_v27 (by decide)).trans (W2_v27 m ρ c))

/-! ## The second region -/

theorem W3_v76 : (W3 m ρ c (Proc.devRef .tc main_v76) : FVec Ideal S50000x128 .f32) = agg (truncf .bf16 (H1 m c) bitsLt_bf16_f32) (srcW (X1 m c)) (dstW (X1 m c)) (normCol (X1 m c)) := by
  refine (after1_v76 (W2 m ρ c)).trans ?_
  rw [W2_v63_1 m ρ c, W2_v3 m ρ c, W2_v6 m ρ c, W2_v27 m ρ c]
  rfl
theorem W3_v95 : (W3 m ρ c (Proc.devRef .tc main_v95) : FVec Ideal S128x128 .f32) = wMat (X3 m c) ![1, 0, 0] slices_S3x128x128_S1x128x128_1_0_0 := by
  refine (after1_v95 (W2 m ρ c)).trans ?_
  rw [W2_arg m ρ c main_arg3 (by decide) (by decide)]
theorem W3_v96 : (W3 m ρ c (Proc.devRef .tc main_v96) : FVec Ideal S1x128 .f32) = asRow (scaleV (X5 m c) (X8 m c) ![1, 0] slices_S3x128_S1x128_1_0) := by
  refine (after1_v96 (W2 m ρ c)).trans ?_
  rw [W2_arg m ρ c main_arg5 (by decide) (by decide), W2_arg m ρ c main_arg8 (by decide) (by decide)]
theorem W3_v97 : (W3 m ρ c (Proc.devRef .tc main_v97) : FVec Ideal S1x128 .f32) = asRow (offsetV (X4 m c) (X5 m c) (X6 m c) (X7 m c) (X8 m c) ![1, 0] slices_S3x128_S1x128_1_0) := by
  refine (after1_v97 (W2 m ρ c)).trans ?_
  rw [W2_arg m ρ c main_arg4 (by decide) (by decide), W2_arg m ρ c main_arg5 (by decide) (by decide), W2_arg m ρ c main_arg6 (by decide) (by decide),
    W2_arg m ρ c main_arg7 (by decide) (by decide), W2_arg m ρ c main_arg8 (by decide) (by decide)]

theorem W4_v98_0 : (W4 m ρ c (Proc.devRef .tc main_v98_0) : FVec Ideal S50000x128 .f32) = H2 m c := by
  refine (W4_arr m ρ c 4).trans ?_
  refine (final1_4 (V3 m ρ) c).trans ?_
  unfold H2 kLayer
  rw [show (V3 m ρ c main_v76 : FVec Ideal S50000x128 .f32) = _ from W3_v76 m ρ c,
    show (V3 m ρ c main_v95 : FVec Ideal S128x128 .f32) = _ from W3_v95 m ρ c,
    show (V3 m ρ c main_v96 : FVec Ideal S1x128 .f32) = _ from W3_v96 m ρ c,
    show (V3 m ρ c main_v97 : FVec Ideal S1x128 .f32) = _ from W3_v97 m ρ c]
theorem W4_v98_1 : (W4 m ρ c (Proc.devRef .tc main_v98_1) : FVec Ideal S50000x128 .bf16) = H2 m c := by
  refine (W4_arr m ρ c 5).trans ?_
  refine (final1_5 (V3 m ρ) c).trans ?_
  unfold H2 kLayer
  rw [show (V3 m ρ c main_v76 : FVec Ideal S50000x128 .f32) = _ from W3_v76 m ρ c,
    show (V3 m ρ c main_v95 : FVec Ideal S128x128 .f32) = _ from W3_v95 m ρ c,
    show (V3 m ρ c main_v96 : FVec Ideal S1x128 .f32) = _ from W3_v96 m ρ c,
    show (V3 m ρ c main_v97 : FVec Ideal S1x128 .f32) = _ from W3_v97 m ρ c]

/-! ## The third region -/

theorem W5_v111 : (W5 m ρ c (Proc.devRef .tc main_v111) : FVec Ideal S50000x128 .f32) = agg (truncf .bf16 (H2 m c) bitsLt_bf16_f32) (srcW (X1 m c)) (dstW (X1 m c)) (normCol (X1 m c)) := by
  refine (after2_v111 (W4 m ρ c)).trans ?_
  rw [W4_v98_1 m ρ c, W4_v3 m ρ c, W4_v6 m ρ c, W4_v27 m ρ c]
  rfl
theorem W5_v130 : (W5 m ρ c (Proc.devRef .tc main_v130) : FVec Ideal S128x128 .f32) = wMat (X3 m c) ![2, 0, 0] slices_S3x128x128_S1x128x128_2_0_0 := by
  refine (after2_v130 (W4 m ρ c)).trans ?_
  rw [W4_arg m ρ c main_arg3 (by decide) (by decide) (by decide)]
theorem W5_v131 : (W5 m ρ c (Proc.devRef .tc main_v131) : FVec Ideal S1x128 .f32) = asRow (scaleV (X5 m c) (X8 m c) ![2, 0] slices_S3x128_S1x128_2_0) := by
  refine (after2_v131 (W4 m ρ c)).trans ?_
  rw [W4_arg m ρ c main_arg5 (by decide) (by decide) (by decide), W4_arg m ρ c main_arg8 (by decide) (by decide) (by decide)]
theorem W5_v132 : (W5 m ρ c (Proc.devRef .tc main_v132) : FVec Ideal S1x128 .f32) = asRow (offsetV (X4 m c) (X5 m c) (X6 m c) (X7 m c) (X8 m c) ![2, 0] slices_S3x128_S1x128_2_0) := by
  refine (after2_v132 (W4 m ρ c)).trans ?_
  rw [W4_arg m ρ c main_arg4 (by decide) (by decide) (by decide), W4_arg m ρ c main_arg5 (by decide) (by decide) (by decide), W4_arg m ρ c main_arg6 (by decide) (by decide) (by decide),
    W4_arg m ρ c main_arg7 (by decide) (by decide) (by decide), W4_arg m ρ c main_arg8 (by decide) (by decide) (by decide)]

theorem W6_v133_0 : (W6 m ρ c (Proc.devRef .tc main_v133_0) : FVec Ideal S50000x128 .f32) = H3 m c := by
  refine (W6_arr m ρ c 4).trans ?_
  refine (final2_4 (V5 m ρ) c).trans ?_
  unfold H3 kLayer
  rw [show (V5 m ρ c main_v111 : FVec Ideal S50000x128 .f32) = _ from W5_v111 m ρ c,
    show (V5 m ρ c main_v130 : FVec Ideal S128x128 .f32) = _ from W5_v130 m ρ c,
    show (V5 m ρ c main_v131 : FVec Ideal S1x128 .f32) = _ from W5_v131 m ρ c,
    show (V5 m ρ c main_v132 : FVec Ideal S1x128 .f32) = _ from W5_v132 m ρ c]

/-! ## The feature arrays as the last stretch finds them -/

theorem W6_v63_0 : (W6 m ρ c (Proc.devRef .tc main_v63_0) : FVec Ideal S50000x128 .f32) = H1 m c :=
  (W6_keep m ρ c main_v63_0 (by decide)).trans ((keepsB_hostOps2 _ main_v63_0 (by decide)).trans ((W4_keep m ρ c main_v63_0 (by decide)).trans
    ((keepsB_hostOps1 _ main_v63_0 (by decide)).trans (W2_v63_0 m ρ c))))
theorem W6_v98_0 : (W6 m ρ c (Proc.devRef .tc main_v98_0) : FVec Ideal S50000x128 .f32) = H2 m c :=
  (W6_keep m ρ c main_v98_0 (by decide)).trans ((keepsB_hostOps2 _ main_v98_0 (by decide)).trans (W4_v98_0 m ρ c))

/-- THE RESULT: the log-softmax of the head of the pooled features, the pooled features read by the last stretch off the
    input features and the three layers' results. -/
theorem W8_v169 : (W8 m ρ c (Proc.devRef .tc main_v169) : FVec Ideal S128x10 .f32)
      = lsK (headK (Cert.Proof.Tail.kPooled (X0 m c) (H1 m c) (H2 m c) (H3 m c) (X2 m c))
          (m ((c : Thread nD τ).loc main_arg9)) (m ((c : Thread nD τ).loc main_arg10))) := by
  refine (Cert.Proof.Tail.after_logsoftmax (W7 m ρ c)).trans ?_
  refine congrArg lsK ?_
  refine (Cert.Proof.Tail.after_logits (W6 m ρ c)).trans ?_
  rw [W6_arg m ρ c main_arg9 (by decide) (by decide) (by decide) (by decide), W6_arg m ρ c main_arg10 (by decide) (by decide) (by decide) (by decide),
    W6_arg m ρ c main_arg0 (by decide) (by decide) (by decide) (by decide), W6_arg m ρ c main_arg2 (by decide) (by decide) (by decide) (by decide),
    W6_v63_0 m ρ c, W6_v98_0 m ρ c, W6_v133_0 m ρ c]

end Cert.KernelIdeal.Hand

end
-- ==== Proof.LibRowGather.lean ====
/-
  Gathering rows of a matrix by a list of row numbers, read at an entry.

  `x[idx]` along the first axis of an `N×D` matrix `x`, with `idx` a list of `E` row numbers held as an `E×1` array
  of index words, is a gather whose slices are whole rows: the slice sizes are `1×D`, the row axis is collapsed and
  is the one axis the start index names, and the result's second axis runs along the slice. Result entry `(e, o)` is
  therefore `x` at row `idx[e, 0]` and column `o`, where the index word is read as a SIGNED integer and clamped so
  that the slice fits: the row axis has extent `N` and slice size `1`, so the clamp is into `[0, N − 1]` (a negative
  word gives row `0`, a word past the end gives the last row). On the column axis the start index names nothing, so
  the slice starts at `0` and the column read is the result's own column coordinate.

  The second form is the same gather on arrays that carry a leading axis of extent one: a `1×N×D` operand, the same
  `E×1` index array, and a `1×E×D` result, with slice sizes `1×1×D`. The unit axis and the column axis run along the
  slice, the row axis (now the middle one) is collapsed and clamped as before; result entry `(b, e, o)` is the
  operand at `(b, idx[e, 0] clamped, o)`.
-/
import Idealize.ShloMosaic.Lib.ValueIdx

noncomputable section

namespace Cert.LibRowGather

open Idealize.ShloMosaic Idealize.ShloMosaic.ValueIdx

/-- The row an index word names: read as a signed integer and clamped into [0, N − 1]. -/
def row (N : Nat) (hN : 0 < N) {w : Nat} (b : BitVec w) : Fin N := ⟨min b.toInt.toNat (N - 1), by omega⟩

/-- The offset coordinate on an operand axis that runs along the slice, once the axis's position `n` among the
    operand's slice axes is known: the result index's coordinate on the `n`-th offset axis. -/
theorem offCoord_of_pos {s si t : Shape} (d : GatherDims s si t) (j : t.Idx) (a : Fin s.rank) (n : Nat)
    (hn : n < d.offsetDims.length) (ha : a ∈ d.sKept) (hi : d.sKept.idxOf a = n) :
    d.offCoord j a = (j d.offsetDims[n]).val := by
  subst hi
  unfold GatherDims.offCoord
  rw [dif_pos ha]

/-- Of a matrix's two axes, the one that is not the first is the second. -/
theorem kept2 : (List.finRange 2).filter (fun a : Fin 2 => a ∉ [(0 : Fin 2)]) = [1] := by decide

/-- Of a rank-3 array's axes, the ones that are not the middle one are the first and the last. -/
theorem kept3 : (List.finRange 3).filter (fun a : Fin 3 => a ∉ [(1 : Fin 3)]) = [0, 2] := by decide

/-- The dimension numbers of the row gather of an `N×D` matrix at an `E×1` array of row numbers, with an `E×D`
    result: whole-row slices `1×D`, the row axis collapsed and named by the start index, the result's second axis
    the slice's column axis. Their conditions `wf` are decided on literal shapes. -/
abbrev dims2 (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather read at `(e, o)`: the matrix at the row the word `idx[e, 0]` names (signed, clamped into
    `[0, N − 1]`) and at column `o`. On the row axis the operand coordinate is the clamped start alone (a collapsed
    axis has no offset); on the column axis the start is `0` and the offset is the result's column. -/
theorem gather2_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (o : Fin D) :
    Host.gather (dims2 N E D wf) x idx (ix2 e o) = x (ix2 (row N hN (idx (ix2 e (0 : Fin 1)))) o) := by
  unfold Host.gather
  congr 1
  funext a
  refine Fin.ext ?_
  match a with
  | ⟨0, h0⟩ =>
    show (dims2 N E D wf).start (ix2 e o) idx ⟨0, h0⟩ + (dims2 N E D wf).batchCoord (ix2 e o) ⟨0, h0⟩
      + (dims2 N E D wf).offCoord (ix2 e o) ⟨0, h0⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨0, h0⟩ : Fin 2) ∈ (dims2 N E D wf).startIndexMap from List.mem_singleton.mpr (Fin.ext rfl))]
    have hsi : (dims2 N E D wf).siIdx (ix2 e o) ⟨List.idxOf (⟨0, h0⟩ : Fin 2) (dims2 N E D wf).startIndexMap,
        List.idxOf_lt_length_iff.2 (List.mem_singleton.mpr (Fin.ext rfl))⟩ = ix2 e (0 : Fin 1) := by
      funext b; refine Fin.ext ?_
      match b with
      | ⟨0, _⟩ => rfl
      | ⟨1, _⟩ => rfl
    rw [hsi]
    rfl
  | ⟨1, h1⟩ =>
    show (dims2 N E D wf).start (ix2 e o) idx ⟨1, h1⟩ + (dims2 N E D wf).batchCoord (ix2 e o) ⟨1, h1⟩
      + (dims2 N E D wf).offCoord (ix2 e o) ⟨1, h1⟩ = _
    have hst : (dims2 N E D wf).start (ix2 e o) idx ⟨1, h1⟩ = 0 := by
      unfold GatherDims.start
      rw [dif_neg (fun h => absurd (show (1 : Nat) = 0 from congrArg Fin.val (List.mem_singleton.mp h)) (by decide))]
    rw [hst, GatherDims.batchCoord_eq_zero _ _ _ List.not_mem_nil]
    have hk : (dims2 N E D wf).sKept = [1] := kept2
    rw [offCoord_of_pos (dims2 N E D wf) (ix2 e o) ⟨1, h1⟩ 0 (show (0 : Nat) < 1 from Nat.one_pos)
      ((GatherDims.mem_sKept _ _).mpr ⟨fun h => absurd (show (1 : Nat) = 0 from congrArg Fin.val (List.mem_singleton.mp h)) (by decide), List.not_mem_nil⟩)
      (by rw [hk]; rfl)]
    rw [Nat.zero_add]
    rfl

/-- The dimension numbers of the same gather on arrays with a leading unit axis: a `1×N×D` operand, an `E×1` array
    of row numbers and a `1×E×D` result; slices `1×1×D`, the row axis (the middle one) collapsed and named by the
    start index, the result's first and last axes the slice's unit and column axes. -/
abbrev dims3 (N E D : Nat) (wf : GatherDims.WF ⟨3, ![1, N, D]⟩ ⟨2, ![E, 1]⟩ ⟨3, ![1, E, D]⟩ [0, 2] [1] [] [1] [] 1 ![1, 1, D]) :
    GatherDims ⟨3, ![1, N, D]⟩ ⟨2, ![E, 1]⟩ ⟨3, ![1, E, D]⟩ where
  offsetDims := [0, 2]
  collapsedSliceDims := [1]
  operandBatchingDims := []
  startIndicesBatchingDims := []
  startIndexMap := [1]
  indexVectorDim := 1
  sliceSizes := ![1, 1, D]
  wf := wf

/-- The gather with a leading unit axis read at `(b, e, o)`: the operand at `(b, row, o)` with `row` the row the
    word `idx[e, 0]` names (signed, clamped into `[0, N − 1]`). The unit and column axes start at `0` and take the
    result's coordinates as offsets; the row axis is the clamped start alone. -/
theorem gather3_apply {α : Type} {N E D w : Nat} (hN : 0 < N)
    (wf : GatherDims.WF ⟨3, ![1, N, D]⟩ ⟨2, ![E, 1]⟩ ⟨3, ![1, E, D]⟩ [0, 2] [1] [] [1] [] 1 ![1, 1, D])
    (x : (⟨3, ![1, N, D]⟩ : Shape).Idx → α) (idx : IVec ⟨2, ![E, 1]⟩ w) (b : Fin 1) (e : Fin E) (o : Fin D) :
    Host.gather (dims3 N E D wf) x idx (ix3 b e o) = x (ix3 b (row N hN (idx (ix2 e (0 : Fin 1)))) o) := by
  unfold Host.gather
  congr 1
  funext a
  refine Fin.ext ?_
  match a with
  | ⟨0, h0⟩ =>
    show (dims3 N E D wf).start (ix3 b e o) idx ⟨0, h0⟩ + (dims3 N E D wf).batchCoord (ix3 b e o) ⟨0, h0⟩
      + (dims3 N E D wf).offCoord (ix3 b e o) ⟨0, h0⟩ = _
    have hst : (dims3 N E D wf).start (ix3 b e o) idx ⟨0, h0⟩ = 0 := by
      unfold GatherDims.start
      rw [dif_neg (fun h => absurd (show (0 : Nat) = 1 from congrArg Fin.val (List.mem_singleton.mp h)) (by decide))]
    rw [hst, GatherDims.batchCoord_eq_zero _ _ _ List.not_mem_nil]
    have hk : (dims3 N E D wf).sKept = [0, 2] := kept3
    rw [offCoord_of_pos (dims3 N E D wf) (ix3 b e o) ⟨0, h0⟩ 0 (show (0 : Nat) < 2 from Nat.two_pos)
      ((GatherDims.mem_sKept _ _).mpr ⟨fun h => absurd (show (0 : Nat) = 1 from congrArg Fin.val (List.mem_singleton.mp h)) (by decide), List.not_mem_nil⟩)
      (by rw [hk]; rfl)]
    rw [Nat.zero_add]
    rfl
  | ⟨1, h1⟩ =>
    show (dims3 N E D wf).start (ix3 b e o) idx ⟨1, h1⟩ + (dims3 N E D wf).batchCoord (ix3 b e o) ⟨1, h1⟩
      + (dims3 N E D wf).offCoord (ix3 b e o) ⟨1, h1⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨1, h1⟩ : Fin 3) ∈ (dims3 N E D wf).startIndexMap from List.mem_singleton.mpr (Fin.ext rfl))]
    have hsi : (dims3 N E D wf).siIdx (ix3 b e o) ⟨List.idxOf (⟨1, h1⟩ : Fin 3) (dims3 N E D wf).startIndexMap,
        List.idxOf_lt_length_iff.2 (List.mem_singleton.mpr (Fin.ext rfl))⟩ = ix2 e (0 : Fin 1) := by
      funext c; refine Fin.ext ?_
      match c with
      | ⟨0, _⟩ => rfl
      | ⟨1, _⟩ => rfl
    rw [hsi]
    rfl
  | ⟨2, h2⟩ =>
    show (dims3 N E D wf).start (ix3 b e o) idx ⟨2, h2⟩ + (dims3 N E D wf).batchCoord (ix3 b e o) ⟨2, h2⟩
      + (dims3 N E D wf).offCoord (ix3 b e o) ⟨2, h2⟩ = _
    have hst : (dims3 N E D wf).start (ix3 b e o) idx ⟨2, h2⟩ = 0 := by
      unfold GatherDims.start
      rw [dif_neg (fun h => absurd (show (2 : Nat) = 1 from congrArg Fin.val (List.mem_singleton.mp h)) (by decide))]
    rw [hst, GatherDims.batchCoord_eq_zero _ _ _ List.not_mem_nil]
    have hk : (dims3 N E D wf).sKept = [0, 2] := kept3
    rw [offCoord_of_pos (dims3 N E D wf) (ix3 b e o) ⟨2, h2⟩ 1 (show (1 : Nat) < 2 from Nat.one_lt_two)
      ((GatherDims.mem_sKept _ _).mpr ⟨fun h => absurd (show (2 : Nat) = 1 from congrArg Fin.val (List.mem_singleton.mp h)) (by decide), List.not_mem_nil⟩)
      (by rw [hk]; rfl)]
    rw [Nat.zero_add]
    rfl

end Cert.LibRowGather

end
-- ==== Proof.LibCoe.lean ====
/-
  Real numbers inside the extended reals: the coercion commutes with finite sums, with the maximum of a nonempty
  finite family (taken as a fold from -∞), with the exponential, and with a quotient by a nonzero real.
-/
import Idealize.ShloMosaic.PureOps.Ideal
import Mathlib.Data.EReal.Basic
import Mathlib.Order.Fin.Basic

noncomputable section

namespace Cert.LibCoe

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The maximum, from -∞, of the coercions of a nonempty finite family of reals is the coercion of their maximum. -/
theorem fold_max_coe {ι : Type*} [Fintype ι] [Nonempty ι] (f : ι → ℝ) :
    (Finset.univ : Finset ι).fold max (⊥ : EReal) (fun k => (f k : EReal))
      = ((Finset.univ.sup' Finset.univ_nonempty f : ℝ) : EReal) := by
  have h1 : (Finset.univ : Finset ι).fold max (⊥ : EReal) (fun k => (f k : EReal))
      = Finset.univ.sup (fun k => (f k : EReal)) := rfl
  rw [h1, ← Finset.sup'_eq_sup Finset.univ_nonempty]
  exact (Finset.comp_sup'_eq_sup'_comp Finset.univ_nonempty (fun r : ℝ => (r : EReal)) (fun x y => EReal.coe_strictMono.monotone.map_sup x y)).symm

/-- The exponential of a real. -/
theorem exp_coe (r : ℝ) : Ideal.exp (r : EReal) = ((Real.exp r : ℝ) : EReal) := rfl

/-- The exponential of -∞ less a real is zero. -/
theorem exp_bot_sub_coe (r : ℝ) : Ideal.exp ((⊥ : EReal) - (r : EReal)) = 0 := by
  rw [EReal.bot_sub]
  rfl

/-- A quotient of reals by a nonzero real. -/
theorem div_coe_coe (a b : ℝ) (hb : b ≠ 0) : Ideal.div (a : EReal) (b : EReal) = ((a / b : ℝ) : EReal) := by
  rw [Ideal.div_coe hb, ← EReal.coe_mul]
  congr 1
  field_simp

/-- An extended real that is neither infinity is the coercion of a real. -/
theorem exists_real {x : EReal} (h1 : x ≠ ⊤) (h2 : x ≠ ⊥) : ∃ r : ℝ, x = (r : EReal) :=
  ⟨x.toReal, (EReal.coe_toReal h1 h2).symm⟩

/-- A float pattern whose exponent field is not all ones (neither an infinity nor a NaN) denotes a real number. -/
theorem ieee_real (e m : Nat) {w : Nat} (b : BitVec w) (h : (b.extractLsb' m e).toNat ≠ 2 ^ e - 1) :
    ∃ r : ℝ, Ideal.ieee e m b = (r : EReal) := by
  unfold Ideal.ieee
  dsimp only
  rw [if_neg h]
  split
  · exact ⟨_, rfl⟩
  · exact ⟨_, rfl⟩

/-- The f32 word nearest 1/5 denotes a real number. -/
theorem scale_real : ∃ r : ℝ, Ideal.ofBits .f32 0x3E4CCCCD#32 = (r : EReal) :=
  ieee_real 8 23 (0x3E4CCCCD#32 : BitVec 32) (by decide)

/-- The f32 word nearest 10/9 denotes a real number. -/
theorem keep_real : ∃ r : ℝ, Ideal.ofBits .f32 0x3F8E38E4#32 = (r : EReal) :=
  ieee_real 8 23 (0x3F8E38E4#32 : BitVec 32) (by decide)

end Cert.LibCoe

end
-- ==== Proof.LibLayerLaw.lean ====
import Idealize.ShloMosaic.Lib.ValueIdx
import Idealize.ShloMosaic.PureOps.Ideal
import proofs.«160187_j35459249995962_2_alg».proof.Proof.LibRowScatter
import proofs.«160187_j35459249995962_2_alg».proof.Proof.LibRowGather
import proofs.«160187_j35459249995962_2_alg».proof.Proof.LibCoe
import proofs.«160187_j35459249995962_2_alg».proof.Proof.LayerSpec

/-!
# Aggregating before or after the weight: one graph-convolution layer, entry by entry

A layer gathers the rows of a feature matrix at the edges' source nodes, scales each gathered row by its edge's
coefficient, and accumulates the rows at the edges' target nodes. One program multiplies the features by the layer's
weight BEFORE this aggregation and then adds the bias, subtracts the running mean, multiplies by the inverse standard
deviation and by gamma, adds beta and clamps at zero. The other aggregates the raw features, multiplies the aggregate
by the weight AFTERWARDS, and applies the same affine map folded into one scale `gamma * r` and one offset
`beta - (mean - bias) * (gamma * r)`. When the features, the weight, the edge coefficients and the five rows are
real numbers the two agree at every entry: aggregation is a finite sum of real multiples of rows, so it commutes with
the product by the weight (`agg_law`), and the two affine forms are equal by the ring laws. The result is again real.
-/

noncomputable section

namespace Cert.LibLayerLaw

open Idealize.ShloMosaic Idealize.ShloMosaic.ValueIdx Cert.LibRowScatter Cert.LibRowGather Cert.LayerSpec

/-- The row accumulation read at an entry: the operand entry plus the sum, over the update rows whose index word read
    signed is the entry's row, of the update row's entry in the same column. -/
theorem scatterRows_apply {N E D w : Nat} (wf : ScatterDims.WF ⟨2, ![N, D]⟩ ⟨2, ![E, 1]⟩ ⟨2, ![E, D]⟩ [1] [0] [0] 1)
    (X : (⟨2, ![N, D]⟩ : Shape).Idx → EReal) (idx : IVec ⟨2, ![E, 1]⟩ w) (U : (⟨2, ![E, D]⟩ : Shape).Idx → EReal) (n : Fin N) (o : Fin D) :
    Ideal.hostScatterAdd (sdims2 N E D wf) X idx U (ix2 n o)
      = X (ix2 n o) + ∑ e ∈ Finset.univ.filter (fun e : Fin E => (idx (ix2 e (0 : Fin 1))).toInt = (n.val : Int)), U (ix2 e o) := by
  unfold Ideal.hostScatterAdd
  congr 1
  symm
  refine Finset.sum_bij (fun e _ => ix2 e o) ?_ ?_ ?_ ?_
  · intro e he
    rw [Finset.mem_filter] at he ⊢
    refine ⟨Finset.mem_univ _, ?_⟩
    rw [resultIdx2]
    exact ⟨he.2, rfl⟩
  · intro e _ e' _ h
    exact Fin.ext (congrArg (fun f : (⟨2, ![E, D]⟩ : Shape).Idx => (f 0).val) h)
  · intro j hj
    rw [Finset.mem_filter] at hj
    have h2 := (resultIdx2 wf j idx (ix2 n o)).mp hj.2
    refine ⟨⟨(j 0).val, idx2_lt0 j⟩, Finset.mem_filter.mpr ⟨Finset.mem_univ _, h2.1⟩, ?_⟩
    funext a
    match a with
    | ⟨0, _⟩ => exact Fin.ext rfl
    | ⟨1, _⟩ => exact Fin.ext h2.2.symm
  · intro e _; rfl

/-- The coercion of the reals into the extended reals commutes with the maximum. -/
theorem coe_max (a b : ℝ) : ((max a b : ℝ) : EReal) = max (a : EReal) (b : EReal) :=
  EReal.coe_strictMono.monotone.map_max

/-- Aggregation commutes with the product by the weight: over the reals, the sum over `k` of the aggregate of column
    `k` times the weight entry is the aggregate of the product rows. -/
theorem agg_law {ι : Type} (A : Finset ι) {K : Nat} (hh : ι → Fin K → ℝ) (ν : ι → ℝ) (Wc : Fin K → ℝ) :
    ∑ k : Fin K, ((0 : EReal) + ∑ e ∈ A, ((hh e k : ℝ) : EReal) * ((ν e : ℝ) : EReal)) * ((Wc k : ℝ) : EReal)
      = ((∑ e ∈ A, (∑ k : Fin K, hh e k * Wc k) * ν e : ℝ) : EReal) := by
  simp only [zero_add, ← EReal.coe_mul, ← Cert.LibCoe.coe_sum]
  congr 1
  simp only [Finset.sum_mul]
  rw [Finset.sum_comm]
  refine Finset.sum_congr rfl fun e _ => Finset.sum_congr rfl fun k _ => by ring

/-- The same aggregate on the other side: the product rows aggregated. -/
theorem agg_law' {ι : Type} (A : Finset ι) {K : Nat} (hh : ι → Fin K → ℝ) (ν : ι → ℝ) (Wc : Fin K → ℝ) :
    (0 : EReal) + ∑ e ∈ A, (∑ k : Fin K, ((hh e k : ℝ) : EReal) * ((Wc k : ℝ) : EReal)) * ((ν e : ℝ) : EReal)
      = ((∑ e ∈ A, (∑ k : Fin K, hh e k * Wc k) * ν e : ℝ) : EReal) := by
  simp only [zero_add, ← EReal.coe_mul, ← Cert.LibCoe.coe_sum]

/-- ONE LAYER: aggregate-then-multiply with the folded affine map equals multiply-then-aggregate with the affine map
    applied step by step, at every entry, and the common value is real. -/
theorem layer_eq {N E D K w : Nat} (hN : 0 < N)
    (wfSK : ScatterDims.WF ⟨2, ![N, K]⟩ ⟨2, ![E, 1]⟩ ⟨2, ![E, K]⟩ [1] [0] [0] 1)
    (wfSD : ScatterDims.WF ⟨2, ![N, D]⟩ ⟨2, ![E, 1]⟩ ⟨2, ![E, D]⟩ [1] [0] [0] 1)
    (wfGK : GatherDims.WF ⟨2, ![N, K]⟩ ⟨2, ![E, 1]⟩ ⟨2, ![E, K]⟩ [1] [0] [] [0] [] 1 ![1, K])
    (wfGD : GatherDims.WF ⟨2, ![N, D]⟩ ⟨2, ![E, 1]⟩ ⟨2, ![E, D]⟩ [1] [0] [] [0] [] 1 ![1, D])
    (h : (⟨2, ![N, K]⟩ : Shape).Idx → EReal) (W : (⟨2, ![K, D]⟩ : Shape).Idx → EReal) (P : (⟨2, ![N, D]⟩ : Shape).Idx → EReal)
    (src dst : IVec ⟨2, ![E, 1]⟩ w)
    (nK : (⟨2, ![E, K]⟩ : Shape).Idx → EReal) (nD : (⟨2, ![E, D]⟩ : Shape).Idx → EReal)
    (sc off : (⟨2, ![1, D]⟩ : Shape).Idx → EReal)
    (ZK : (⟨2, ![N, K]⟩ : Shape).Idx → EReal) (ZD : (⟨2, ![N, D]⟩ : Shape).Idx → EReal)
    (h' : Fin N → Fin K → ℝ) (hh : ∀ n k, h (ix2 n k) = ((h' n k : ℝ) : EReal))
    (W' : Fin K → Fin D → ℝ) (hW : ∀ k j, W (ix2 k j) = ((W' k j : ℝ) : EReal))
    (hP : ∀ n j, P (ix2 n j) = ∑ k : Fin K, h (ix2 n k) * W (ix2 k j))
    (ν : Fin E → ℝ) (hnK : ∀ e k, nK (ix2 e k) = ((ν e : ℝ) : EReal)) (hnD : ∀ e j, nD (ix2 e j) = ((ν e : ℝ) : EReal))
    (hZK : ∀ i, ZK i = 0) (hZD : ∀ i, ZD i = 0)
    (b μ r γ β : Fin D → ℝ)
    (hsc : ∀ j, sc (ix2 (0 : Fin 1) j) = ((γ j * r j : ℝ) : EReal))
    (hoff : ∀ j, off (ix2 (0 : Fin 1) j) = ((β j - (μ j - b j) * (γ j * r j) : ℝ) : EReal))
    (n : Fin N) (j : Fin D) (bj mj rj gj bej : EReal)
    (hb : bj = ((b j : ℝ) : EReal)) (hm : mj = ((μ j : ℝ) : EReal)) (hr : rj = ((r j : ℝ) : EReal)) (hg : gj = ((γ j : ℝ) : EReal))
    (hbe : bej = ((β j : ℝ) : EReal)) :
    dense (Ideal.hostScatterAdd (sdims2 N E K wfSK) ZK dst (fun i => Host.gather (dims2 N E K wfGK) h src i * nK i)) W sc off (ix2 n j)
      = max ((((Ideal.hostScatterAdd (sdims2 N E D wfSD) ZD dst (fun i => Host.gather (dims2 N E D wfGD) P src i * nD i) (ix2 n j)
          + bj) - mj) * rj) * gj + bej) 0
    ∧ ∃ v : ℝ, dense (Ideal.hostScatterAdd (sdims2 N E K wfSK) ZK dst (fun i => Host.gather (dims2 N E K wfGK) h src i * nK i)) W sc off (ix2 n j) = (v : EReal) := by
  -- the common aggregate, as a real number
  set A : Finset (Fin E) := Finset.univ.filter (fun e : Fin E => (dst (ix2 e (0 : Fin 1))).toInt = (n.val : Int)) with hA
  set t : ℝ := ∑ e ∈ A, (∑ k : Fin K, h' (row N hN (src (ix2 e (0 : Fin 1)))) k * W' k j) * ν e with ht
  have hL : ∑ k : Fin K, Ideal.hostScatterAdd (sdims2 N E K wfSK) ZK dst (fun i => Host.gather (dims2 N E K wfGK) h src i * nK i) (ix2 n k) * W (ix2 k j) = (t : EReal) := by
    rw [← agg_law A (fun e k => h' (row N hN (src (ix2 e (0 : Fin 1)))) k) ν (fun k => W' k j)]
    refine Finset.sum_congr rfl fun k _ => ?_
    rw [scatterRows_apply, hZK, hW]
    refine congrArg (fun x => (0 + x) * _) (Finset.sum_congr rfl fun e _ => ?_)
    show Host.gather (dims2 N E K wfGK) h src (ix2 e k) * nK (ix2 e k) = _
    rw [gather2_apply hN, hh, hnK]
  have hR : Ideal.hostScatterAdd (sdims2 N E D wfSD) ZD dst (fun i => Host.gather (dims2 N E D wfGD) P src i * nD i) (ix2 n j) = (t : EReal) := by
    rw [← agg_law' A (fun e k => h' (row N hN (src (ix2 e (0 : Fin 1)))) k) ν (fun k => W' k j)]
    rw [scatterRows_apply, hZD]
    refine congrArg (fun x => 0 + x) (Finset.sum_congr rfl fun e _ => ?_)
    show Host.gather (dims2 N E D wfGD) P src (ix2 e j) * nD (ix2 e j) = _
    rw [gather2_apply hN, hP, hnD]
    refine congrArg (· * _) (Finset.sum_congr rfl fun k _ => ?_)
    rw [hh, hW]
  have hval : dense (Ideal.hostScatterAdd (sdims2 N E K wfSK) ZK dst (fun i => Host.gather (dims2 N E K wfGK) h src i * nK i)) W sc off (ix2 n j)
      = ((max (t * (γ j * r j) + (β j - (μ j - b j) * (γ j * r j))) 0 : ℝ) : EReal) := by
    rw [dense_ix2, hL, hsc, hoff, ← EReal.coe_mul, ← EReal.coe_add, ← EReal.coe_zero, ← coe_max]
  refine ⟨?_, _, hval⟩
  rw [hval, hR, hb, hm, hr, hg, hbe, ← EReal.coe_add, ← EReal.coe_sub, ← EReal.coe_mul, ← EReal.coe_mul, ← EReal.coe_add,
    ← EReal.coe_zero, ← coe_max]
  congr 2
  ring

end Cert.LibLayerLaw

end
-- ==== Proof.KIParams.lean ====
/-
  The per-layer parameters read at a channel. A layer's row of a stacked [3, 128] parameter, cut out as a slice
  [ℓ : ℓ+1, 0 : 128] and reshaped to a list of 128, reads at channel j the stacked parameter at (ℓ, j); the layer's
  weight, cut out of the stacked [3, 128, 128] weights and reshaped to [128, 128], reads at (k, j) the stacked weights
  at (ℓ, k, j). When all entries of the parameters are real numbers and the variances are non-negative, var + eps is a
  positive real (eps is the positive real the pattern 0x3727C5AC denotes), so its inverse square root is the real
  (√(var + eps))⁻¹; the folded scale row is then the real γ · r and the folded offset row the real β - (μ - b) · (γ · r).
-/
import proofs.«160187_j35459249995962_2_alg».proof.Proof.KIStages
import proofs.«160187_j35459249995962_2_alg».proof.Proof.LibCoe
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.ValueIdx

/-- A layer's row of a stacked parameter, as a list, read at a channel. -/
theorem vecRow_apply (x : FVec Ideal S3x128 .f32) (ℓ : Fin 3) (h : S3x128.Slices ![ℓ.val, 0] S1x128) (j : Fin 128) :
    vecRow x ![ℓ.val, 0] h (ix1 j) = x (ix2 ℓ j) := by
  unfold vecRow
  rw [shapeCast_apply _ shapeCasts_S1x128_S128 (ix1 j) (ix2 (0 : Fin 1) j)
    (by rewrite [Shape.rowMajor_val_two, Shape.rowMajor_val_one]; show 0 * 128 + j.val = j.val; omega)]
  exact extractStridedSlice_apply ![ℓ.val, 0] x h (ix2 (0 : Fin 1) j) (ix2 ℓ j) (fun a => match a with
    | ⟨0, _⟩ => by show ℓ.val = ℓ.val + 0; omega
    | ⟨1, _⟩ => by show j.val = 0 + j.val; omega)

/-- A layer's weight, cut out of the stacked weights, read at an entry. -/
theorem wMat_apply (x3 : FVec Ideal S3x128x128 .f32) (ℓ : Fin 3) (h : S3x128x128.Slices ![ℓ.val, 0, 0] S1x128x128) (k j : Fin 128) :
    wMat x3 ![ℓ.val, 0, 0] h (ix2 k j) = x3 (ix3 ℓ k j) := by
  unfold wMat
  rw [shapeCast_apply _ shapeCasts_S1x128x128_S128x128 (ix2 k j) (ix3 (0 : Fin 1) k j)
    (by rewrite [Shape.rowMajor_val_three, Shape.rowMajor_val_two]; show (0 * 128 + k.val) * 128 + j.val = k.val * 128 + j.val; omega)]
  exact extractStridedSlice_apply ![ℓ.val, 0, 0] x3 h (ix3 (0 : Fin 1) k j) (ix3 ℓ k j) (fun a => match a with
    | ⟨0, _⟩ => by show ℓ.val = ℓ.val + 0; omega
    | ⟨1, _⟩ => by show k.val = 0 + k.val; omega
    | ⟨2, _⟩ => by show j.val = 0 + j.val; omega)

/-- A list of 128 as a 1 x 128 row, read at a channel. -/
theorem asRow_apply (v : FVec Ideal S128 .f32) (j : Fin 128) : asRow v (ix2 (0 : Fin 1) j) = v (ix1 j) := by
  unfold asRow
  exact shapeCast_apply v shapeCasts_S128_S1x128 (ix2 (0 : Fin 1) j) (ix1 j)
    (by rewrite [Shape.rowMajor_val_one, Shape.rowMajor_val_two]; show j.val = 0 * 128 + j.val; omega)

/-- The folded scale read at a channel: gamma times the inverse square root of the variance plus eps. -/
theorem scaleV_apply (x5 x8 : FVec Ideal S3x128 .f32) (off : Fin 2 → Nat) (h : S3x128.Slices off S1x128) (i : S128.Idx) :
    scaleV x5 x8 off h i = vecRow x5 off h i * Ideal.rsqrt (vecRow x8 off h i + Ideal.ofBits .f32 925353388#32) := rfl

/-- The folded offset read at a channel: beta less (mean less bias) times the scale. -/
theorem offsetV_apply (x4 x5 x6 x7 x8 : FVec Ideal S3x128 .f32) (off : Fin 2 → Nat) (h : S3x128.Slices off S1x128) (i : S128.Idx) :
    offsetV x4 x5 x6 x7 x8 off h i = vecRow x6 off h i - (vecRow x7 off h i - vecRow x4 off h i) * scaleV x5 x8 off h i := rfl

/-- An f32 pattern with a clear sign bit whose exponent field is neither zero nor all ones denotes a positive real. -/
theorem ieee_pos (b : BitVec 32) (hs : (b.extractLsb' (8 + 23) 1 == 1#1) = false)
    (he : (b.extractLsb' 23 8).toNat ≠ 2 ^ 8 - 1) (h0 : (b.extractLsb' 23 8).toNat ≠ 0) :
    ∃ e : ℝ, 0 < e ∧ Ideal.ieee 8 23 b = (e : EReal) := by
  unfold Ideal.ieee
  dsimp only
  rw [if_neg he, if_neg h0, hs]
  refine ⟨_, ?_, rfl⟩
  simp only [Bool.false_eq_true, if_false]
  positivity

/-- The constant eps is a positive real. -/
theorem eps_pos : ∃ e : ℝ, 0 < e ∧ Ideal.ofBits .f32 925353388#32 = (e : EReal) :=
  ieee_pos (925353388#32 : BitVec 32) (by decide) (by decide) (by decide)

/-- THE LAYER'S PARAMETERS AS REALS: the bias, running mean, gamma and beta rows are real lists; the inverse square root
    of the variance plus eps is a real list; the folded scale row is gamma · r and the folded offset row is
    beta - (mean - bias) · (gamma · r). -/
theorem params (x4 x5 x6 x7 x8 : FVec Ideal S3x128 .f32) (ℓ : Fin 3) (h : S3x128.Slices ![ℓ.val, 0] S1x128)
    (r4 : ∀ i, ∃ r : ℝ, x4 i = (r : EReal)) (r5 : ∀ i, ∃ r : ℝ, x5 i = (r : EReal)) (r6 : ∀ i, ∃ r : ℝ, x6 i = (r : EReal))
    (r7 : ∀ i, ∃ r : ℝ, x7 i = (r : EReal)) (r8 : ∀ i, ∃ r : ℝ, x8 i = (r : EReal)) (n8 : ∀ i, (0 : EReal) ≤ x8 i) :
    ∃ b μ r γ β : Fin 128 → ℝ,
      (∀ j, x4 (ix2 ℓ j) = ((b j : ℝ) : EReal)) ∧ (∀ j, x7 (ix2 ℓ j) = ((μ j : ℝ) : EReal)) ∧ (∀ j, x5 (ix2 ℓ j) = ((γ j : ℝ) : EReal)) ∧ (∀ j, x6 (ix2 ℓ j) = ((β j : ℝ) : EReal))
      ∧ (∀ j, Ideal.rsqrt (x8 (ix2 ℓ j) + Ideal.ofBits .f32 925353388#32) = ((r j : ℝ) : EReal))
      ∧ (∀ j, asRow (scaleV x5 x8 ![ℓ.val, 0] h) (ix2 (0 : Fin 1) j) = ((γ j * r j : ℝ) : EReal))
      ∧ (∀ j, asRow (offsetV x4 x5 x6 x7 x8 ![ℓ.val, 0] h) (ix2 (0 : Fin 1) j) = ((β j - (μ j - b j) * (γ j * r j) : ℝ) : EReal)) := by
  obtain ⟨e, he0, he⟩ := eps_pos
  -- the five rows as real lists
  choose b hb using fun j : Fin 128 => r4 (ix2 ℓ j)
  choose μ hμ using fun j : Fin 128 => r7 (ix2 ℓ j)
  choose γ hγ using fun j : Fin 128 => r5 (ix2 ℓ j)
  choose β hβ using fun j : Fin 128 => r6 (ix2 ℓ j)
  choose v hv using fun j : Fin 128 => r8 (ix2 ℓ j)
  -- the variance plus eps is a positive real
  have hv0 : ∀ j, 0 ≤ v j := fun j => by
    have := n8 (ix2 ℓ j)
    rw [hv j] at this
    exact EReal.coe_nonneg.1 this
  have hpos : ∀ j, 0 < v j + e := fun j => by have := hv0 j; linarith
  have hr : ∀ j, Ideal.rsqrt (x8 (ix2 ℓ j) + Ideal.ofBits .f32 925353388#32) = (((Real.sqrt (v j + e))⁻¹ : ℝ) : EReal) := fun j => by
    rw [hv j, he, ← EReal.coe_add, Ideal.rsqrt_coe, if_neg (not_lt.2 (le_of_lt (hpos j))), if_neg (ne_of_gt (hpos j))]
  have hs : ∀ j, scaleV x5 x8 ![ℓ.val, 0] h (ix1 j) = ((γ j * (Real.sqrt (v j + e))⁻¹ : ℝ) : EReal) := fun j => by
    rw [scaleV_apply, vecRow_apply, vecRow_apply, hr j, hγ j, EReal.coe_mul]
  refine ⟨b, μ, fun j => (Real.sqrt (v j + e))⁻¹, γ, β, hb, hμ, hγ, hβ, hr, fun j => ?_, fun j => ?_⟩
  · rw [asRow_apply, hs j]
  · rw [asRow_apply, offsetV_apply, vecRow_apply, vecRow_apply, vecRow_apply, hs j, hβ j, hμ j, hb j,
      ← EReal.coe_sub, ← EReal.coe_mul, ← EReal.coe_sub]

end Cert.KernelIdeal.Hand

end
-- ==== Proof.LibGather1.lean ====
/-
  Gathering entries of a list by a list of positions, read at an entry.

  `x[idx]` for a list `x` of `N` entries and `idx` a list of `E` positions held as an `E×1` array of index
  words is a gather whose slices are single entries: the slice size is `1`, the one operand axis is collapsed and
  is the axis the start index names, and the result has no slice axis. Result entry `e` is therefore `x` at the
  position the word `idx[e, 0]` names, the word read as a SIGNED integer and clamped so that the slice fits: into
  `[0, N − 1]` (a negative word gives position `0`, a word past the end the last position).
-/
import Idealize.ShloMosaic.Lib.ValueIdx

noncomputable section

namespace Cert.LibGather1

open Idealize.ShloMosaic Idealize.ShloMosaic.ValueIdx

/-- The position an index word names: read as a signed integer and clamped into [0, N − 1]. -/
def pos (N : Nat) (hN : 0 < N) {w : Nat} (b : BitVec w) : Fin N := ⟨min b.toInt.toNat (N - 1), by omega⟩

/-- The dimension numbers of the gather of single entries of a list of `N` at an `E×1` array of positions, with a
    result of `E` entries. -/
abbrev dims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather read at `e`: the list at the position the word `idx[e, 0]` names (signed, clamped into
    `[0, N − 1]`). On the one operand axis the coordinate is the clamped start alone: a collapsed axis has no
    offset, and nothing is batched. -/
theorem gather1_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (dims1 N E wf) x idx (ix1 e) = x (ix1 (pos N hN (idx (ix2 e (0 : Fin 1))))) := by
  unfold Host.gather
  congr 1
  funext a
  refine Fin.ext ?_
  match a with
  | ⟨0, h0⟩ =>
    show (dims1 N E wf).start (ix1 e) idx ⟨0, h0⟩ + (dims1 N E wf).batchCoord (ix1 e) ⟨0, h0⟩
      + (dims1 N E wf).offCoord (ix1 e) ⟨0, h0⟩ = _
    rw [GatherDims.batchCoord_eq_zero _ _ _ List.not_mem_nil,
      GatherDims.offCoord_eq_zero _ _ _ (fun h => ((GatherDims.mem_sKept _ _).mp h).1 (List.mem_singleton.mpr (Fin.ext rfl)))]
    simp only [Nat.add_zero]
    unfold GatherDims.start
    rw [dif_pos (show (⟨0, h0⟩ : Fin 1) ∈ (dims1 N E wf).startIndexMap from List.mem_singleton.mpr (Fin.ext rfl))]
    have hsi : (dims1 N E wf).siIdx (ix1 e) ⟨List.idxOf (⟨0, h0⟩ : Fin 1) (dims1 N E wf).startIndexMap,
        List.idxOf_lt_length_iff.2 (List.mem_singleton.mpr (Fin.ext rfl))⟩ = ix2 e (0 : Fin 1) := by
      funext b; refine Fin.ext ?_
      match b with
      | ⟨0, _⟩ => rfl
      | ⟨1, _⟩ => rfl
    rw [hsi]
    rfl

end Cert.LibGather1

end
-- ==== Proof.NormReal.lean ====
/-
  The edge normalisation of a graph convolution with self-loops is a real number at every edge.

  From an edge list of 800000 (source, destination) pairs over 50000 nodes, the reference appends one self-loop per
  node (positions 800000 + n carry the pair (n, n)), counts the degree of every node by accumulating a one at each
  destination into a list of zeros, takes the inverse square root of the degrees, and sets the normalisation of edge e
  to dinv[src e] * dinv[dst e].

  In the exact model the accumulation's entry n is 0 plus the sum of the ones at the positions whose destination word
  names n: the number of such positions, a real number. The self-loop position 800000 + n has destination word n
  (it falls in the second piece of the joined list, which counts 0, 1, 2, ...), and a word below 50000 read signed
  is the number itself, so that position lands on n and the count is at least 1 ("deg_real"). The inverse square root
  of a positive real is a real ("dinv_real"). A gather of single entries reads the list at some position, whatever the
  index words are, so each factor is an entry of dinv ("gather_real"), and the product of two reals is a real
  ("norm_real").

  The landing condition of the rank-1 accumulation is computed for all extents ("sdims1", "resultIdx1"): the single
  operand axis is an inserted window axis (window coordinate 0) whose start is the index word of the update position,
  read signed.
-/
import proofs.«160187_j35459249995962_2_alg».proof.Proof.Gen.ReferenceIdeal.Read
import proofs.«160187_j35459249995962_2_alg».proof.Proof.LibGather1
import proofs.«160187_j35459249995962_2_alg».proof.Proof.LibRowScatter
import proofs.«160187_j35459249995962_2_alg».proof.Proof.LibCoe
import Idealize.ShloMosaic.Lib.IdealHost

noncomputable section

namespace Cert.Proof.NormReal

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-- The dimension numbers of the accumulation of E single updates into a list of N entries: E scatter indices of one
    component each, naming a position (operand axis 0, the inserted window axis); the updates have no window axis. -/
abbrev sdims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section
variable {N E w : Nat} (wf : ScatterDims.WF ⟨1, ![N]⟩ ⟨2, ![E, 1]⟩ ⟨1, ![E]⟩ [] [0] [0] 1)

/-- The one operand axis is an inserted window axis: its window coordinate is 0. -/
theorem window1_0 (j : (⟨1, ![E]⟩ : Shape).Idx) : (sdims1 N E wf).window j 0 = 0 := rfl

/-- Update e reads its start index at position (e, 0) of the scatter indices. -/
theorem siIdx1 (j : (⟨1, ![E]⟩ : Shape).Idx) (c : Fin 1) : (sdims1 N E wf).siIdx j c = ix2 (j 0) (0 : Fin 1) := by
  funext b; refine Fin.ext ?_
  match b with
  | ⟨0, _⟩ => rfl
  | ⟨1, _⟩ => exact congrArg Fin.val (Subsingleton.elim (α := Fin 1) _ _)

/-- The operand axis starts at the index word of update e, read signed. -/
theorem start1_0 (j : (⟨1, ![E]⟩ : Shape).Idx) (idx : IVec ⟨2, ![E, 1]⟩ w) :
    (sdims1 N E wf).start j idx 0 = (idx (ix2 (j 0) (0 : Fin 1))).toInt := by
  unfold ScatterDims.start
  rw [dif_pos (show (0 : Fin 1) ∈ (sdims1 N E wf).scatterDimsToOperandDims from List.mem_singleton.mpr rfl)]
  rw [siIdx1]
  rfl

/-- Update e lands on entry n exactly when its index word, read signed, is n. -/
theorem resultIdx1 (j : (⟨1, ![E]⟩ : Shape).Idx) (idx : IVec ⟨2, ![E, 1]⟩ w) (i : (⟨1, ![N]⟩ : Shape).Idx) :
    (sdims1 N E wf).resultIdx? j idx = some i ↔ (idx (ix2 (j 0) (0 : Fin 1))).toInt = ((i 0).val : Int) := by
  rw [Cert.LibRowScatter.resultIdx?_eq_some_iff]
  constructor
  · intro h
    have h0 := h 0
    rw [start1_0, window1_0] at h0
    omega
  · intro h0 a
    match a with
    | ⟨0, _⟩ =>
      show (sdims1 N E wf).start j idx 0 + ((sdims1 N E wf).window j 0 : Int) = ((i 0).val : Int)
      rw [start1_0, window1_0]; omega

end

/-- The reference's accumulation has these dimension numbers, at N = 50000 and E = 850000. -/
theorem sd_eq : scatter_S50000_S850000x1_S850000_n_0_0_1 = sdims1 50000 850000 Facts₀.scatter_S50000_S850000x1_S850000_n_0_0_1_wf := rfl

/-- The reference's two gathers are gathers of single entries of a list of 50000 at 850000 positions. -/
theorem gd_eq : gather_S50000_S850000x1_S850000_n_0_n_n_0_1_1 = Cert.LibGather1.dims1 50000 850000 Facts₀.gather_S50000_S850000x1_S850000_n_0_n_n_0_1_1_wf := rfl

/-- A finite sum of ones, added to zero, is the number of its terms. -/
theorem zero_add_sum_one {ι : Type} (S : Finset ι) : (0 : EReal) + ∑ _j ∈ S, (1 : EReal) = ((S.card : ℝ) : EReal) := by
  rw [zero_add, Finset.sum_const, nsmul_one]; rfl

/-- Accumulating ones into zeros: entry n of the result is a real number, at least 1 as soon as one position's
    index word names n. -/
theorem scatter_ones_real {N E w : Nat} (wf : ScatterDims.WF ⟨1, ![N]⟩ ⟨2, ![E, 1]⟩ ⟨1, ![E]⟩ [] [0] [0] 1)
    (idx : IVec ⟨2, ![E, 1]⟩ w) (n : Fin N) (e : Fin E)
    (he : (idx (ix2 e (0 : Fin 1))).toInt = (n.val : Int)) :
    ∃ c : ℝ, 1 ≤ c ∧ Ideal.hostScatterAdd (sdims1 N E wf) (fun _ => (0 : EReal)) idx (fun _ => (1 : EReal)) (ix1 n) = (c : EReal) := by
  unfold Ideal.hostScatterAdd
  refine ⟨_, ?_, zero_add_sum_one _⟩
  refine Nat.one_le_cast.mpr (Finset.card_pos.mpr ⟨ix1 e, ?_⟩)
  rw [Finset.mem_filter]
  exact ⟨Finset.mem_univ _, (resultIdx1 wf _ idx _).mpr he⟩

/-- Joining a list of A entries and a list of B entries: position A + n of the result is entry n of the second list. -/
theorem concat_right {α : Type} {A B C : Nat} (x₁ : (⟨1, ![A]⟩ : Shape).Idx → α) (x₂ : (⟨1, ![B]⟩ : Shape).Idx → α)
    (h : Shape.Concatenates [(⟨1, ![A]⟩ : Shape), ⟨1, ![B]⟩] ⟨1, ![C]⟩ 0) (j : (⟨1, ![C]⟩ : Shape).Idx) (n : Fin B)
    (hj : n.val + A = (j 0).val) :
    concatenate ⟨1, ![C]⟩ 0 [⟨⟨1, ![A]⟩, x₁⟩, ⟨⟨1, ![B]⟩, x₂⟩] h j = x₂ (ix1 n) := by
  refine concatenate_pair_apply_right (t := ⟨1, ![C]⟩) (s₁ := ⟨1, ![A]⟩) (s₂ := ⟨1, ![B]⟩) (0 : Fin 1) x₁ x₂ h j rfl rfl (ix1 n) ?_ hj
  intro b hb; exact absurd (Subsingleton.elim _ _) hb

/-- The destination word of the self-loop position 800000 + n is the word n. -/
theorem v9_self (x1 : (⟨S2x800000, .i32⟩ : BufTy).Contents (Elt Ideal)) (n : Fin 50000) :
    val_main_v9 (F := Ideal) x1 (ix2 (⟨800000 + n.val, by omega⟩ : Fin 850000) (0 : Fin 1)) = BitVec.ofNat 32 n.val := by
  rw [val_main_v9_apply]
  unfold val_main_v6
  exact concat_right _ _ concatenates_S800000_S50000_S850000_d0 _ n (by show n.val + 800000 = 800000 + n.val; omega)

/-- The degrees, in the exact model: the accumulation of the ones at the destination words into the zeros. -/
theorem deg_eq (x1 : (⟨S2x800000, .i32⟩ : BufTy).Contents (Elt Ideal)) :
    val_main_v10 (F := Ideal) x1 = Ideal.hostScatterAdd scatter_S50000_S850000x1_S850000_n_0_0_1 (val_main_v8 (F := Ideal)) (val_main_v9 (F := Ideal) x1) (val_main_v7 (F := Ideal)) := rfl

/-- The accumulation's operand is zero everywhere. -/
theorem v8_eq : val_main_v8 (F := Ideal) = fun _ => (0 : EReal) := by
  funext i
  rw [val_main_v8_apply, val_main_cst_0_apply]
  exact Ideal.ofBits_zero_f32

/-- The accumulation's updates are one everywhere. -/
theorem v7_eq : val_main_v7 (F := Ideal) = fun _ => (1 : EReal) := by
  funext i
  rw [val_main_v7_apply, val_main_cst_apply]
  exact Ideal.ofBits_one_f32

/-- A 32-bit word holding a number below 50000 reads, signed, as that number. -/
theorem toInt_ofNat_small (n : Nat) (h : n < 50000) : (BitVec.ofNat 32 n).toInt = (n : Int) := by
  rw [BitVec.toInt_eq_toNat_cond, BitVec.toNat_ofNat]
  have : n % 2 ^ 32 = n := Nat.mod_eq_of_lt (by omega)
  rw [this]
  rw [if_pos (by omega)]

/-- (a) Every degree is a real number, at least 1: the self-loop of node n lands on n. -/
theorem deg_real (x1 : (⟨S2x800000, .i32⟩ : BufTy).Contents (Elt Ideal)) (n : Fin 50000) :
    ∃ c : ℝ, 1 ≤ c ∧ val_main_v10 (F := Ideal) x1 (ix1 n) = (c : EReal) := by
  rw [deg_eq, sd_eq, v8_eq, v7_eq]
  refine scatter_ones_real _ _ n ⟨800000 + n.val, by omega⟩ ?_
  rw [v9_self, toInt_ofNat_small _ n.isLt]

/-- (b) Every entry of the inverse square root of the degrees is a real number: the degree is a positive real. -/
theorem dinv_real (x1 : (⟨S2x800000, .i32⟩ : BufTy).Contents (Elt Ideal)) (j : S50000.Idx) :
    ∃ r : ℝ, val_main_v11 (F := Ideal) x1 j = (r : EReal) := by
  obtain ⟨n, rfl⟩ : ∃ n : Fin 50000, j = ix1 n := ⟨j 0, eq_ix1 j⟩
  obtain ⟨c, hc, h⟩ := deg_real x1 n
  have hpos : 0 < c := lt_of_lt_of_le one_pos hc
  rw [val_main_v11_apply, h, Ideal.hostUnary_rsqrt_def, Ideal.rsqrt_coe, if_neg (not_lt.mpr hpos.le), if_neg (ne_of_gt hpos)]
  exact ⟨_, rfl⟩

/-- (c) A gather of single entries of the inverse square roots reads one of them, whichever the index words are. -/
theorem gather_real (x1 : (⟨S2x800000, .i32⟩ : BufTy).Contents (Elt Ideal)) (idx : IVec S850000x1 32) (i : S850000.Idx) :
    ∃ r : ℝ, Host.gather gather_S50000_S850000x1_S850000_n_0_n_n_0_1_1 (val_main_v11 (F := Ideal) x1) idx i = (r : EReal) := by
  obtain ⟨e, rfl⟩ : ∃ e : Fin 850000, i = ix1 e := ⟨i 0, eq_ix1 i⟩
  rw [gd_eq, Cert.LibGather1.gather1_apply (by omega : 0 < 50000)]
  exact dinv_real x1 _

/-- The source factor of every edge is a real number. -/
theorem v18_real (x1 : (⟨S2x800000, .i32⟩ : BufTy).Contents (Elt Ideal)) (i : S850000.Idx) :
    ∃ r : ℝ, val_main_v18 (F := Ideal) x1 i = (r : EReal) :=
  gather_real x1 (val_main_v17 (F := Ideal) x1) i

/-- The destination factor of every edge is a real number. -/
theorem v25_real (x1 : (⟨S2x800000, .i32⟩ : BufTy).Contents (Elt Ideal)) (i : S850000.Idx) :
    ∃ r : ℝ, val_main_v25 (F := Ideal) x1 i = (r : EReal) :=
  gather_real x1 (val_main_v24 (F := Ideal) x1) i

/-- (d) The normalisation of every edge is a real number: a product of two real numbers. -/
theorem norm_real (x1 : (⟨Cert.ReferenceIdeal.S2x800000, .i32⟩ : BufTy).Contents (Elt Ideal)) (i : Cert.ReferenceIdeal.S850000.Idx) :
    ∃ r : ℝ, Cert.ReferenceIdeal.Read.val_main_v26 (F := Ideal) x1 i = (r : EReal) := by
  obtain ⟨a, ha⟩ := v18_real x1 i
  obtain ⟨b, hb⟩ := v25_real x1 i
  refine ⟨a * b, ?_⟩
  rw [val_main_v26_apply, ha, hb, Ideal.mulf_def, EReal.coe_mul]

end Cert.Proof.NormReal

end
-- ==== Proof.RefLayers.lean ====
/-
  One graph-convolution layer of the reference, as a function of its input features, and its value at an entry.

  The reference's three layers are the same composition applied to different inputs. A layer takes node features H
  (50000 x 128), multiplies them by its 128 x 128 weight matrix (slice ℓ of a stack of three), sends along every edge
  the source node's row of the product scaled by the edge's normalisation, accumulates the rows at the edges'
  destination nodes, adds the bias row, subtracts the stored mean row, multiplies by the inverse square root of the
  stored variance row plus a small constant, multiplies by the scale row, adds the shift row, and clamps below at
  zero. The five rows are rows ℓ of five stacks of three rows of 128.

  "rLayer" is that composition with the slice offsets as parameters; "l1", "l2", "l3" say that the three layers of the
  reference are "rLayer" at the input features, at the first layer's result and at the second layer's result, with
  rows 0, 1, 2: the stages of the reference unfold to exactly these terms (the later layers restate the index,
  coefficient and zero arrays, as identical terms).

  "rLayer_apply" reads a layer at entry (n, j) in the exact model: every pointwise operation is the extended reals'
  operation on the entries, a row repeated down the 50000 rows reads its entry j ("rBc_apply"), a row of a stack reads
  the stack at (ℓ, j) ("rVec_apply"), and the accumulation is the zero array plus the sum of the message entries that
  land on (n, j) ("rAgg_eq"). "rProd_apply" reads the product with the weight matrix as the sum over k of
  H (n, k) * W (ℓ, k, j), and "coef_apply" says that the coefficient array repeats an edge's normalisation along the
  columns.
-/
import proofs.«160187_j35459249995962_2_alg».proof.Proof.Gen.ReferenceIdeal.Read
import proofs.«160187_j35459249995962_2_alg».proof.Proof.LibRowScatter
import proofs.«160187_j35459249995962_2_alg».proof.Proof.LibRowGather
import proofs.«160187_j35459249995962_2_alg».proof.Proof.LibPlainDot
import Idealize.ShloMosaic.Lib.IdealHost

noncomputable section

namespace Cert.Proof.RefLayers

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

section Defs
variable {F : FTy → Type} [FloatOps F]

/-- The weight matrix of a layer: one 128 x 128 slice of the stack of three, with the unit axis dropped. -/
def rW (x3 : (⟨S3x128x128, .f32⟩ : BufTy).Contents (Elt F)) (off3 : Fin 3 → Nat) (h3 : S3x128x128.Slices off3 S1x128x128) :
    (⟨S128x128, .f32⟩ : BufTy).Contents (Elt F) :=
  shapeCast _ (extractStridedSlice S1x128x128 off3 x3 h3) shapeCasts_S1x128x128_S128x128

/-- The product of the input features with a layer's weight matrix. -/
def rProd (H : (⟨S50000x128, .f32⟩ : BufTy).Contents (Elt F)) (x3 : (⟨S3x128x128, .f32⟩ : BufTy).Contents (Elt F))
    (off3 : Fin 3 → Nat) (h3 : S3x128x128.Slices off3 S1x128x128) : (⟨S50000x128, .f32⟩ : BufTy).Contents (Elt F) :=
  Host.dotGeneral dot_S50000x128_S128x128_S50000x128_1_0_0_1_n_n none H (rW x3 off3 h3)

/-- One row of a stack of three rows of 128, as a list of 128. -/
def rVec (x : (⟨S3x128, .f32⟩ : BufTy).Contents (Elt F)) (off2 : Fin 2 → Nat) (h2 : S3x128.Slices off2 S1x128) :
    (⟨S128, .f32⟩ : BufTy).Contents (Elt F) :=
  shapeCast _ (extractStridedSlice S1x128 off2 x h2) shapeCasts_S1x128_S128

/-- A list of 128 repeated down the 50000 rows. -/
def rBc (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The messages of a layer: every edge carries its source row of the product, scaled by the edge's normalisation. -/
def rMsg (H : (⟨S50000x128, .f32⟩ : BufTy).Contents (Elt F)) (x1 : (⟨S2x800000, .i32⟩ : BufTy).Contents (Elt F))
    (x3 : (⟨S3x128x128, .f32⟩ : BufTy).Contents (Elt F)) (off3 : Fin 3 → Nat) (h3 : S3x128x128.Slices off3 S1x128x128) :
    (⟨S850000x128, .f32⟩ : BufTy).Contents (Elt F) :=
  mulf (Host.gather gather_S50000x128_S850000x1_S850000x128_1_0_n_n_0_1_1128 (rProd H x3 off3 h3) (val_main_v35 (F := F) x1))
    (val_main_v38 (F := F) x1)

/-- The aggregated messages of a layer: the message rows accumulated at the edges' destinations. -/
def rAgg (H : (⟨S50000x128, .f32⟩ : BufTy).Contents (Elt F)) (x1 : (⟨S2x800000, .i32⟩ : BufTy).Contents (Elt F))
    (x3 : (⟨S3x128x128, .f32⟩ : BufTy).Contents (Elt F)) (off3 : Fin 3 → Nat) (h3 : S3x128x128.Slices off3 S1x128x128) :
    (⟨S50000x128, .f32⟩ : BufTy).Contents (Elt F) :=
  Host.scatterAdd scatter_S50000x128_S850000x1_S850000x128_1_0_0_1 (val_main_v40 (F := F)) (val_main_v41 (F := F) x1)
    (rMsg H x1 x3 off3 h3)

/-- The inverse standard deviation of a layer's normalisation: the inverse square root of the stored variance plus
    a small constant. -/
def rInvStd (x8 : (⟨S3x128, .f32⟩ : BufTy).Contents (Elt F)) (off2 : Fin 2 → Nat) (h2 : S3x128.Slices off2 S1x128) :
    (⟨S128, .f32⟩ : BufTy).Contents (Elt F) :=
  Host.rsqrt (addf (rVec x8 off2 h2) (val_main_v55 (F := F)))

/-- One layer: aggregate, add the bias, normalise with the stored mean and variance, scale, shift, and clamp below
    at zero. -/
def rLayer (H : (⟨S50000x128, .f32⟩ : BufTy).Contents (Elt F)) (x1 : (⟨S2x800000, .i32⟩ : BufTy).Contents (Elt F))
    (x3 : (⟨S3x128x128, .f32⟩ : BufTy).Contents (Elt F)) (x4 x5 x6 x7 x8 : (⟨S3x128, .f32⟩ : BufTy).Contents (Elt F))
    (off3 : Fin 3 → Nat) (h3 : S3x128x128.Slices off3 S1x128x128) (off2 : Fin 2 → Nat) (h2 : S3x128.Slices off2 S1x128) :
    (⟨S50000x128, .f32⟩ : BufTy).Contents (Elt F) :=
  maximumf
    (addf
      (mulf
        (mulf
          (subf (addf (rAgg H x1 x3 off3 h3) (rBc (rVec x4 off2 h2))) (rBc (rVec x7 off2 h2)))
          (rBc (rInvStd x8 off2 h2)))
        (rBc (rVec x5 off2 h2)))
      (rBc (rVec x6 off2 h2)))
    (val_main_call0_v0 (F := F))

end Defs

section
variable (x0 : (⟨S50000x128, .f32⟩ : BufTy).Contents (Elt Ideal)) (x1 : (⟨S2x800000, .i32⟩ : BufTy).Contents (Elt Ideal))
  (x3 : (⟨S3x128x128, .f32⟩ : BufTy).Contents (Elt Ideal)) (x4 x5 x6 x7 x8 : (⟨S3x128, .f32⟩ : BufTy).Contents (Elt Ideal))

/-- The first layer is the layer function at the input features and row 0 of every stack. -/
theorem l1 : val_main_v71 (F := Ideal) x0 x1 x3 x4 x5 x6 x7 x8
    = rLayer x0 x1 x3 x4 x5 x6 x7 x8 ![0, 0, 0] slices_S3x128x128_S1x128x128_0_0_0 ![0, 0] slices_S3x128_S1x128_0_0 := rfl

/-- The second layer is the layer function at the first layer's result and row 1 of every stack. -/
theorem l2 : val_main_v116 (F := Ideal) x0 x1 x3 x4 x5 x6 x7 x8
    = rLayer (val_main_v71 (F := Ideal) x0 x1 x3 x4 x5 x6 x7 x8) x1 x3 x4 x5 x6 x7 x8 ![1, 0, 0] slices_S3x128x128_S1x128x128_1_0_0 ![1, 0] slices_S3x128_S1x128_1_0 := rfl

/-- The third layer is the layer function at the second layer's result and row 2 of every stack. -/
theorem l3 : val_main_v161 (F := Ideal) x0 x1 x3 x4 x5 x6 x7 x8
    = rLayer (val_main_v116 (F := Ideal) x0 x1 x3 x4 x5 x6 x7 x8) x1 x3 x4 x5 x6 x7 x8 ![2, 0, 0] slices_S3x128x128_S1x128x128_2_0_0 ![2, 0] slices_S3x128_S1x128_2_0 := rfl

end

/-! ## One layer read at an entry -/

section Layout
variable {F : FTy → Type} [FloatOps F]

/-- Entry j of row ℓ of a stack of three rows. -/
theorem rVec_apply (x : (⟨S3x128, .f32⟩ : BufTy).Contents (Elt F)) (ℓ : Fin 3) (h2 : S3x128.Slices ![ℓ.val, 0] S1x128)
    (j : Fin 128) : rVec x ![ℓ.val, 0] h2 (ix1 j) = x (ix2 ℓ j) := by
  unfold rVec
  rw [shapeCast_apply _ shapeCasts_S1x128_S128 (ix1 j) (ix2 (0 : Fin 1) j)
    (by rewrite [Shape.rowMajor_val_two, Shape.rowMajor_val_one]; show 0 * 128 + j.val = j.val; omega)]
  exact extractStridedSlice_apply ![ℓ.val, 0] x h2 (ix2 (0 : Fin 1) j) (ix2 ℓ j) (fun a => match a with
    | ⟨0, _⟩ => by show ℓ.val = ℓ.val + 0; omega
    | ⟨1, _⟩ => by show j.val = 0 + j.val; omega)

/-- A list repeated down the rows, read at (n, j): its entry j. -/
theorem rBc_apply (v : (⟨S128, .f32⟩ : BufTy).Contents (Elt F)) (n : Fin 50000) (j : Fin 128) :
    rBc v (ix2 n j) = v (ix1 j) := by
  unfold rBc
  rw [broadcastInDim_apply _ bcast_S1x128_S50000x128_0_1 _ (ix2 n j) (ix2 (0 : Fin 1) j) (fun a => match a with
    | ⟨0, _⟩ => by show 0 = if (1 : Nat) = 1 then 0 else n.val; rw [if_pos rfl]
    | ⟨1, _⟩ => by show j.val = if (128 : Nat) = 1 then 0 else j.val; rw [if_neg (by decide)])]
  exact broadcastInDim_apply _ bcast_S128_S1x128_1 v (ix2 (0 : Fin 1) j) (ix1 j) (fun a => match a with
    | ⟨0, _⟩ => by show j.val = if (128 : Nat) = 1 then 0 else j.val; rw [if_neg (by decide)])

/-- Entry (k, j) of the weight matrix of layer ℓ. -/
theorem rW_apply (x3 : (⟨S3x128x128, .f32⟩ : BufTy).Contents (Elt F)) (ℓ : Fin 3)
    (h3 : S3x128x128.Slices ![ℓ.val, 0, 0] S1x128x128) (k j : Fin 128) :
    rW x3 ![ℓ.val, 0, 0] h3 (ix2 k j) = x3 (ix3 ℓ k j) := by
  unfold rW
  rw [shapeCast_apply _ shapeCasts_S1x128x128_S128x128 (ix2 k j) (ix3 (0 : Fin 1) k j)
    (by rewrite [Shape.rowMajor_val_three, Shape.rowMajor_val_two]; show (0 * 128 + k.val) * 128 + j.val = k.val * 128 + j.val; omega)]
  exact extractStridedSlice_apply ![ℓ.val, 0, 0] x3 h3 (ix3 (0 : Fin 1) k j) (ix3 ℓ k j) (fun a => match a with
    | ⟨0, _⟩ => by show ℓ.val = ℓ.val + 0; omega
    | ⟨1, _⟩ => by show k.val = 0 + k.val; omega
    | ⟨2, _⟩ => by show j.val = 0 + j.val; omega)

/-- The coefficient array repeats each edge's normalisation along the 128 columns. -/
theorem coef_apply (x1 : (⟨S2x800000, .i32⟩ : BufTy).Contents (Elt F)) (e : Fin 850000) (j : Fin 128) :
    val_main_v38 (F := F) x1 (ix2 e j) = val_main_v26 (F := F) x1 (ix1 e) := by
  rw [val_main_v38_apply, val_main_v37_apply]
  exact congrArg (val_main_v26 (F := F) x1) (funext fun a => match a with | ⟨0, _⟩ => rfl)

end Layout

/-- The zero array the messages are accumulated into is zero. -/
theorem zero_apply (i : S50000x128.Idx) : val_main_v40 (F := Ideal) i = 0 := by
  rw [val_main_v40_apply, val_main_cst_6_apply]
  exact Ideal.ofBits_zero_f32

/-- The zero array of the final clamp is zero. -/
theorem relu_zero_apply (i : S50000x128.Idx) : val_main_call0_v0 (F := Ideal) i = 0 := by
  rw [val_main_call0_v0_apply, val_main_call0_cst_apply]
  exact Ideal.ofBits_zero_f32

/-- The small constant added to the variance. -/
theorem eps_apply (i : S128.Idx) : val_main_v55 (F := Ideal) i = Ideal.ofBits .f32 925353388#32 := by
  rw [val_main_v55_apply, val_main_cst_7_apply]
  rfl

/-- The product with the weight matrix of layer ℓ, read at (n, j). -/
theorem rProd_apply (ℓ : Fin 3) (h3 : S3x128x128.Slices ![ℓ.val, 0, 0] S1x128x128)
    (H : (⟨S50000x128, .f32⟩ : BufTy).Contents (Elt Ideal)) (x3 : (⟨S3x128x128, .f32⟩ : BufTy).Contents (Elt Ideal))
    (n : Fin 50000) (j : Fin 128) :
    rProd H x3 ![ℓ.val, 0, 0] h3 (ix2 n j) = ∑ k : Fin 128, H (ix2 n k) * x3 (ix3 ℓ k j) := by
  have hW : ∀ k : Fin 128, rW x3 ![ℓ.val, 0, 0] h3 (ix2 k j) = x3 (ix3 ℓ k j) := fun k => rW_apply x3 ℓ h3 k j
  unfold rProd
  generalize rW x3 ![ℓ.val, 0, 0] h3 = W at hW
  simp only [Host.dotGeneral]
  rw [Ideal.dotGeneral_apply, Cert.LibPlainDot.sum_plain dot_S50000x128_S128x128_S50000x128_1_0_0_1_n_n rfl rfl rfl rfl rfl rfl H W n j]
  exact Finset.sum_congr rfl fun k _ => by rw [hW]

section Entry
variable (H : (⟨S50000x128, .f32⟩ : BufTy).Contents (Elt Ideal)) (x1 : (⟨S2x800000, .i32⟩ : BufTy).Contents (Elt Ideal))
  (x3 : (⟨S3x128x128, .f32⟩ : BufTy).Contents (Elt Ideal)) (x4 x5 x6 x7 x8 : (⟨S3x128, .f32⟩ : BufTy).Contents (Elt Ideal))

/-- The aggregated messages in the exact model: the zero array plus, at each entry, the sum of the message entries
    whose edge has that destination row; the message entry of edge e and column o is the gathered product entry
    times the edge's normalisation. -/
theorem rAgg_eq (off3 : Fin 3 → Nat) (h3 : S3x128x128.Slices off3 S1x128x128) :
    rAgg H x1 x3 off3 h3
      = Ideal.hostScatterAdd (Cert.LibRowScatter.sdims2 50000 850000 128 scatter_S50000x128_S850000x1_S850000x128_1_0_0_1.wf)
          (val_main_v40 (F := Ideal)) (val_main_v41 (F := Ideal) x1)
          (fun i => (Host.gather (Cert.LibRowGather.dims2 50000 850000 128 gather_S50000x128_S850000x1_S850000x128_1_0_n_n_0_1_1128.wf)
            (rProd H x3 off3 h3) (val_main_v35 (F := Ideal) x1) i : EReal) * (val_main_v38 (F := Ideal) x1 i : EReal)) := rfl

/-- Entry j of the inverse standard deviation of layer ℓ. -/
theorem rInvStd_apply (ℓ : Fin 3) (h2 : S3x128.Slices ![ℓ.val, 0] S1x128) (j : Fin 128) :
    rInvStd x8 ![ℓ.val, 0] h2 (ix1 j) = Ideal.rsqrt ((x8 (ix2 ℓ j) : EReal) + Ideal.ofBits .f32 925353388#32) := by
  show FloatOps.hostUnary .rsqrt (addf (rVec x8 ![ℓ.val, 0] h2) (val_main_v55 (F := Ideal)) (ix1 j)) = _
  rw [Ideal.hostUnary_rsqrt_def, addf_apply, rVec_apply, eps_apply]

/-- THE LAYER AT AN ENTRY. Entry (n, j) of a layer's result: the aggregated messages plus the bias, less the mean,
    times the inverse standard deviation, times the scale, plus the shift, clamped below at zero; the five rows are
    rows ℓ of their stacks. -/
theorem rLayer_apply (ℓ : Fin 3) (h3 : S3x128x128.Slices ![ℓ.val, 0, 0] S1x128x128) (h2 : S3x128.Slices ![ℓ.val, 0] S1x128)
    (n : Fin 50000) (j : Fin 128) :
    rLayer H x1 x3 x4 x5 x6 x7 x8 ![ℓ.val, 0, 0] h3 ![ℓ.val, 0] h2 (ix2 n j)
      = max (((((Ideal.hostScatterAdd (Cert.LibRowScatter.sdims2 50000 850000 128 scatter_S50000x128_S850000x1_S850000x128_1_0_0_1.wf)
          (val_main_v40 (F := Ideal)) (val_main_v41 (F := Ideal) x1)
          (fun i => (Host.gather (Cert.LibRowGather.dims2 50000 850000 128 gather_S50000x128_S850000x1_S850000x128_1_0_n_n_0_1_1128.wf)
            (rProd H x3 ![ℓ.val, 0, 0] h3) (val_main_v35 (F := Ideal) x1) i : EReal) * (val_main_v38 (F := Ideal) x1 i : EReal)) (ix2 n j)
        + (x4 (ix2 ℓ j) : EReal)) - (x7 (ix2 ℓ j) : EReal)) * Ideal.rsqrt ((x8 (ix2 ℓ j) : EReal) + Ideal.ofBits .f32 925353388#32))
        * (x5 (ix2 ℓ j) : EReal)) + (x6 (ix2 ℓ j) : EReal)) 0 := by
  unfold rLayer
  rw [maximumf_apply, addf_apply, mulf_apply, mulf_apply, subf_apply, addf_apply,
    rBc_apply, rBc_apply, rBc_apply, rBc_apply, rBc_apply, rInvStd_apply,
    rVec_apply, rVec_apply, rVec_apply, rVec_apply, relu_zero_apply, rAgg_eq]

end Entry

end Cert.Proof.RefLayers

end
-- ==== Proof.Bridge.lean ====
import proofs.«160187_j35459249995962_2_alg».proof.Proof.LibLayerLaw
import proofs.«160187_j35459249995962_2_alg».proof.Proof.KILayer
import proofs.«160187_j35459249995962_2_alg».proof.Proof.KIParams
import proofs.«160187_j35459249995962_2_alg».proof.Proof.NormReal
import proofs.«160187_j35459249995962_2_alg».proof.Proof.RefLayers

set_option maxRecDepth 16384

/-!
# One layer of the two programs is one function of real-valued features

The kernel program aggregates the previous features and multiplies the aggregate by the layer's weight inside its
region, with bias, running statistics, gamma and beta folded into one scale and one offset; the reference multiplies
first, aggregates after, and applies the affine map step by step. Both read the same edge words and the same edge
coefficients. Under the precondition every argument entry is real and the running variance is non-negative, the edge
coefficients are real (every node has its self-loop), so for real-valued previous features the two layers agree at
every entry and the result is real again.
-/

noncomputable section

namespace Cert.Proof.Bridge

open Idealize.ShloMosaic Idealize.ShloMosaic.TcCoe Idealize.ShloMosaic.ValueIdx Cert.LayerSpec
open Cert.KernelIdeal.Hand Cert.Proof.RefLayers Cert.ReferenceIdeal.Read

/-- The two programs gather at the same index words, -/
theorem src_eq (x1 : IVec Cert.KernelIdeal.S2x800000 32) : gIdx (srcW x1) = val_main_v35 (F := Ideal) x1 := rfl
/-- accumulate at the same index words, -/
theorem dst_eq (x1 : IVec Cert.KernelIdeal.S2x800000 32) : sIdx (dstW x1) = val_main_v41 (F := Ideal) x1 := rfl
/-- compute the same column of edge coefficients, -/
theorem normCol_eq (x1 : IVec Cert.KernelIdeal.S2x800000 32) : normCol x1 = val_main_v37 (F := Ideal) x1 := rfl
/-- scale by the same edge coefficients, -/
theorem norm_eq (x1 : IVec Cert.KernelIdeal.S2x800000 32) :
    broadcastInDim Cert.KernelIdeal.S850000x128 ![0, 1] Cert.KernelIdeal.Facts₀.bcast_S850000x1_S850000x128_0_1 (normCol x1) = val_main_v38 (F := Ideal) x1 := by
  rw [normCol_eq]
  rfl
/-- The kernel program's aggregation is the row accumulation of the scaled gathered rows (the widening of the gathered
    narrow rows is the identity over the extended reals). -/
theorem agg_eq (hb : FVec Ideal Cert.KernelIdeal.S50000x128 .bf16) (x1 : IVec Cert.KernelIdeal.S2x800000 32) :
    agg hb (srcW x1) (dstW x1) (normCol x1)
      = Ideal.hostScatterAdd (Cert.LibRowScatter.sdims2 50000 850000 128 Cert.KernelIdeal.scatter_S50000x128_S850000x1_S850000x128_1_0_0_1.wf) zeroND (val_main_v41 (F := Ideal) x1)
          (fun i => Host.gather (Cert.LibRowGather.dims2 50000 850000 128 Cert.KernelIdeal.gather_S50000x128_S850000x1_S850000x128_1_0_n_n_0_1_1128.wf) hb (val_main_v35 (F := Ideal) x1) i
            * val_main_v38 (F := Ideal) x1 i) := by
  unfold agg
  rw [src_eq, dst_eq, norm_eq]
  rfl
/-- and accumulate into the same zero array. -/
theorem zero_eq : zeroND = val_main_v40 (F := Ideal) := rfl

set_option maxHeartbeats 4000000 in
/-- ONE LAYER. -/
theorem layer_bridge (ℓ : Fin 3)
    (h3k : Cert.KernelIdeal.S3x128x128.Slices ![ℓ.val, 0, 0] Cert.KernelIdeal.S1x128x128) (h2k : Cert.KernelIdeal.S3x128.Slices ![ℓ.val, 0] Cert.KernelIdeal.S1x128)
    (h3r : Cert.ReferenceIdeal.S3x128x128.Slices ![ℓ.val, 0, 0] Cert.ReferenceIdeal.S1x128x128) (h2r : Cert.ReferenceIdeal.S3x128.Slices ![ℓ.val, 0] Cert.ReferenceIdeal.S1x128)
    (H : FVec Ideal Cert.KernelIdeal.S50000x128 .f32) (x1 : IVec Cert.KernelIdeal.S2x800000 32) (x3 : FVec Ideal Cert.KernelIdeal.S3x128x128 .f32)
    (x4 x5 x6 x7 x8 : FVec Ideal Cert.KernelIdeal.S3x128 .f32)
    (hH : ∀ i, ∃ r : ℝ, H i = (r : EReal)) (r3 : ∀ i, ∃ r : ℝ, x3 i = (r : EReal))
    (r4 : ∀ i, ∃ r : ℝ, x4 i = (r : EReal)) (r5 : ∀ i, ∃ r : ℝ, x5 i = (r : EReal)) (r6 : ∀ i, ∃ r : ℝ, x6 i = (r : EReal))
    (r7 : ∀ i, ∃ r : ℝ, x7 i = (r : EReal)) (r8 : ∀ i, ∃ r : ℝ, x8 i = (r : EReal)) (n8 : ∀ i, (0 : EReal) ≤ x8 i) :
    kLayer H x1 x3 x4 x5 x6 x7 x8 ![ℓ.val, 0, 0] h3k ![ℓ.val, 0] h2k = rLayer (F := Ideal) H x1 x3 x4 x5 x6 x7 x8 ![ℓ.val, 0, 0] h3r ![ℓ.val, 0] h2r
    ∧ ∀ i, ∃ r : ℝ, kLayer H x1 x3 x4 x5 x6 x7 x8 ![ℓ.val, 0, 0] h3k ![ℓ.val, 0] h2k i = (r : EReal) := by
  obtain ⟨b, μ, r, γ, β, hb, hm, hg, hbe, hr, hsc, hoff⟩ := params x4 x5 x6 x7 x8 ℓ h2k r4 r5 r6 r7 r8 n8
  choose h' hh using fun (n : Fin 50000) (k : Fin 128) => hH (ix2 n k)
  choose W' hW using fun (k : Fin 128) (j : Fin 128) => r3 (ix3 ℓ k j)
  choose ν hν using fun (e : Fin 850000) => Cert.Proof.NormReal.norm_real x1 (ix1 e)
  have key := fun (n : Fin 50000) (j : Fin 128) =>
    Cert.LibLayerLaw.layer_eq (N := 50000) (E := 850000) (D := 128) (K := 128) (by decide)
      Cert.KernelIdeal.scatter_S50000x128_S850000x1_S850000x128_1_0_0_1.wf Cert.ReferenceIdeal.scatter_S50000x128_S850000x1_S850000x128_1_0_0_1.wf
      Cert.KernelIdeal.gather_S50000x128_S850000x1_S850000x128_1_0_n_n_0_1_1128.wf Cert.ReferenceIdeal.gather_S50000x128_S850000x1_S850000x128_1_0_n_n_0_1_1128.wf
      (truncf .bf16 H Cert.KernelIdeal.Facts₀.bitsLt_bf16_f32) (wMat x3 ![ℓ.val, 0, 0] h3k) (rProd (F := Ideal) H x3 ![ℓ.val, 0, 0] h3r)
      (val_main_v35 (F := Ideal) x1) (val_main_v41 (F := Ideal) x1) (val_main_v38 (F := Ideal) x1) (val_main_v38 (F := Ideal) x1)
      (asRow (scaleV x5 x8 ![ℓ.val, 0] h2k)) (asRow (offsetV x4 x5 x6 x7 x8 ![ℓ.val, 0] h2k)) zeroND (val_main_v40 (F := Ideal))
      h' (fun n k => hh n k) W' (fun k j => (wMat_apply x3 ℓ h3k k j).trans (hW k j))
      (fun n j => (rProd_apply ℓ h3r H x3 n j).trans (Finset.sum_congr rfl fun k _ => by rw [wMat_apply x3 ℓ h3k k j]; rfl))
      ν (fun e k => (coef_apply x1 e k).trans (hν e)) (fun e j => (coef_apply x1 e j).trans (hν e))
      (fun i => (congrFun zero_eq i).trans (zero_apply i)) (fun i => zero_apply i)
      b μ r γ β hsc hoff n j (x4 (ix2 ℓ j)) (x7 (ix2 ℓ j)) (Ideal.rsqrt (x8 (ix2 ℓ j) + Ideal.ofBits .f32 925353388#32)) (x5 (ix2 ℓ j)) (x6 (ix2 ℓ j))
      (hb j) (hm j) (hr j) (hg j) (hbe j)
  refine ⟨funext fun i => ?_, fun i => ?_⟩
  · obtain ⟨n, j, rfl⟩ : ∃ (n : Fin 50000) (j : Fin 128), i = ix2 n j := ⟨i 0, i 1, eq_ix2 i⟩
    rw [rLayer_apply H x1 x3 x4 x5 x6 x7 x8 ℓ h3r h2r n j]
    show dense (agg (truncf .bf16 H Cert.KernelIdeal.Facts₀.bitsLt_bf16_f32) (srcW x1) (dstW x1) (normCol x1)) (wMat x3 ![ℓ.val, 0, 0] h3k)
      (asRow (scaleV x5 x8 ![ℓ.val, 0] h2k)) (asRow (offsetV x4 x5 x6 x7 x8 ![ℓ.val, 0] h2k)) (ix2 n j) = _
    rw [agg_eq]
    exact (key n j).1
  · obtain ⟨n, j, rfl⟩ : ∃ (n : Fin 50000) (j : Fin 128), i = ix2 n j := ⟨i 0, i 1, eq_ix2 i⟩
    show ∃ r : ℝ, dense (agg (truncf .bf16 H Cert.KernelIdeal.Facts₀.bitsLt_bf16_f32) (srcW x1) (dstW x1) (normCol x1)) (wMat x3 ![ℓ.val, 0, 0] h3k)
      (asRow (scaleV x5 x8 ![ℓ.val, 0] h2k)) (asRow (offsetV x4 x5 x6 x7 x8 ![ℓ.val, 0] h2k)) (ix2 n j) = (r : EReal)
    rw [agg_eq]
    exact (key n j).2

end Cert.Proof.Bridge

end
-- ==== Proof.PreFacts.lean ====
/-
  The precondition read back at the extended reals. The printed predicate is a conjunction of ten one-bit words:
  for each of the nine float arguments x, "every entry satisfies max x (-x) < +∞" (a comparison per entry, folded
  by "and" over all axes from the constant 1), and for the argument of index 8 (the running variances) also "every
  entry is ≥ 0". A conjunction of bits that is 1 has every bit 1; a fold by "and" that is 1 met only 1s; and an
  extended real x with max x (-x) < ⊤ is neither ⊤ nor ⊥, hence the coercion of a real number. The bit pattern
  0x7F800000 denotes ⊤ and the pattern 0x00000000 denotes 0.
-/
import proofs.«160187_j35459249995962_2_alg».proof.Defs
import proofs.«160187_j35459249995962_2_alg».proof.Proof.LibCoe
import Idealize.ShloMosaic.Lib.ReduceAll
import Idealize.ShloMosaic.Lib.ValueIdx

noncomputable section

namespace Cert.Proof.PreFacts

open Idealize.ShloMosaic Idealize.ShloMosaic.ValueIdx
open Cert.Pre_finite_inputs

/-- The scalar shape has one index. -/
instance : Subsingleton S_.Idx := ⟨fun a b => funext fun d => d.elim0⟩

/-- The pattern of +∞ denotes ⊤. -/
theorem ofBits_inf : Ideal.ofBits .f32 0x7F800000#32 = (⊤ : EReal) := by simp [Ideal.ofBits, Ideal.ieee]

/-- An extended real whose absolute value (the greater of x and -x) is below ⊤ is a real number. -/
theorem real_of_abs_lt_top (x : EReal) (h : max x (-x) < ⊤) : ∃ r : ℝ, x = (r : EReal) := by
  rw [max_lt_iff] at h
  refine Cert.LibCoe.exists_real (ne_of_lt h.1) ?_
  intro hx
  rw [hx] at h
  simp at h

/-- A one-bit word made from a proposition is 1 exactly when the proposition holds. -/
theorem ofBool_decide_eq_one (p : Prop) [Decidable p] : BitVec.ofBool (decide p) = 1#1 ↔ p := by
  by_cases hp : p <;> simp [hp]

/-- "All entries finite", read back over any shape: if the fold by "and" of the entrywise |a| < +∞ is 1,
    every entry of a is a real number. -/
theorem real_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .olt (Host.absf a) (broadcastInDim s ![] hb (constant (F := Ideal) S_ .f32 0x7F800000#32)))
          (constantI S_ 1 1#1) hr hu ix0 = 1#1) :
    ∀ i, ∃ r : ℝ, a i = (r : EReal) := by
  intro i
  have h := Host.reduce_andi_all _ _ hr hu ix0 e i
  have h' : Ideal.cmp .olt (max (a i : EReal) (-(a i : EReal))) (Ideal.ofBits .f32 0x7F800000#32) = 1#1 := h
  rw [ofBits_inf] at h'
  unfold Ideal.cmp at h'
  exact real_of_abs_lt_top _ ((ofBool_decide_eq_one _).1 h')

/-- The pattern of zero denotes 0. -/
theorem ofBits_zero : Ideal.ofBits .f32 0x00000000#32 = (0 : EReal) := by simp [Ideal.ofBits, Ideal.ieee]

/-- "All entries ≥ 0", read back over any shape. -/
theorem nonneg_of_all {s : Shape} {axes : List (Fin s.rank)} (hb : S_.BroadcastsInDim s (![] : Fin 0 → Fin s.rank))
    (hr : s.ReducesTo axes S_) (hu : 0 < S_.numel) (a : FVec Ideal s .f32)
    (e : Host.reduce IntOp.andi (cmpf .oge a (broadcastInDim s ![] hb (constant (F := Ideal) S_ .f32 0x00000000#32)))
          (constantI S_ 1 1#1) hr hu ix0 = 1#1) :
    ∀ i, (0 : EReal) ≤ a i := by
  intro i
  have h := Host.reduce_andi_all _ _ hr hu ix0 e i
  have h' : Ideal.cmp .oge (a i : EReal) (Ideal.ofBits .f32 0x00000000#32) = 1#1 := h
  rw [ofBits_zero] at h'
  unfold Ideal.cmp at h'
  exact (ofBool_decide_eq_one _).1 h'

/-- THE PRECONDITION DECODED: every entry of every float argument is a real number, and every entry of the argument
    of index 8 (the running variances) is non-negative. -/
theorem of_pre [Cert.Pre_finite_inputs.Facts]
    (a0 : FVec Ideal Cert.Pre_finite_inputs.S50000x128 .f32) (a1 : IVec Cert.Pre_finite_inputs.S2x800000 32) (a2 : IVec Cert.Pre_finite_inputs.S50000 32)
    (a3 : FVec Ideal Cert.Pre_finite_inputs.S3x128x128 .f32) (a4 a5 a6 a7 a8 : FVec Ideal Cert.Pre_finite_inputs.S3x128 .f32)
    (a9 : FVec Ideal Cert.Pre_finite_inputs.S512x10 .f32) (a10 : FVec Ideal Cert.Pre_finite_inputs.S10 .f32)
    (h : Cert.Pre_finite_inputs.fn (F := Ideal) a0 a1 a2 a3 a4 a5 a6 a7 a8 a9 a10 = fun _ => 1#1) :
    (∀ i, ∃ r : ℝ, a0 i = (r : EReal)) ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) ∧ (∀ i, ∃ r : ℝ, a9 i = (r : EReal))
    ∧ (∀ i, ∃ r : ℝ, a10 i = (r : EReal)) ∧ (∀ i, (0 : EReal) ≤ a8 i) := by
  have e := congrFun h ix0
  dsimp only [fn, fn_part1, fn_part2] at e
  simp only [andi] at e
  simp only [IntOp.andi_eq_one] at e
  obtain ⟨⟨⟨⟨⟨⟨⟨⟨⟨e0, e3⟩, e4⟩, e5⟩, e6⟩, e7⟩, e8⟩, e9⟩, e10⟩, e8'⟩ := e
  exact ⟨real_of_all _ _ _ a0 e0, real_of_all _ _ _ a3 e3, real_of_all _ _ _ a4 e4, real_of_all _ _ _ a5 e5,
    real_of_all _ _ _ a6 e6, real_of_all _ _ _ a7 e7, real_of_all _ _ _ a8 e8, real_of_all _ _ _ a9 e9,
    real_of_all _ _ _ a10 e10, nonneg_of_all _ _ _ a8 e8'⟩

end Cert.Proof.PreFacts

end
-- ==== Proof.Alg.lean ====
import proofs.«160187_j35459249995962_2_alg».proof.Defs
import proofs.«160187_j35459249995962_2_alg».proof.Proof.KIChain
import proofs.«160187_j35459249995962_2_alg».proof.Proof.Bridge
import proofs.«160187_j35459249995962_2_alg».proof.Proof.Tail
import proofs.«160187_j35459249995962_2_alg».proof.Proof.PreFacts
import proofs.«160187_j35459249995962_2_alg».proof.Proof.RefLayers
import proofs.«160187_j35459249995962_2_alg».proof.Proof.Gen.ReferenceIdeal.Read

set_option maxRecDepth 16384

/-!
# The two idealised programs compute one function

From memories agreeing on the arguments both programs run to the end. The kernel program's result is the log-softmax
of the head of the pooled features of the input and of its three layers' results; the reference's is the same
composition over its own three layers. Under the precondition the input features are real, so layer by layer the two
programs' layers agree and stay real; the two ways of pooling (pool each array and join, or join and pool) agree
entry by entry; the head and the log-softmax are the same operations on equal arrays.
-/

noncomputable section

namespace Cert.Proof.Alg

open Idealize.ShloMosaic Idealize.ShloMosaic.TcCoe Idealize.SL.Sem
open Cert.KernelIdeal.Hand Cert.Proof.RefLayers Cert.ReferenceIdeal.Read Cert.Proof.Bridge Cert.Proof.Tail

/-- The head is the same composition in both programs. -/
theorem head_eq (x0 x1 x2 x3 x4 x5 x6 x7 x8 x9 x10) :
    headK (val_main_v174 (F := Ideal) x0 x1 x2 x3 x4 x5 x6 x7 x8) x9 x10 = val_main_v178 (F := Ideal) x0 x1 x2 x3 x4 x5 x6 x7 x8 x9 x10 := rfl
/-- The log-softmax is the same composition in both programs. -/
theorem ls_eq (x0 x1 x2 x3 x4 x5 x6 x7 x8 x9 x10) :
    lsK (val_main_v178 (F := Ideal) x0 x1 x2 x3 x4 x5 x6 x7 x8 x9 x10) = val_main_v179 (F := Ideal) x0 x1 x2 x3 x4 x5 x6 x7 x8 x9 x10 := rfl

set_option maxHeartbeats 4000000 in
/-- The kernel program's result is the reference's result term at the same arguments. -/
theorem result_eq [Cert.Pre_finite_inputs.Facts] (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) = fun _ => 1#1) :
    (W8 m ρ c (Proc.devRef .tc Cert.KernelIdeal.main_v169) : FVec Ideal Cert.KernelIdeal.S128x10 .f32)
      = val_main_v179 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) := by
  obtain ⟨r0, r3, r4, r5, r6, r7, r8, r9, r10, n8⟩ := Cert.Proof.PreFacts.of_pre _ _ _ _ _ _ _ _ _ _ _ hpre
  -- layer by layer: the two programs' layers agree and stay real
  have b1 := layer_bridge 0 Cert.KernelIdeal.Facts₀.slices_S3x128x128_S1x128x128_0_0_0 Cert.KernelIdeal.Facts₀.slices_S3x128_S1x128_0_0
    Cert.ReferenceIdeal.Facts₀.slices_S3x128x128_S1x128x128_0_0_0 Cert.ReferenceIdeal.Facts₀.slices_S3x128_S1x128_0_0 _ (m ((c.tc : Thread Cert.KernelIdeal.nD Cert.KernelIdeal.τ).loc Cert.KernelIdeal.main_arg1)) _ _ _ _ _ _ r0 r3 r4 r5 r6 r7 r8 n8
  have e1 : H1 m c = val_main_v71 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := b1.1.trans (l1 _ _ _ _ _ _ _ _).symm
  have b2 := layer_bridge 1 Cert.KernelIdeal.Facts₀.slices_S3x128x128_S1x128x128_1_0_0 Cert.KernelIdeal.Facts₀.slices_S3x128_S1x128_1_0
    Cert.ReferenceIdeal.Facts₀.slices_S3x128x128_S1x128x128_1_0_0 Cert.ReferenceIdeal.Facts₀.slices_S3x128_S1x128_1_0 (H1 m c) (m ((c.tc : Thread Cert.KernelIdeal.nD Cert.KernelIdeal.τ).loc Cert.KernelIdeal.main_arg1)) _ _ _ _ _ _ b1.2 r3 r4 r5 r6 r7 r8 n8
  have e2 : H2 m c = val_main_v116 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    refine b2.1.trans ?_
    rw [e1]
    exact (l2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm
  have b3 := layer_bridge 2 Cert.KernelIdeal.Facts₀.slices_S3x128x128_S1x128x128_2_0_0 Cert.KernelIdeal.Facts₀.slices_S3x128_S1x128_2_0
    Cert.ReferenceIdeal.Facts₀.slices_S3x128x128_S1x128x128_2_0_0 Cert.ReferenceIdeal.Facts₀.slices_S3x128_S1x128_2_0 (H2 m c) (m ((c.tc : Thread Cert.KernelIdeal.nD Cert.KernelIdeal.τ).loc Cert.KernelIdeal.main_arg1)) _ _ _ _ _ _ b2.2 r3 r4 r5 r6 r7 r8 n8
  have e3 : H3 m c = val_main_v161 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    refine b3.1.trans ?_
    rw [e2]
    exact (l3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).symm
  -- the result
  rw [W8_v169 m ρ c, pooled_eq, e1, e2, e3, ← val_pooled, head_eq, ls_eq]

end Cert.Proof.Alg

end
-- ==== Proof.lean ====
/-
  The certificate of the three-layer graph convolution network: a fused layer kernel (aggregate, then multiply by the
  layer's weight, fold the bias and the batch normalisation into one scale and one offset, clamp at zero) launched
  three times among host lines, against the reference that multiplies by the weight first and aggregates after.

  The frames. The kernel's program is eight items: host lines, a region, host lines, a region, host lines, a region,
  host lines and the outlined log-softmax. Each region's body keeps nothing between grid points, so each result block
  is a function of the four input blocks of its point; the buffers' contents at each boundary are a fold from the
  launch memory, and no item writes an argument array (Proof/KIRun.lean at the extended reals, Proof/KRun.lean at
  words: the same text). The reference is host lines only; its frame is its run with the result dropped
  (Proof/RefFrame.lean). The idealisation rewrote nothing, so there is nothing to preserve.

  The values. Over the extended reals each region leaves the dense layer value of its entry arrays in both result
  arrays (Proof/KIVal*.lean), so the kernel program's result is one function of its arguments (Proof/KIChain.lean). The
  claim as generated (finite inputs only) fails where a running variance plus epsilon is negative: the inverse
  square root is then the junk value, which the kernel's folded scale and offset and the reference's step-by-step
  affine map propagate differently; the precondition therefore also asks the running variances to be non-negative.
  Under it every argument entry is real (Proof/PreFacts.lean), every edge coefficient is real because each node has
  its self-loop (Proof/NormReal.lean), and one layer of the two programs is one function of real features
  (Proof/LibLayerLaw.lean, Proof/Bridge.lean): aggregation is a finite real-linear map of the rows, so it commutes with
  the product by the weight, and the folded affine map equals the unfolded one by the ring laws. The two poolings agree
  entry by entry (Proof/Tail.lean), and the head and the log-softmax are the same operations on equal arrays
  (Proof/Alg.lean).
-/
import proofs.«160187_j35459249995962_2_alg».proof.Defs
import proofs.«160187_j35459249995962_2_alg».proof.Proof.Gen.Kernel
import proofs.«160187_j35459249995962_2_alg».proof.Proof.Gen.KernelIdeal
import proofs.«160187_j35459249995962_2_alg».proof.Proof.Gen.ReferenceIdeal
import proofs.«160187_j35459249995962_2_alg».proof.Proof.Gen.Pre_finite_inputs
import proofs.«160187_j35459249995962_2_alg».proof.Proof.KRun
import proofs.«160187_j35459249995962_2_alg».proof.Proof.KIRun
import proofs.«160187_j35459249995962_2_alg».proof.Proof.RefFrame
import proofs.«160187_j35459249995962_2_alg».proof.Proof.Alg
import Idealize.ShloMosaic.Adequacy
import Idealize.ShloMosaic.Init

noncomputable section

namespace Cert.Proof

open Idealize.ShloMosaic Idealize.SL.Sem

theorem frame_k [Cert.Kernel.Facts] [Cert.Pre_finite_inputs.Facts] : Cert.frame_Kernel :=
  fun m ρ _ => Cert.Kernel.Hand.frame (F := Bits) m ρ

theorem frame_ki [Cert.KernelIdeal.Facts] [Cert.Pre_finite_inputs.Facts] : Cert.frame_KernelIdeal :=
  fun m ρ _ => Cert.KernelIdeal.Hand.frame (F := Ideal) m ρ

/-- From memories agreeing on the arguments both idealised programs end with the same result: the kernel program's
    run ends with every buffer at the fold's last contents, the reference's run with its result at its composed term, and
    the two are one function of the arguments. -/
theorem algebraic [Cert.KernelIdeal.Facts] [Cert.ReferenceIdeal.Facts] [Cert.Pre_finite_inputs.Facts] : Cert.algebraic_KernelIdeal_ReferenceIdeal := by
  intro m ρ m' ρ' hpre hagree
  refine ⟨fun c => Cert.KernelIdeal.Hand.W8 m ρ c (Proc.devRef .tc Cert.KernelIdeal.main_v169), ?_, ?_⟩
  · exact (θ_run Cert.KernelIdeal.defs _ _).mono (fun r h c =>
      ⟨h c _ (Cert.KernelIdeal.Hand.mem_uc Cert.KernelIdeal.main_v169 (by decide)),
       (h c _ (Cert.KernelIdeal.Hand.mem_uc Cert.KernelIdeal.main_arg0 (by decide))).trans (Cert.KernelIdeal.Hand.W8_arg m ρ c Cert.KernelIdeal.main_arg0 (by decide) (by decide) (by decide) (by decide)),
       (h c _ (Cert.KernelIdeal.Hand.mem_uc Cert.KernelIdeal.main_arg1 (by decide))).trans (Cert.KernelIdeal.Hand.W8_arg m ρ c Cert.KernelIdeal.main_arg1 (by decide) (by decide) (by decide) (by decide)),
       (h c _ (Cert.KernelIdeal.Hand.mem_uc Cert.KernelIdeal.main_arg2 (by decide))).trans (Cert.KernelIdeal.Hand.W8_arg m ρ c Cert.KernelIdeal.main_arg2 (by decide) (by decide) (by decide) (by decide)),
       (h c _ (Cert.KernelIdeal.Hand.mem_uc Cert.KernelIdeal.main_arg3 (by decide))).trans (Cert.KernelIdeal.Hand.W8_arg m ρ c Cert.KernelIdeal.main_arg3 (by decide) (by decide) (by decide) (by decide)),
       (h c _ (Cert.KernelIdeal.Hand.mem_uc Cert.KernelIdeal.main_arg4 (by decide))).trans (Cert.KernelIdeal.Hand.W8_arg m ρ c Cert.KernelIdeal.main_arg4 (by decide) (by decide) (by decide) (by decide)),
       (h c _ (Cert.KernelIdeal.Hand.mem_uc Cert.KernelIdeal.main_arg5 (by decide))).trans (Cert.KernelIdeal.Hand.W8_arg m ρ c Cert.KernelIdeal.main_arg5 (by decide) (by decide) (by decide) (by decide)),
       (h c _ (Cert.KernelIdeal.Hand.mem_uc Cert.KernelIdeal.main_arg6 (by decide))).trans (Cert.KernelIdeal.Hand.W8_arg m ρ c Cert.KernelIdeal.main_arg6 (by decide) (by decide) (by decide) (by decide)),
       (h c _ (Cert.KernelIdeal.Hand.mem_uc Cert.KernelIdeal.main_arg7 (by decide))).trans (Cert.KernelIdeal.Hand.W8_arg m ρ c Cert.KernelIdeal.main_arg7 (by decide) (by decide) (by decide) (by decide)),
       (h c _ (Cert.KernelIdeal.Hand.mem_uc Cert.KernelIdeal.main_arg8 (by decide))).trans (Cert.KernelIdeal.Hand.W8_arg m ρ c Cert.KernelIdeal.main_arg8 (by decide) (by decide) (by decide) (by decide)),
       (h c _ (Cert.KernelIdeal.Hand.mem_uc Cert.KernelIdeal.main_arg9 (by decide))).trans (Cert.KernelIdeal.Hand.W8_arg m ρ c Cert.KernelIdeal.main_arg9 (by decide) (by decide) (by decide) (by decide)),
       (h c _ (Cert.KernelIdeal.Hand.mem_uc Cert.KernelIdeal.main_arg10 (by decide))).trans (Cert.KernelIdeal.Hand.W8_arg m ρ c Cert.KernelIdeal.main_arg10 (by decide) (by decide) (by decide) (by decide))⟩)
      (Cert.KernelIdeal.Hand.run_main (F := Ideal) m ρ)
  · refine (θ_run Cert.ReferenceIdeal.defs _ _).mono (fun r h c => ⟨(h c).1.trans ?_, (h c).2⟩) (Cert.ReferenceIdeal.Value.run (F := Ideal) m' ρ')
    rw [Cert.ReferenceIdeal.Read.val_main_v179_eq m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]
    exact (Cert.Proof.Alg.result_eq m ρ c (hpre c)).symm

theorem claim : Cert.Claim := ⟨Cert.Kernel.Gen.facts, Cert.KernelIdeal.Gen.facts, Cert.ReferenceIdeal.Gen.facts, Cert.Pre_finite_inputs.Gen.facts,
  frame_k, frame_ki, Cert.Proof.RefClaims.frame_ri, trivial, algebraic⟩

end Cert.Proof

end
